-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2048 : Shape := ⟨1, ![2048]⟩
abbrev S1000000x64 : Shape := ⟨2, ![1000000, 64]⟩
abbrev S2048x64 : Shape := ⟨2, ![2048, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : IVec S2048 32) (main_arg1 : FVec F S1000000x64 .f32) (main_arg2 : FVec F S2048x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S2048x64 .f32 := Host.absf main_arg2
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg0 main_v9
  let main_c_3 : IVec S_ 32 := constantI S_ 32 999999#32
  let main_v11 : IVec S2048 32 := broadcastInDim S2048 ![] bcast_S_S2048 main_c_3
  let main_v12 : IVec S2048 1 := cmpi .sle main_arg0 main_v11
  let main_v13 : IVec S2048 1 := andi main_v10 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v8 main_v14
  main_v15
-- ==== Kernel.lean ====
abbrev S2048 : Shape := ⟨1, ![2048]⟩
abbrev S1000000x64 : Shape := ⟨2, ![1000000, 64]⟩
abbrev S2048x64 : Shape := ⟨2, ![2048, 64]⟩
abbrev S_ : Shape := ⟨0, ![]⟩
abbrev S1000000x128 : Shape := ⟨2, ![1000000, 128]⟩
abbrev S1024x128 : Shape := ⟨2, ![1024, 128]⟩
abbrev S64 : Shape := ⟨1, ![64]⟩
abbrev S64x128 : Shape := ⟨2, ![64, 128]⟩
abbrev S32x128 : Shape := ⟨2, ![32, 128]⟩
abbrev S16 : Shape := ⟨1, ![16]⟩

abbrev nBuf : Table → Nat
  | .hbm => 9
  | .local .scVector .vmem => 4
  | _ => 0

abbrev bufTy : (tb : Table) → Fin (nBuf tb) → BufTy
  | .hbm, ⟨0, _⟩ => ⟨S2048, .i32⟩
  | .hbm, ⟨1, _⟩ => ⟨S1000000x64, .f32⟩
  | .hbm, ⟨2, _⟩ => ⟨S2048x64, .f32⟩
  | .hbm, ⟨3, _⟩ => ⟨S_, .f32⟩
  | .hbm, ⟨4, _⟩ => ⟨S1000000x64, .f32⟩
  | .hbm, ⟨5, _⟩ => ⟨S1000000x128, .f32⟩
  | .hbm, ⟨6, _⟩ => ⟨S1024x128, .f32⟩
  | .hbm, ⟨7, _⟩ => ⟨S1024x128, .f32⟩
  | .hbm, ⟨8, _⟩ => ⟨S2048x64, .f32⟩
  | .local .scVector .vmem, ⟨0, _⟩ => ⟨S64, .i32⟩
  | .local .scVector .vmem, ⟨1, _⟩ => ⟨S64x128, .f32⟩
  | .local .scVector .vmem, ⟨2, _⟩ => ⟨S32x128, .f32⟩
  | .local .scVector .vmem, ⟨3, _⟩ => ⟨S32x128, .f32⟩
  | _, _ => ⟨S2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_1 : BitVec 32 := 0#32
  ![v3.toNat, 0]
@[reducible] def k0_t1_loop : Scf.Loop 32 :=
  let c0_i32_8 : BitVec 32 := 0#32
  let c256_i32 : BitVec 32 := 256#32
  let v11 : BitVec 32 := Scalar.addi c0_i32_8 c256_i32
  let c1_i32 : BitVec 32 := 1#32
  ⟨c0_i32_8, v11, c1_i32⟩

def k0_chk1 (v16 : IVec S16 32) (v18 : IVec S16 32) : Prop :=
  (∀ a x, ((![v16, v18] : Fin 2 → IVec S16 32) a x).toNat < S64x128.size a)
instance k0_chk1.dec : ∀ (v16 : IVec S16 32) (v18 : IVec S16 32), Decidable (k0_chk1 v16 v18) := fun v16 v18 => decidable_of_iff' _ (Iff.of_eq (k0_chk1.eq_1 v16 v18))
theorem k0_idx1_inb : ∀ (v16 : IVec S16 32) (v18 : IVec S16 32) (k0_hw1 : k0_chk1 v16 v18), ∀ a x, ((![v16, v18] : Fin 2 → IVec S16 32) a x).toNat < S64x128.size a := fun v16 v18 k0_hw1 => k0_hw1

def k0_chk2 (v21 : IVec S16 32) (v23 : IVec S16 32) : Prop :=
  (∀ a x, ((![v21, v23] : Fin 2 → IVec S16 32) a x).toNat < S32x128.size a) ∧
  (∀ a x, ((![v21, v23] : Fin 2 → IVec S16 32) a x).toNat < S32x128.size a)
instance k0_chk2.dec : ∀ (v21 : IVec S16 32) (v23 : IVec S16 32), Decidable (k0_chk2 v21 v23) := fun v21 v23 => decidable_of_iff' _ (Iff.of_eq (k0_chk2.eq_1 v21 v23))
theorem k0_idx2_inb : ∀ (v21 : IVec S16 32) (v23 : IVec S16 32) (k0_hw2 : k0_chk2 v21 v23), ∀ a x, ((![v21, v23] : Fin 2 → IVec S16 32) a x).toNat < S32x128.size a := fun v21 v23 k0_hw2 => k0_hw2.1
theorem k0_idx3_inb : ∀ (v21 : IVec S16 32) (v23 : IVec S16 32) (k0_hw2 : k0_chk2 v21 v23), ∀ a x, ((![v21, v23] : Fin 2 → IVec S16 32) a x).toNat < S32x128.size a := fun v21 v23 k0_hw2 => k0_hw2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  shapeCasts_S2048x64_S1024x128 : S2048x64.ShapeCasts S1024x128
  inb_S1000000x128_S1000000x128_0_0 : ∀ a, (![0, 0] : Fin 2 → Nat) a + S1000000x128.size a ≤ S1000000x128.size a
  gathers_S1000000x128_S64x128 : S1000000x128.Gathers 0 S64x128
  iota_S16_d0_w32_scVector : S16.Iotas .scVector 32 [0]
  h_S64x128 : 0 < S64x128.numel
  h_S32x128 : 0 < S32x128.numel
  shapeCasts_S1024x128_S2048x64 : S1024x128.ShapeCasts S2048x64
  hcc0_scratch4 : 0 + S_.numel ≤ 4
  hcc0_scratch5 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S2048.size a
  k0_off2_inb : ∀ i : grid0.Coords, ∀ a, (k0_off2 i) a + S32x128.size a ≤ S1024x128.size a
  k0_t1_ok : k0_t1_loop.OK

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S2048 : Shape := ⟨1, ![2048]⟩
abbrev S1000000x64 : Shape := ⟨2, ![1000000, 64]⟩
abbrev S2048x64 : Shape := ⟨2, ![2048, 64]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048, .i32⟩
  | .hbm, ⟨1, _⟩ => ⟨S1000000x64, .f32⟩
  | .hbm, ⟨2, _⟩ => ⟨S2048x64, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S1, .i32⟩
  | .hbm, ⟨13, _⟩ => ⟨S_, .i32⟩
  | .hbm, ⟨14, _⟩ => ⟨S2048x1, .i32⟩
  | .hbm, ⟨15, _⟩ => ⟨S2048x1, .i1⟩
  | .hbm, ⟨16, _⟩ => ⟨S1x1, .i32⟩
  | .hbm, ⟨17, _⟩ => ⟨S2048x1, .i32⟩
  | .hbm, ⟨18, _⟩ => ⟨S2048x1, .i1⟩
  | .hbm, ⟨19, _⟩ => ⟨S2048x1, .i1⟩
  | .hbm, ⟨20, _⟩ => ⟨S_, .i1⟩
  | .hbm, ⟨21, _⟩ => ⟨S2048, .i1⟩
  | .hbm, ⟨22, _⟩ => ⟨S2048x64, .f32⟩
  | .hbm, ⟨23, _⟩ => ⟨S2048x64, .i1⟩
  | .hbm, ⟨24, _⟩ => ⟨S_, .f32⟩
  | .hbm, ⟨25, _⟩ => ⟨S2048x64, .f32⟩
  | .hbm, ⟨26, _⟩ => ⟨S2048x64, .f32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S1, .i32⟩
  | .hbm, ⟨36, _⟩ => ⟨S_, .i32⟩
  | .hbm, ⟨37, _⟩ => ⟨S2048x1, .i32⟩
  | .hbm, ⟨38, _⟩ => ⟨S2048x1, .i1⟩
  | .hbm, ⟨39, _⟩ => ⟨S1x1, .i32⟩
  | .hbm, ⟨40, _⟩ => ⟨S2048x1, .i32⟩
  | .hbm, ⟨41, _⟩ => ⟨S2048x1, .i1⟩
  | .hbm, ⟨42, _⟩ => ⟨S2048x1, .i1⟩
  | .hbm, ⟨43, _⟩ => ⟨S_, .i1⟩
  | .hbm, ⟨44, _⟩ => ⟨S2048, .i1⟩
  | .hbm, ⟨45, _⟩ => ⟨S2048x64, .f32⟩
  | .hbm, ⟨46, _⟩ => ⟨S2048x64, .i1⟩
  | .hbm, ⟨47, _⟩ => ⟨S_, .f32⟩
  | .hbm, ⟨48, _⟩ => ⟨S2048x64, .f32⟩
  | .hbm, ⟨49, _⟩ => ⟨S2048x64, .f32⟩
  | .hbm, ⟨50, _⟩ => ⟨S2048x64, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x64_0 : S2048.BroadcastsInDim S2048x64 (![0] : Fin 1 → Fin S2048x64.rank)
  bcast_S_S2048x64 : S_.BroadcastsInDim S2048x64 (![] : Fin 0 → Fin S2048x64.rank)
  gather_S2048x64_S2048x1_S2048x64_1_0_n_n_0_1_164_wf : GatherDims.WF S2048x64 S2048x1 S2048x64 [1] [0] [] [0] [] 1 ![1, 64]
  gather_S1000000x64_S2048x1_S2048x64_1_0_n_n_0_1_164_wf : GatherDims.WF S1000000x64 S2048x1 S2048x64 [1] [0] [] [0] [] 1 ![1, 64]

variable [Facts₀]

def gather_S2048x64_S2048x1_S2048x64_1_0_n_n_0_1_164 : GatherDims S2048x64 S2048x1 S2048x64 where
  offsetDims := [1]
  collapsedSliceDims := [0]
  operandBatchingDims := []
  startIndicesBatchingDims := []
  startIndexMap := [0]
  indexVectorDim := 1
  sliceSizes := ![1, 64]
  wf := gather_S2048x64_S2048x1_S2048x64_1_0_n_n_0_1_164_wf
def gather_S1000000x64_S2048x1_S2048x64_1_0_n_n_0_1_164 : GatherDims S1000000x64 S2048x1 S2048x64 where
  offsetDims := [1]
  collapsedSliceDims := [0]
  operandBatchingDims := []
  startIndicesBatchingDims := []
  startIndexMap := [0]
  indexVectorDim := 1
  sliceSizes := ![1, 64]
  wf := gather_S1000000x64_S2048x1_S2048x64_1_0_n_n_0_1_164_wf

class Facts : Prop extends Facts₀ where

variable [Facts]
-- ==== Proof.Spec.lean ====
/-
  The embedding this certificate is about, stated once over plain arrays and for every float instance.

  For a list `x` of 2048 words, a word table of 1 000 000 rows of 64 floats and a position table of 2048 rows of
  64 floats, entry `(i, e)` of the result is  word[x i, e] + pos[i, e].  The word a list entry holds is read as a row
  number through `rowOf`, which keeps it below the table's extent; on the lists the certificate's precondition
  admits (every word at most 999 999) that is the word's own value.

  The same numbers arranged as 1024 rows of 128 (`tileOut`): entry `(R, C)` has flat position f = 128 R + C, it is
  entry `(f / 64, f % 64)` of the result above, so it reads row `x (f / 64)` of a table WIDENED to 128 columns at
  column `f % 64`, and adds the position table re-laid as 1024 x 128 at `(R, C)` itself.
-/
import Idealize.ShloMosaic.PureOps.Ideal
import Idealize.ShloMosaic.Lib.ValueIdx

noncomputable section

namespace Cert.Spec

open Idealize.ShloMosaic Idealize.ShloMosaic.ValueIdx

/-- The table row a 32-bit word names: its value, kept below the table's extent. -/
def rowOf (w : BitVec 32) : Fin 1000000 := ⟨min w.toNat 999999, by omega⟩

/-- On a word below the extent, the row is the word's value. -/
theorem rowOf_val {w : BitVec 32} (h : w.toNat < 1000000) : (rowOf w).val = w.toNat := by
  show min w.toNat 999999 = w.toNat
  omega

/-- Entry `(i, e)`: row `x i` of the word table plus row `i` of the position table, at column `e`. -/
def embed {F : FTy → Type} [FloatOps F] (x : IVec ⟨1, ![2048]⟩ 32) (word : FVec F ⟨2, ![1000000, 64]⟩ .f32)
    (pos : FVec F ⟨2, ![2048, 64]⟩ .f32) : FVec F ⟨2, ![2048, 64]⟩ .f32 :=
  fun j => FloatOps.addf (word (ix2 (n0 := 1000000) (n1 := 64) (rowOf (x (ix1 (n := 2048) (j 0)))) (j 1))) (pos j)

/-- The flat position of entry `(R, C)` of a 1024 x 128 array is below 2048 * 64. -/
theorem flat_lt (R : Fin 1024) (C : Fin 128) : R.val * 128 + C.val < 2048 * 64 := by
  have := R.isLt; have := C.isLt; omega

/-- The same result as 1024 rows of 128: entry `(R, C)`, at flat position f = 128 R + C, is the widened table's row
    `x (f / 64)` at column `f % 64` plus the re-laid position table at `(R, C)`. -/
def tileOut {F : FTy → Type} [FloatOps F] (x : IVec ⟨1, ![2048]⟩ 32) (tbl : FVec F ⟨2, ![1000000, 128]⟩ .f32)
    (pos2 : FVec F ⟨2, ![1024, 128]⟩ .f32) : FVec F ⟨2, ![1024, 128]⟩ .f32 :=
  fun j =>
    FloatOps.addf
      (tbl (ix2 (n0 := 1000000) (n1 := 128)
        (rowOf (x (ix1 (n := 2048) ⟨((j 0).val * 128 + (j 1).val) / 64, by
          have := flat_lt (j 0) (j 1); omega⟩)))
        ⟨((j 0).val * 128 + (j 1).val) % 64, by omega⟩))
      (pos2 j)

end Cert.Spec

end
-- ==== Proof.KB.Setup.lean ====
import proofs.«205826_g34540126994749_cont_8to1_b_743_19_alg».proof.Defs
import proofs.«205826_g34540126994749_cont_8to1_b_743_19_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205826_g34540126994749_cont_8to1_b_743_19_alg».proof.Proof.Gen.Kernel
import proofs.«205826_g34540126994749_cont_8to1_b_743_19_alg».proof.Proof.Gen.Kernel.Skeleton

/-!
  The embedding kernel as the launch theorem reads it: the call's configuration, the ghost state (the launch
  handshakes' rounds beside the transfers' counters), the four device arrays the call touches, and the pieces of
  them one vector subcore works on.

  Subcore `s` of SparseCore `c` is worker  w = 2 s + c  (0 ≤ w < 32). It owns words [64 w, 64 w + 64) of the index
  list, rows [32 w, 32 w + 32) of the re-laid position table and of the result, and reads the whole widened table.
-/

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the transfers' counters beside them. -/
abbrev UH : Type := URounds (GSem nD τ sig) ℕ
abbrev UU : Type := UH × Counters
abbrev EH : Emb UH (MT nD τ sig (HIx 1) (Elt F) ℕ UU ℕ) := embL

/-- The index list, the widened table, the re-laid position table and the result, as locations of device `d`. -/
abbrev xLoc (d : Dev nD) : Loc nD τ sig := (SparseCore.T d).loc main_arg0
abbrev tLoc (d : Dev nD) : Loc nD τ sig := (SparseCore.T d).loc main_v1
abbrev pLoc (d : Dev nD) : Loc nD τ sig := (SparseCore.T d).loc main_v2
abbrev oLoc (d : Dev nD) : Loc nD τ sig := (SparseCore.T d).loc main_v3

/-- The SparseCore and the subcore a grid point names. -/
abbrev cV (L : grid0.Coords) : Fin τ.nSC := (L 0).castLE hcore0
abbrev jV (L : grid0.Coords) : Fin τ.nSub := (L 1).castLE hsub0

/-- The worker number of a grid point: 2 s + c. -/
def widN (L : grid0.Coords) : ℕ := 2 * (L 1).val + (L 0).val

theorem widN_lt (L : grid0.Coords) : widN L < 32 := by
  have h0 : (L 0).val < 2 := (L 0).isLt
  have h1 : (L 1).val < 16 := (L 1).isLt
  unfold widN; omega

/-- The worker's words of the list start at 64 w, its rows of the position table and of the result at 32 w. -/
theorem off1_eq (L : grid0.Coords) : k0_off1 L = ![64 * widN L] := by
  rw [k0_off1_eq]; unfold widN; congr 1; omega
theorem off2_eq (L : grid0.Coords) : k0_off2 L = ![32 * widN L, 0] := by
  rw [k0_off2_eq]; unfold widN
  funext a; match a with
  | ⟨0, _⟩ => show 64 * (L 1).val + 32 * (L 0).val = 32 * (2 * (L 1).val + (L 0).val); omega
  | ⟨1, _⟩ => rfl

/-- The worker's pieces of the three arrays it is handed parts of, spelt as the kernel slices them. -/
abbrev xSl (L : grid0.Coords) : Memref sig .scVector .hbm S64 .i32 :=
  (Memref.whole main_arg0_scv : Memref sig .scVector .hbm S2048 .i32).slice (Rect.unit (s := S2048) (k0_off1 L) S64.size (k0_off1_inb L)) (fun _ => rfl)
abbrev pSl (L : grid0.Coords) : Memref sig .scVector .hbm S32x128 .f32 :=
  (Memref.whole main_v2_scv : Memref sig .scVector .hbm S1024x128 .f32).slice (Rect.unit (s := S1024x128) (k0_off2 L) S32x128.size (k0_off2_inb L)) (fun _ => rfl)
abbrev oSl (L : grid0.Coords) : Memref sig .scVector .hbm S32x128 .f32 :=
  (Memref.whole main_v3_scv : Memref sig .scVector .hbm S1024x128 .f32).slice (Rect.unit (s := S1024x128) (k0_off2 L) S32x128.size (k0_off2_inb L)) (fun _ => rfl)
/-- The widened table as the gather names it: the whole array, sliced at offset zero with its full extents. -/
abbrev tSl : Memref sig .scVector .hbm S1000000x128 .f32 :=
  (Memref.whole main_v1_scv : Memref sig .scVector .hbm S1000000x128 .f32).slice
    (Rect.unit (s := S1000000x128) ![0, 0] S1000000x128.size inb_S1000000x128_S1000000x128_0_0) (fun _ => rfl)

end Cert.KB

end
-- ==== Proof.KB.Pay.lean ====
/-
  The loop body's integer payloads, read lane by lane.

  Trip k of the 256 trips handles the sixteen flat positions f = 16 k + l, l the lane.  The body computes, per lane,
  f / 64 and f % 64 (where the gathered table row sits in its 64 x 128 scratch) and f / 128 and f % 128 (the entry of
  the 32 x 128 tile of positions and of results): a right shift by 6 or 7 of a 32-bit word is its quotient by 64 or
  128, and its conjunction with 63 or 127 the remainder.  No sum or product wraps, as f < 4096.  Every such index
  is inside the scratch it addresses, which is what the body's two checks ask.
-/
import proofs.«205826_g34540126994749_cont_8to1_b_743_19_alg».proof.Proof.Gen.Kernel.Skeleton

noncomputable section

namespace Cert.KB.Pay

open Idealize.ShloMosaic Idealize.SL.Sem Cert.Kernel Cert.Kernel.Gen

/-- The loop runs 256 trips. -/
theorem trips_eq : k0_t1_loop.trips = 256 := by decide

/-- A trip's number is below 256. -/
theorem trip_lt (k : Fin k0_t1_loop.trips) : k.val < 256 := trips_eq ▸ k.isLt

/-- A lane's number is below 16. -/
theorem lane_lt (x : S16.Idx) : (x 0).val < 16 := (x 0).isLt

/-- The flat position a lane of a trip handles is below 4096. -/
theorem flat_lt (k : Fin k0_t1_loop.trips) (x : S16.Idx) : 16 * k.val + (x 0).val < 4096 := by
  have := trip_lt k; have := lane_lt x; omega

/-- Lane l of trip k holds the flat position 16 k + l. -/
theorem pay1_toNat (k : Fin k0_t1_loop.trips) (x : S16.Idx) : (k0_pay1 k x).toNat = 16 * k.val + (x 0).val := by
  have hk := trip_lt k
  have hx := lane_lt x
  show ((0#32 + BitVec.ofNat 32 k.val * 1#32) * 16#32 + BitVec.ofNat 32 (0 * 16 + (x 0).val)).toNat = _
  simp only [BitVec.toNat_add, BitVec.toNat_mul, BitVec.toNat_ofNat]
  omega

/-- A right shift by 6 of a 32-bit word is its quotient by 64. -/
theorem shr6_toNat (w : BitVec 32) : (IntOp.shrui .vector w 6#32).toNat = w.toNat / 64 := by
  show (if (6#32 : BitVec 32).toNat < 32 then w >>> (6#32 : BitVec 32) else _).toNat = _
  rw [if_pos (by decide)]
  show (w >>> 6).toNat = _
  rw [BitVec.toNat_ushiftRight, Nat.shiftRight_eq_div_pow]

/-- A right shift by 7 of a 32-bit word is its quotient by 128. -/
theorem shr7_toNat (w : BitVec 32) : (IntOp.shrui .vector w 7#32).toNat = w.toNat / 128 := by
  show (if (7#32 : BitVec 32).toNat < 32 then w >>> (7#32 : BitVec 32) else _).toNat = _
  rw [if_pos (by decide)]
  show (w >>> 7).toNat = _
  rw [BitVec.toNat_ushiftRight, Nat.shiftRight_eq_div_pow]

/-- The conjunction of a 32-bit word with 63 is its remainder by 64. -/
theorem and63_toNat (w : BitVec 32) : (IntOp.andi w 63#32).toNat = w.toNat % 64 := by
  show (w &&& 63#32).toNat = _
  rw [BitVec.toNat_and]
  exact Nat.and_two_pow_sub_one_eq_mod w.toNat 6

/-- The conjunction of a 32-bit word with 127 is its remainder by 128. -/
theorem and127_toNat (w : BitVec 32) : (IntOp.andi w 127#32).toNat = w.toNat % 128 := by
  show (w &&& 127#32).toNat = _
  rw [BitVec.toNat_and]
  exact Nat.and_two_pow_sub_one_eq_mod w.toNat 7

/-- The row of the 64 x 128 scratch a lane reads: f / 64. -/
theorem pay2_toNat (k : Fin k0_t1_loop.trips) (x : S16.Idx) :
    (k0_pay2 k x).toNat = (16 * k.val + (x 0).val) / 64 := by
  show (IntOp.shrui .vector (k0_pay1 k x) 6#32).toNat = _
  rw [shr6_toNat, pay1_toNat]

/-- The column of the 64 x 128 scratch a lane reads: f % 64. -/
theorem pay3_toNat (k : Fin k0_t1_loop.trips) (x : S16.Idx) :
    (k0_pay3 k x).toNat = (16 * k.val + (x 0).val) % 64 := by
  show (IntOp.andi (k0_pay1 k x) 63#32).toNat = _
  rw [and63_toNat, pay1_toNat]

/-- The row of the 32 x 128 tile a lane reads and writes: f / 128. -/
theorem pay4_toNat (k : Fin k0_t1_loop.trips) (x : S16.Idx) :
    (k0_pay4 k x).toNat = (16 * k.val + (x 0).val) / 128 := by
  show (IntOp.shrui .vector (k0_pay1 k x) 7#32).toNat = _
  rw [shr7_toNat, pay1_toNat]

/-- The column of the 32 x 128 tile a lane reads and writes: f % 128. -/
theorem pay5_toNat (k : Fin k0_t1_loop.trips) (x : S16.Idx) :
    (k0_pay5 k x).toNat = (16 * k.val + (x 0).val) % 128 := by
  show (IntOp.andi (k0_pay1 k x) 127#32).toNat = _
  rw [and127_toNat, pay1_toNat]

/-- Every index of the gather from the 64 x 128 scratch is inside it, at every trip. -/
theorem chk1_all (k : Fin k0_t1_loop.trips) : k0_chk1 (k0_pay2 k) (k0_pay3 k) := by
  intro a x
  have hf := flat_lt k x
  match a with
  | ⟨0, _⟩ =>
    show (k0_pay2 k x).toNat < 64
    rw [pay2_toNat]; omega
  | ⟨1, _⟩ =>
    show (k0_pay3 k x).toNat < 128
    rw [pay3_toNat]; omega

/-- Every index into the 32 x 128 tile is inside it, at every trip. -/
theorem idx2_all (k : Fin k0_t1_loop.trips) :
    ∀ a x, ((![k0_pay4 k, k0_pay5 k] : Fin 2 → IVec S16 32) a x).toNat < S32x128.size a := by
  intro a x
  have hf := flat_lt k x
  match a with
  | ⟨0, _⟩ =>
    show (k0_pay4 k x).toNat < 32
    rw [pay4_toNat]; omega
  | ⟨1, _⟩ =>
    show (k0_pay5 k x).toNat < 128
    rw [pay5_toNat]; omega

/-- The second check (the gather from and the scatter into the 32 x 128 tile) holds at every trip. -/
theorem chk2_all (k : Fin k0_t1_loop.trips) : k0_chk2 (k0_pay4 k) (k0_pay5 k) :=
  ⟨idx2_all k, idx2_all k⟩

end Cert.KB.Pay

end
-- ==== Proof.LibStoreIdx.lean ====
/-
  The indexed (scatter) store of a vector into an array, read at one element.

  An unmasked, overwriting indexed store takes the lanes of a rank-one vector in ascending order; lane k
  overwrites the one element of the array that the index vectors name for lane k.  Two facts describe the
  array it leaves, for any shapes, any element type and any float instance:

    * an element that no lane names keeps the value it had (`storeIdx_miss`);
    * when different lanes name different elements, the element lane k names holds lane k's value
      (`storeIdx_hit`).

  Both are instances of one statement about a left fold of "overwrite where a predicate holds" steps over an
  arbitrary list of lanes (`foldl_miss`, `foldl_hit`), proved by induction on the list with the
  accumulator generalized.
-/
import Idealize.ShloMosaic.PureOps.ShapeOps
import Mathlib.Data.List.Nodup
import Mathlib.Data.List.Range

namespace Cert.LibStoreIdx

open Idealize.ShloMosaic

section Fold
variable {ι J α : Type}

/-- A left fold of steps, each of which leaves unchanged every position its lane does not select (`P k j` reads
    "lane k selects position j"): a position that no lane of the list selects keeps the accumulator's value. -/
theorem foldl_miss (P : ι → J → Prop) (φ : (J → α) → ι → (J → α))
    (hmiss : ∀ g k j, ¬ P k j → φ g k j = g j)
    (l : List ι) (g : J → α) (j : J) (hj : ∀ k ∈ l, ¬ P k j) : l.foldl φ g j = g j := by
  induction l generalizing g with
  | nil => rfl
  | cons x l ih =>
    rw [List.foldl_cons, ih (φ g x) (fun k hk => hj k (List.mem_cons_of_mem _ hk)),
      hmiss g x j (hj x List.mem_cons_self)]

/-- A left fold of steps, each of which writes its lane's value `val k` at every position the lane selects and
    leaves the other positions unchanged, over a list without repeats, when no position is selected by two
    different lanes: a position selected by a lane `k` of the list ends up holding `val k`.  (If `k` is the
    head, the step writes `val k` and the tail, which does not contain `k`, never selects the position again;
    otherwise the statement for the tail applies.) -/
theorem foldl_hit (P : ι → J → Prop) (val : ι → α) (φ : (J → α) → ι → (J → α))
    (hhit : ∀ g k j, P k j → φ g k j = val k)
    (hmiss : ∀ g k j, ¬ P k j → φ g k j = g j)
    (hinj : ∀ k k' j, P k j → P k' j → k = k')
    (l : List ι) (hl : l.Nodup) (g : J → α) (k : ι) (hk : k ∈ l) (j : J) (hP : P k j) :
    l.foldl φ g j = val k := by
  induction l generalizing g with
  | nil => cases hk
  | cons x l ih =>
    rw [List.foldl_cons]
    rcases List.mem_cons.mp hk with hx | hk'
    · subst hx
      rw [foldl_miss P φ hmiss l (φ g k) j ?_, hhit g k j hP]
      intro k' hk' hP'
      have hkk : k' = k := hinj k' k j hP' hP
      subst hkk
      exact (List.nodup_cons.mp hl).1 hk'
    · exact ih (List.nodup_cons.mp hl).2 (φ g x) hk'

end Fold

section Store
variable {F : FTy → Type} [FloatOps F] {s : Shape} {e : EltTy} {d : Fin 1 → Nat}

/-- "Lane `k` names element `j`": on every axis, `j`'s coordinate is the one the index vectors give for lane `k`. -/
def Names (idxs : Fin s.rank → IVec ⟨1, d⟩ 32) (h : ∀ a x, (idxs a x).toNat < s.size a) (k : Fin (d 0)) (j : s.Idx) : Prop :=
  ∀ a, (j a).val = (idxAt idxs h (Shape.ofLane k) a).val

/-- One lane of an unmasked overwriting indexed store: the array after lane `k` has been written into `g`. -/
def laneStep (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- The unmasked overwriting indexed store is the left fold of the one-lane steps over the lanes in ascending order. -/
theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (laneStep idxs v h) f := by
  unfold storeIdx laneStep
  simp

theorem laneStep_hit (idxs : Fin s.rank → IVec ⟨1, d⟩ 32) (v : Vec F ⟨1, d⟩ e) (h : ∀ a x, (idxs a x).toNat < s.size a)
    (g : Vec F s e) (k : Fin (d 0)) (j : s.Idx) (hP : Names idxs h k j) :
    laneStep idxs v h g k j = v (Shape.ofLane k) := by
  unfold laneStep
  exact if_pos hP

theorem laneStep_miss (idxs : Fin s.rank → IVec ⟨1, d⟩ 32) (v : Vec F ⟨1, d⟩ e) (h : ∀ a x, (idxs a x).toNat < s.size a)
    (g : Vec F s e) (k : Fin (d 0)) (j : s.Idx) (hP : ¬ Names idxs h k j) :
    laneStep idxs v h g k j = g j := by
  unfold laneStep
  exact if_neg hP

/-- An unmasked overwriting indexed store leaves unchanged every element that no lane names. -/
theorem storeIdx_miss (f : Vec F s e) (idxs : Fin s.rank → IVec ⟨1, d⟩ 32) (v : Vec F ⟨1, d⟩ e)
    (h : ∀ a x, (idxs a x).toNat < s.size a) (j : s.Idx)
    (hj : ∀ k : Fin (d 0), ¬ ∀ a, (j a).val = (idxAt idxs h (Shape.ofLane k) a).val) :
    storeIdx f idxs v (fun _ => 1#1) false h j = f j := by
  rw [storeIdx_eq_foldl]
  exact foldl_miss (Names idxs h) (laneStep idxs v h) (laneStep_miss idxs v h) _ f j (fun k _ => hj k)

/-- An unmasked overwriting indexed store whose lanes name pairwise different elements leaves, at the element lane
    `k` names, lane `k`'s value. -/
theorem storeIdx_hit (f : Vec F s e) (idxs : Fin s.rank → IVec ⟨1, d⟩ 32) (v : Vec F ⟨1, d⟩ e)
    (h : ∀ a x, (idxs a x).toNat < s.size a)
    (hinj : ∀ k k' : Fin (d 0),
      (∀ a, (idxAt idxs h (Shape.ofLane k) a).val = (idxAt idxs h (Shape.ofLane k') a).val) → k = k')
    (k : Fin (d 0)) :
    storeIdx f idxs v (fun _ => 1#1) false h (idxAt idxs h (Shape.ofLane k)) = v (Shape.ofLane k) := by
  rw [storeIdx_eq_foldl]
  refine foldl_hit (Names idxs h) (fun k => v (Shape.ofLane k)) (laneStep idxs v h) (laneStep_hit idxs v h)
    (laneStep_miss idxs v h) ?_ _ (List.nodup_finRange _) f k (List.mem_finRange k) _ (fun _ => rfl)
  intro k₁ k₂ j h₁ h₂
  exact hinj k₁ k₂ (fun a => (h₁ a).symm.trans (h₂ a))

end Store

end Cert.LibStoreIdx
-- ==== Proof.LibStoreStep.lean ====
/-
  One trip of a loop that fills a 32 x 128 array sixteen elements at a time with an indexed store.

  Read the array in row-major order: element (r, c) has flat position 128 r + c.  Trip k of the loop
  (0 <= k < 256) stores a vector of sixteen lanes; lane x goes to the element at flat position 16 k + x, that
  is, to row (16 k + x) / 128 and column (16 k + x) % 128.  If before the trip every element at a flat
  position below 16 k already holds the value `val` prescribes for it, and lane x carries the value `val`
  prescribes for the element it names, then after the trip every element at a flat position below 16 (k + 1)
  holds its prescribed value:

    * an element at a position in [16 k, 16 k + 16) is named by exactly one lane, lane (position - 16 k), and
      different lanes name different elements, so it holds that lane's value;
    * an element at a position below 16 k is named by no lane (every named position is at least 16 k) and keeps
      the value it had.
-/
import proofs.«205826_g34540126994749_cont_8to1_b_743_19_alg».proof.Proof.LibStoreIdx
import Idealize.ShloMosaic.Lib.ValueIdx

namespace Cert.LibStoreStep

open Idealize.ShloMosaic Idealize.ShloMosaic.ValueIdx Cert.LibStoreIdx

/-- The row-major flat position of element `(r, c)` of a 32 x 128 array: 128 r + c. -/
def flat (j : (⟨2, ![32, 128]⟩ : Shape).Idx) : ℕ := (j 0).val * 128 + (j 1).val

/-- Every index of a rank-one shape is the lane index of its one coordinate. -/
theorem eq_ofLane {d : Fin 1 → Nat} (x : (⟨1, d⟩ : Shape).Idx) : x = Shape.ofLane (x 0) := by
  funext a
  have ha : a = 0 := Fin.eq_zero a
  subst ha
  rfl

/-- The coordinate of a lane index is the lane. -/
theorem ofLane_val {d : Fin 1 → Nat} (l : Fin (d 0)) : ((Shape.ofLane l : (⟨1, d⟩ : Shape).Idx) 0).val = l.val := rfl

/-- One trip of the filling loop: see the head of the file. -/
theorem store_step {F : FTy → Type} [FloatOps F] (g : Vec F ⟨2, ![32, 128]⟩ .f32)
    (idxs : Fin 2 → IVec ⟨1, ![16]⟩ 32) (v : Vec F ⟨1, ![16]⟩ .f32)
    (h : ∀ a x, (idxs a x).toNat < (⟨2, ![32, 128]⟩ : Shape).size a) (k : ℕ) (hk : k < 256)
    (hidx : ∀ x : (⟨1, ![16]⟩ : Shape).Idx,
      (idxs 0 x).toNat = (16 * k + (x 0).val) / 128 ∧ (idxs 1 x).toNat = (16 * k + (x 0).val) % 128)
    (val : (⟨2, ![32, 128]⟩ : Shape).Idx → F .f32)
    (hv : ∀ x, v x = val (idxAt idxs h x))
    (IH : ∀ j, flat j < 16 * k → g j = val j) :
    ∀ j, flat j < 16 * (k + 1) → storeIdx g idxs v (fun _ => 1#1) false h j = val j := by
  intro j hj
  have h0 : (j 0).val < 32 := idx2_lt0 j
  have h1 : (j 1).val < 128 := idx2_lt1 j
  -- what lane l names, as numbers
  have hname : ∀ l : Fin 16,
      (idxAt (s := ⟨2, ![32, 128]⟩) idxs h (Shape.ofLane (d := ![16]) l) 0).val = (16 * k + l.val) / 128 ∧
      (idxAt (s := ⟨2, ![32, 128]⟩) idxs h (Shape.ofLane (d := ![16]) l) 1).val = (16 * k + l.val) % 128 := by
    intro l
    exact hidx (Shape.ofLane (d := ![16]) l)
  by_cases hlt : flat j < 16 * k
  · -- below 16 k: no lane names the element
    rw [storeIdx_miss g idxs v h j ?_, IH j hlt]
    intro l hn
    have e0 := (hn 0).trans (hname l).1
    have e1 := (hn 1).trans (hname l).2
    have hl : l.val < 16 := l.isLt
    unfold flat at hlt
    omega
  · -- in [16 k, 16 k + 16): lane (flat j - 16 k) names the element, and lanes name different elements
    have hfl : flat j = (j 0).val * 128 + (j 1).val := rfl
    have hl : flat j - 16 * k < 16 := by omega
    obtain ⟨l, hlv⟩ : ∃ l : Fin 16, l.val = flat j - 16 * k := ⟨⟨_, hl⟩, rfl⟩
    have hn := hname l
    have e0 : (j 0).val = (16 * k + l.val) / 128 := by omega
    have e1 : (j 1).val = (16 * k + l.val) % 128 := by omega
    have hjeq : j = idxAt (s := ⟨2, ![32, 128]⟩) idxs h (Shape.ofLane (d := ![16]) l) := by
      funext a
      apply Fin.ext
      match a with
      | ⟨0, _⟩ => exact e0.trans hn.1.symm
      | ⟨1, _⟩ => exact e1.trans hn.2.symm
    have hinj : ∀ l₁ l₂ : Fin 16,
        (∀ a, (idxAt (s := ⟨2, ![32, 128]⟩) idxs h (Shape.ofLane (d := ![16]) l₁) a).val
          = (idxAt (s := ⟨2, ![32, 128]⟩) idxs h (Shape.ofLane (d := ![16]) l₂) a).val) → l₁ = l₂ := by
      intro l₁ l₂ hll
      have c0 := (hname l₁).1.symm.trans ((hll 0).trans (hname l₂).1)
      have c1 := (hname l₁).2.symm.trans ((hll 1).trans (hname l₂).2)
      apply Fin.ext
      omega
    rw [hjeq]
    exact (storeIdx_hit (s := ⟨2, ![32, 128]⟩) (d := ![16]) g idxs v h hinj l).trans (hv _)

end Cert.LibStoreStep
-- ==== Proof.TileVal.lean ====
/-
  What one vector subcore leaves in its 32 x 128 output block, entry by entry.

  The block is filled 16 entries at a time in row-major order. The entry at flat position n = 128 r + c of the block
  is the sum of entry (n / 64, n % 64) of the subcore's 64 gathered table rows (each 128 wide, only its first 64
  columns ever read) and entry (r, c) of its 32 rows of the re-laid position table.
-/
import proofs.«205826_g34540126994749_cont_8to1_b_743_19_alg».proof.Proof.LibStoreStep

noncomputable section

namespace Cert.TileVal

open Idealize.ShloMosaic Idealize.ShloMosaic.ValueIdx Cert.LibStoreStep

/-- A flat position of the 32 x 128 block is below 4096. -/
theorem flat_lt (j : (⟨2, ![32, 128]⟩ : Shape).Idx) : flat j < 4096 := by
  have h0 : (j 0).val < 32 := (j 0).isLt
  have h1 : (j 1).val < 128 := (j 1).isLt
  unfold flat; omega

/-- The value of the block's entry `j`: gathered row `n / 64` at column `n % 64`, plus the position block at `j`,
    for n the flat position of `j`. -/
def val {F : FTy → Type} [FloatOps F] (G1 : FVec F ⟨2, ![64, 128]⟩ .f32) (G2 : FVec F ⟨2, ![32, 128]⟩ .f32)
    (j : (⟨2, ![32, 128]⟩ : Shape).Idx) : F .f32 :=
  FloatOps.addf (G1 (ix2 (n0 := 64) (n1 := 128) ⟨flat j / 64, by have := flat_lt j; omega⟩ ⟨flat j % 64, by omega⟩)) (G2 j)

end Cert.TileVal

end
-- ==== Proof.Bridge.lean ====
/-
  The layout operations around the tiled result, removed.

  The kernel's host side widens the word table to 128 columns by laying a second 1 000 000 x 64 array to its right,
  re-lays the 2048 x 64 position table as 1024 x 128, and re-lays the 1024 x 128 result as 2048 x 64.  Three facts:

    * a re-laying keeps the row-major flat position: entry (i, e) of a 2048 x 64 array is at f = 64 i + e, entry
      (R, C) of a 1024 x 128 array is at f = 128 R + C, so the two arrays agree at entries with the same f;
    * two arrays laid side by side, read at a column below the first one's width, give the first one at that column;
    * at f = 64 i + e with e < 64,  f / 64 = i  and  f % 64 = e.

  Hence the tiled result of `Cert.Spec.tileOut` over the widened table and the re-laid position table, re-laid back,
  is the embedding `Cert.Spec.embed`: entry (i, e) is  word[x i, e] + pos[i, e].  The right half of the widened table
  is never read, whatever it holds.  Nothing here depends on the float instance.
-/
import proofs.«205826_g34540126994749_cont_8to1_b_743_19_alg».proof.Proof.Spec
import Idealize.ShloMosaic.Lib.ValueIdx
import Idealize.ShloMosaic.Lib.Pipeline.Value

noncomputable section

namespace Cert.Bridge

open Idealize.ShloMosaic Idealize.ShloMosaic.ValueIdx Cert.Spec

variable {α : Type}

/-! ## A re-laying read at an entry -/

/-- 2048 x 64 re-laid as 1024 x 128: entry (R, C) is the operand's entry (i, e) with the same flat position. -/
theorem reshape_forth_apply (pos : (⟨2, ![2048, 64]⟩ : Shape).Idx → α)
    (h1 : (⟨2, ![2048, 64]⟩ : Shape).ShapeCasts ⟨2, ![1024, 128]⟩) (R : Fin 1024) (C : Fin 128) (i : Fin 2048)
    (e : Fin 64) (hf : i.val * 64 + e.val = R.val * 128 + C.val) :
    shapeCast ⟨2, ![1024, 128]⟩ pos h1 (ix2 R C) = pos (ix2 i e) :=
  shapeCast_apply pos h1 _ _ (by
    rw [Shape.rowMajor_val_two, Shape.rowMajor_val_two]
    show i.val * 64 + e.val = R.val * 128 + C.val
    exact hf)

/-- 1024 x 128 re-laid as 2048 x 64: entry (i, e) is the operand's entry (R, C) with the same flat position. -/
theorem reshape_back_apply (v : (⟨2, ![1024, 128]⟩ : Shape).Idx → α)
    (h2 : (⟨2, ![1024, 128]⟩ : Shape).ShapeCasts ⟨2, ![2048, 64]⟩) (i : Fin 2048) (e : Fin 64) (R : Fin 1024)
    (C : Fin 128) (hf : R.val * 128 + C.val = i.val * 64 + e.val) :
    shapeCast ⟨2, ![2048, 64]⟩ v h2 (ix2 i e) = v (ix2 R C) :=
  shapeCast_apply v h2 _ _ (by
    rw [Shape.rowMajor_val_two, Shape.rowMajor_val_two]
    show R.val * 128 + C.val = i.val * 64 + e.val
    exact hf)

/-- The entry of the 1024 x 128 array at the flat position of entry (i, e) of the 2048 x 64 array. -/
theorem tile_row_lt (i : Fin 2048) (e : Fin 64) : (i.val * 64 + e.val) / 128 < 1024 := by
  have := i.isLt; have := e.isLt; omega

/-- 1024 x 128 re-laid as 2048 x 64, with the entry read named by quotient and remainder. -/
theorem reshape_back_apply' (v : (⟨2, ![1024, 128]⟩ : Shape).Idx → α)
    (h2 : (⟨2, ![1024, 128]⟩ : Shape).ShapeCasts ⟨2, ![2048, 64]⟩) (i : Fin 2048) (e : Fin 64) :
    shapeCast ⟨2, ![2048, 64]⟩ v h2 (ix2 i e)
      = v (ix2 (n0 := 1024) (n1 := 128) ⟨(i.val * 64 + e.val) / 128, tile_row_lt i e⟩
          ⟨(i.val * 64 + e.val) % 128, Nat.mod_lt _ (by decide)⟩) :=
  reshape_back_apply v h2 i e _ _ (by
    show (i.val * 64 + e.val) / 128 * 128 + (i.val * 64 + e.val) % 128 = i.val * 64 + e.val
    omega)

/-- The row of the 2048 x 64 array at the flat position of entry (R, C) of the 1024 x 128 array. -/
theorem entry_row_lt (R : Fin 1024) (C : Fin 128) : (R.val * 128 + C.val) / 64 < 2048 := by
  have := flat_lt R C; omega

/-- 2048 x 64 re-laid as 1024 x 128, with the entry read named by quotient and remainder. -/
theorem reshape_forth_apply' (pos : (⟨2, ![2048, 64]⟩ : Shape).Idx → α)
    (h1 : (⟨2, ![2048, 64]⟩ : Shape).ShapeCasts ⟨2, ![1024, 128]⟩) (R : Fin 1024) (C : Fin 128) :
    shapeCast ⟨2, ![1024, 128]⟩ pos h1 (ix2 R C)
      = pos (ix2 (n0 := 2048) (n1 := 64) ⟨(R.val * 128 + C.val) / 64, entry_row_lt R C⟩
          ⟨(R.val * 128 + C.val) % 64, Nat.mod_lt _ (by decide)⟩) :=
  reshape_forth_apply pos h1 R C _ _ (by
    show (R.val * 128 + C.val) / 64 * 64 + (R.val * 128 + C.val) % 64 = R.val * 128 + C.val
    omega)

/-! ## Two tables side by side, read in the left one -/

/-- The widened table at a column below 64 is the word table at that column. -/
theorem concat_left_apply (word z : (⟨2, ![1000000, 64]⟩ : Shape).Idx → α)
    (hc : Shape.Concatenates [(⟨2, ![1000000, 64]⟩ : Shape), ⟨2, ![1000000, 64]⟩] ⟨2, ![1000000, 128]⟩ 1)
    (r : Fin 1000000) (c : Fin 128) (hlt : c.val < 64) :
    concatenate ⟨2, ![1000000, 128]⟩ 1 [⟨⟨2, ![1000000, 64]⟩, word⟩, ⟨⟨2, ![1000000, 64]⟩, z⟩] hc (ix2 r c)
      = word (ix2 r ⟨c.val, hlt⟩) :=
  concatenate_pair_apply_left (t := ⟨2, ![1000000, 128]⟩) 1 word z hc (ix2 r c) rfl (ix2 r ⟨c.val, hlt⟩)
    (fun b => match b with | ⟨0, _⟩ => rfl | ⟨1, _⟩ => rfl)

/-! ## The tiled result at an entry -/

/-- Entry (R, C) of the tiled result, with the list entry and the column it reads named: when the flat position
    128 R + C is 64 i + e, it reads row `x i` of the widened table at column e. -/
theorem tileOut_apply {F : FTy → Type} [FloatOps F] (x : IVec ⟨1, ![2048]⟩ 32) (tbl : FVec F ⟨2, ![1000000, 128]⟩ .f32)
    (pos2 : FVec F ⟨2, ![1024, 128]⟩ .f32) (R : Fin 1024) (C : Fin 128) (i : Fin 2048) (e : Fin 64)
    (hf : R.val * 128 + C.val = i.val * 64 + e.val) :
    tileOut x tbl pos2 (ix2 R C)
      = FloatOps.addf (tbl (ix2 (n0 := 1000000) (n1 := 128) (rowOf (x (ix1 (n := 2048) i))) ⟨e.val, by omega⟩))
          (pos2 (ix2 R C)) := by
  have hi : i = ⟨(R.val * 128 + C.val) / 64, entry_row_lt R C⟩ :=
    Fin.ext (by show i.val = (R.val * 128 + C.val) / 64; have := e.isLt; omega)
  have he : e = ⟨(R.val * 128 + C.val) % 64, Nat.mod_lt _ (by decide)⟩ :=
    Fin.ext (by show e.val = (R.val * 128 + C.val) % 64; have := e.isLt; omega)
  subst hi
  subst he
  rfl

/-! ## The embedding -/

/-- The tiled result over the widened table and the re-laid position table, re-laid as 2048 x 64, is the embedding. -/
theorem embed_of_tileOut {F : FTy → Type} [FloatOps F] (x : IVec ⟨1, ![2048]⟩ 32)
    (word : FVec F ⟨2, ![1000000, 64]⟩ .f32) (pos : FVec F ⟨2, ![2048, 64]⟩ .f32)
    (z : FVec F ⟨2, ![1000000, 64]⟩ .f32)
    (hc : Shape.Concatenates [(⟨2, ![1000000, 64]⟩ : Shape), ⟨2, ![1000000, 64]⟩] ⟨2, ![1000000, 128]⟩ 1)
    (h1 : (⟨2, ![2048, 64]⟩ : Shape).ShapeCasts ⟨2, ![1024, 128]⟩)
    (h2 : (⟨2, ![1024, 128]⟩ : Shape).ShapeCasts ⟨2, ![2048, 64]⟩) :
    shapeCast ⟨2, ![2048, 64]⟩
        (tileOut x
          (concatenate ⟨2, ![1000000, 128]⟩ 1 [⟨⟨2, ![1000000, 64]⟩, word⟩, ⟨⟨2, ![1000000, 64]⟩, z⟩] hc)
          (shapeCast ⟨2, ![1024, 128]⟩ pos h1)) h2
      = embed x word pos := by
  funext j
  obtain ⟨i, e, rfl⟩ : ∃ i e, j = ix2 i e := ⟨j 0, j 1, eq_ix2 j⟩
  have hf : (i.val * 64 + e.val) / 128 * 128 + (i.val * 64 + e.val) % 128 = i.val * 64 + e.val := by omega
  refine (reshape_back_apply' _ h2 i e).trans ?_
  refine (tileOut_apply x _ _ ⟨(i.val * 64 + e.val) / 128, tile_row_lt i e⟩
    ⟨(i.val * 64 + e.val) % 128, Nat.mod_lt _ (by decide)⟩ i e hf).trans ?_
  show _ = FloatOps.addf (word (ix2 (n0 := 1000000) (n1 := 64) (rowOf (x (ix1 (n := 2048) i))) e)) (pos (ix2 i e))
  exact congrArg₂ FloatOps.addf (concat_left_apply word z hc _ _ e.isLt) (reshape_forth_apply pos h1 _ _ i e hf.symm)

end Cert.Bridge

end
-- ==== Proof.KB.Moves.lean ====
/-
  What one vector subcore's data movement leaves in its buffers, read at an entry.

  Worker w = 2 s + c (0 ≤ w < 32) copies words [64 w, 64 w + 64) of the index list into its first buffer, gathers
  into its second buffer (64 rows of 128) the rows of the widened table those words name, copies rows
  [32 w, 32 w + 32) of the re-laid position table into its third buffer, and copies its fourth buffer (32 rows of
  128) out to rows [32 w, 32 w + 32) of the result.  Read at an entry:

    * the first buffer's word t is word 64 w + t of the list, so below 1 000 000 when every word of the list is;
    * the second buffer's entry (t, c) is the table at (value of word 64 w + t, c), and that value is the row the
      specification names when it is below 1 000 000;
    * the third buffer's entry (r, c) is the position table at (32 w + r, c);
    * when the fourth buffer's entry at flat position n = 128 r + c is the second buffer's (n / 64, n % 64) plus the
      third's (r, c), the result's entry (32 w + r, c) is the specification's tiled result there: its flat position
      is 4096 w + n, whose quotient by 64 is 64 w + n / 64 and whose remainder is n % 64.
-/
import proofs.«205826_g34540126994749_cont_8to1_b_743_19_alg».proof.Proof.KB.Setup
import proofs.«205826_g34540126994749_cont_8to1_b_743_19_alg».proof.Proof.Spec
import proofs.«205826_g34540126994749_cont_8to1_b_743_19_alg».proof.Proof.TileVal
import proofs.«205826_g34540126994749_cont_8to1_b_743_19_alg».proof.Proof.Bridge
import Idealize.ShloMosaic.Lib.SparseCore.Stream
import Idealize.ShloMosaic.Lib.Writes
import Idealize.ShloMosaic.Lib.ValueIdx

noncomputable section

namespace Cert.KB.Moves

open Cert.Kernel Cert.Kernel.Gen Cert.KB Idealize.ShloMosaic Idealize.ShloMosaic.ValueIdx
open Idealize.ShloMosaic.SparseCore (V)

variable {F : FTy → Type} (d : Dev nD) (L : grid0.Coords)

/-! ## The list's words in the first buffer -/

/-- The worker's piece of the list at word `t` is word `64 w + t` of the list. -/
theorem xSl_emb (t : Fin 64) :
    (xSl L).view.emb (ix1 t) = ix1 (n := 2048) ⟨64 * widN L + t.val, by have := widN_lt L; omega⟩ := by
  funext a
  refine Fin.ext ?_
  match a with
  | ⟨0, _⟩ =>
    show (k0_off1 L) 0 + 1 * t.val = 64 * widN L + t.val
    rw [off1_eq]
    show 64 * widN L + 1 * t.val = 64 * widN L + t.val
    omega

/-- The first buffer written whole with the worker's piece of the list reads as that piece. -/
theorem scratch0_read (X : Buf (Elt F) (xLoc d)) (g : Buf (Elt F) ((V d (cV L) (jV L)).loc cc0_scratch0)) :
    (Memref.whole cc0_scratch0).view.read (Elt F)
        ((Memref.whole cc0_scratch0).view.write (Elt F) g (ReadAs.same.apply ((xSl L).view.read (Elt F) X)) Finset.univ)
      = (xSl L).view.read (Elt F) X := by
  show (View.whole cc0_scratch0).read (Elt F) ((View.whole cc0_scratch0).write (Elt F) g _ Finset.univ) = _
  rw [View.write_whole_univ]
  rfl

/-- Every word the first buffer then holds is a word of the list: below 1 000 000 when all of the list's are. -/
theorem idx_inb (X : Buf (Elt F) (xLoc d)) (hX : ∀ j, (X j).toNat < 1000000) :
    ∀ (g : Buf (Elt F) ((V d (cV L) (jV L)).loc cc0_scratch0)) (x : cc0_scratch0.ty.shape.Idx),
      ((Memref.whole cc0_scratch0).view.read (Elt F)
        ((Memref.whole cc0_scratch0).view.write (Elt F) g (ReadAs.same.apply ((xSl L).view.read (Elt F) X)) Finset.univ)
        x).toNat < 1000000 := by
  intro g x
  rw [scratch0_read]
  exact hX ((xSl L).view.emb x)

/-! ## The position table's rows in the third buffer -/

/-- The worker's piece of the position table at `(r, c)` is the table's entry `(32 w + r, c)`. -/
theorem pSl_emb (r : Fin 32) (c : Fin 128) :
    (pSl L).view.emb (ix2 r c)
      = ix2 (n0 := 1024) (n1 := 128) ⟨32 * widN L + r.val, by have := widN_lt L; omega⟩ c := by
  funext a
  refine Fin.ext ?_
  match a with
  | ⟨0, _⟩ =>
    show (k0_off2 L) 0 + 1 * r.val = 32 * widN L + r.val
    rw [off2_eq]
    show 32 * widN L + 1 * r.val = 32 * widN L + r.val
    omega
  | ⟨1, _⟩ =>
    show (k0_off2 L) 1 + 1 * c.val = c.val
    rw [off2_eq]
    show 0 + 1 * c.val = c.val
    omega

/-- The third buffer holds the worker's rows of the position table: entry `(r, c)` is the table's `(32 w + r, c)`. -/
def IsPos (V2 : Buf (Elt F) (pLoc d)) (G2 : Buf (Elt F) ((V d (cV L) (jV L)).loc cc0_scratch2)) : Prop :=
  ∀ (r : Fin 32) (c : Fin 128),
    G2 (ix2 r c) = V2 (ix2 (n0 := 1024) (n1 := 128) ⟨32 * widN L + r.val, by have := widN_lt L; omega⟩ c)

/-- The third buffer written whole with the worker's piece of the position table holds those rows. -/
theorem pos_isPos (V2 : Buf (Elt F) (pLoc d)) (f2 : Buf (Elt F) ((V d (cV L) (jV L)).loc cc0_scratch2)) :
    IsPos d L V2 ((Memref.whole cc0_scratch2).view.write (Elt F) f2
      (ReadAs.same.apply ((pSl L).view.read (Elt F) V2)) Finset.univ) := by
  intro r c
  show (View.whole cc0_scratch2).write (Elt F) f2 ((pSl L).view.read (Elt F) V2) Finset.univ (ix2 r c) = _
  rw [View.write_whole_univ, View.read_apply, pSl_emb]
  rfl

/-! ## The gathered rows in the second buffer -/

/-- The whole rectangle places an index at itself. -/
theorem rect_whole_emb {s : Shape} (x : s.Idx) : (Rect.whole s).emb x = x := by
  funext a
  refine Fin.ext ?_
  show 0 + 1 * (x a).val = (x a).val
  omega

/-- The row a list of 64 words names for entry `k`: the value of word `k`. -/
theorem rows_val {o z : ℕ} (idx : S64.Idx → Elt F .i32) (hn : S64.numel = o) (h : ∀ x, (idx x).toNat < z) (k : Fin o)
    (hk : k.val < 64) : (SparseCore.rows idx hn h k).val = (idx (ix1 ⟨k.val, hk⟩)).toNat := by
  have he : S64.rowMajor.symm (k.cast hn.symm) = ix1 ⟨k.val, hk⟩ := by
    rw [Equiv.symm_apply_eq]
    refine Fin.ext ?_
    rw [Shape.rowMajor_val_one]
    rfl
  show (idx (S64.rowMajor.symm (k.cast hn.symm))).toNat = _
  rw [he]

/-- The second buffer holds the table's rows the worker's words name: entry `(t, c)` is the table at
    (the row of word `64 w + t`, `c`). -/
def IsRows (X : Buf (Elt F) (xLoc d)) (V1 : Buf (Elt F) (tLoc d))
    (G1 : Buf (Elt F) ((V d (cV L) (jV L)).loc cc0_scratch1)) : Prop :=
  ∀ (t : Fin 64) (c : Fin 128),
    G1 (ix2 t c) = V1 (ix2 (n0 := 1000000) (n1 := 128)
      (Cert.Spec.rowOf (X (ix1 (n := 2048) ⟨64 * widN L + t.val, by have := widN_lt L; omega⟩))) c)

/-- The gather's payload over the list the first buffer holds, written whole into the second buffer over any earlier
    contents, is those rows. -/
theorem rows_isRows (X : Buf (Elt F) (xLoc d)) (V1 : Buf (Elt F) (tLoc d))
    (f0 : Buf (Elt F) ((V d (cV L) (jV L)).loc cc0_scratch0))
    (f1 : Buf (Elt F) ((V d (cV L) (jV L)).loc cc0_scratch1)) (hX : ∀ j, (X j).toNat < 1000000)
    (hn : S64.numel = S64x128.size gathers_S1000000x128_S64x128.axis')
    (hin : ∀ x, ((Memref.whole cc0_scratch0).view.read (Elt F)
      ((Memref.whole cc0_scratch0).view.write (Elt F) f0 (ReadAs.same.apply ((xSl L).view.read (Elt F) X)) Finset.univ)
      x).toNat < S1000000x128.size gathers_S1000000x128_S64x128.axis) :
    IsRows d L X V1 ((Memref.whole cc0_scratch1).view.writes (Elt F) f1
      [⟨Rect.whole cc0_scratch1.ty.shape, SparseCore.gatherPayload gathers_S1000000x128_S64x128 (tSl.view.read (Elt F) V1)
        (SparseCore.rows ((Memref.whole cc0_scratch0).view.read (Elt F)
          ((Memref.whole cc0_scratch0).view.write (Elt F) f0 (ReadAs.same.apply ((xSl L).view.read (Elt F) X)) Finset.univ))
          hn hin)⟩]) := by
  intro t c
  rw [View.writes_singleton]
  have he : ((Memref.whole cc0_scratch1).view.slice (Rect.whole cc0_scratch1.ty.shape)).emb (ix2 t c) = ix2 t c :=
    rect_whole_emb (s := S64x128) (ix2 t c)
  refine ((congrArg _ he.symm).trans (View.write_emb_of_mem _ _ (Finset.mem_univ _))).trans ?_
  show V1 (tSl.view.emb (gathers_S1000000x128_S64x128.idx _ (ix2 t c))) = _
  congr 1
  funext b
  refine Fin.ext ?_
  match b with
  | ⟨0, _⟩ =>
    show 0 + 1 * (gathers_S1000000x128_S64x128.idx _ (ix2 t c) gathers_S1000000x128_S64x128.axis).val = _
    rw [Shape.Gathers.idx_axis, rows_val _ hn hin _ t.isLt]
    show 0 + 1 * ((Memref.whole cc0_scratch0).view.read (Elt F)
      ((Memref.whole cc0_scratch0).view.write (Elt F) f0 (ReadAs.same.apply ((xSl L).view.read (Elt F) X)) Finset.univ)
      (ix1 t)).toNat = _
    rw [scratch0_read, View.read_apply, xSl_emb]
    show 0 + 1 * (X (ix1 (n := 2048) ⟨64 * widN L + t.val, _⟩)).toNat = (Cert.Spec.rowOf _).val
    rw [Cert.Spec.rowOf_val (hX _)]
    omega
  | ⟨1, _⟩ =>
    show 0 + 1 * (gathers_S1000000x128_S64x128.idx _ (ix2 t c) ⟨1, by decide⟩).val = c.val
    rw [Shape.Gathers.idx_of_ne _ _ _ _ (by decide)]
    show 0 + 1 * c.val = c.val
    omega

/-! ## The result's rows -/

/-- The worker's piece of the result at `(r, c)` is the result's entry `(32 w + r, c)`. -/
theorem oSl_emb (r : Fin 32) (c : Fin 128) :
    (oSl L).view.emb (ix2 r c)
      = ix2 (n0 := 1024) (n1 := 128) ⟨32 * widN L + r.val, by have := widN_lt L; omega⟩ c := by
  funext a
  refine Fin.ext ?_
  match a with
  | ⟨0, _⟩ =>
    show (k0_off2 L) 0 + 1 * r.val = 32 * widN L + r.val
    rw [off2_eq]
    show 32 * widN L + 1 * r.val = 32 * widN L + r.val
    omega
  | ⟨1, _⟩ =>
    show (k0_off2 L) 1 + 1 * c.val = c.val
    rw [off2_eq]
    show 0 + 1 * c.val = c.val
    omega

/-- The fourth buffer, holding at each entry the gathered entry plus the position entry, copied out to the worker's
    rows of the result, leaves there the specification's tiled result. -/
theorem out_eq [FloatOps F] (X : Buf (Elt F) (xLoc d)) (V1 : Buf (Elt F) (tLoc d)) (V2 : Buf (Elt F) (pLoc d))
    (fo : Buf (Elt F) (oLoc d)) (G1 : Buf (Elt F) ((V d (cV L) (jV L)).loc cc0_scratch1))
    (G2 : Buf (Elt F) ((V d (cV L) (jV L)).loc cc0_scratch2)) (g : Buf (Elt F) ((V d (cV L) (jV L)).loc cc0_scratch3))
    (h1 : IsRows d L X V1 G1) (h2 : IsPos d L V2 G2) (hg : ∀ j, g j = Cert.TileVal.val G1 G2 j) :
    ∀ i ∈ (oSl L).view.set,
      (oSl L).view.writes (Elt F) fo
          [⟨Rect.whole S32x128, ReadAs.same.apply ((Memref.whole cc0_scratch3).view.read (Elt F) g)⟩] i
        = Cert.Spec.tileOut X V1 V2 i := by
  intro i hi
  obtain ⟨y, -, rfl⟩ := Finset.mem_map.mp hi
  obtain ⟨r, c, rfl⟩ : ∃ (r : Fin 32) (c : Fin 128), y = ix2 r c := ⟨y 0, y 1, eq_ix2 y⟩
  have hw := widN_lt L
  have hr := r.isLt
  have hc := c.isLt
  have hfl : Cert.LibStoreStep.flat (ix2 r c) = r.val * 128 + c.val := rfl
  have he : ((oSl L).view.slice (Rect.whole S32x128)).emb (ix2 r c) = (oSl L).view.emb (ix2 r c) :=
    congrArg (oSl L).view.emb (rect_whole_emb (s := S32x128) (ix2 r c))
  rw [View.writes_singleton]
  refine ((congrArg _ he.symm).trans (View.write_emb_of_mem _ _ (Finset.mem_univ _))).trans ?_
  show g (ix2 r c) = _
  rw [hg, oSl_emb,
    Cert.Bridge.tileOut_apply X V1 V2 ⟨32 * widN L + r.val, by omega⟩ c
      ⟨64 * widN L + Cert.LibStoreStep.flat (ix2 r c) / 64, by omega⟩
      ⟨Cert.LibStoreStep.flat (ix2 r c) % 64, Nat.mod_lt _ (by decide)⟩
      (by show (32 * widN L + r.val) * 128 + c.val
            = (64 * widN L + Cert.LibStoreStep.flat (ix2 r c) / 64) * 64 + Cert.LibStoreStep.flat (ix2 r c) % 64
          omega)]
  unfold Cert.TileVal.val
  rw [h1, h2 r c]

end Cert.KB.Moves

end
-- ==== Proof.KB.Step.lean ====
/-
  One trip of the filling loop, stated on the contents the run leaves.

  A vector subcore holds 64 gathered table rows (64 x 128), 32 rows of the re-laid position table (32 x 128) and a
  32 x 128 output block.  Trip k of the loop reads, lane by lane, the gathered entry (n / 64, n % 64) and the position
  entry (n / 128, n % 128) for the flat position n = 16 k + lane, adds them, and stores the sum into the output block
  at entry (n / 128, n % 128), whose flat position is n.

  A load through a whole buffer reads the buffer's contents, and an unmasked store through a whole buffer replaces
  them, so the contents after the trip are the indexed store of the sixteen sums into the contents before it.  The
  sum lane x carries is the prescribed value of the entry lane x names (its flat position is n, so the gathered entry
  read is (n / 64, n % 64) and the position entry read is the entry itself); hence, if every entry at a flat position
  below 16 k held its prescribed value before the trip, every entry below 16 (k + 1) holds it after.
-/
import proofs.«205826_g34540126994749_cont_8to1_b_743_19_alg».proof.Proof.KB.Pay
import proofs.«205826_g34540126994749_cont_8to1_b_743_19_alg».proof.Proof.TileVal
import Idealize.ShloMosaic.Lib.Writes

noncomputable section

namespace Cert.KB.Step

open Idealize.ShloMosaic Idealize.SL.Sem Idealize.ShloMosaic.ValueIdx Cert.Kernel Cert.Kernel.Gen

variable {F : FTy → Type} [FloatOps F]

/-- One trip of the filling loop: the output block's contents after trip `k` agree with the prescribed values at
    every flat position below 16 (k + 1), given that the contents before it do below 16 k.  See the head of the file. -/
theorem step_run (G1 : FVec F S64x128 .f32) (G2 : FVec F S32x128 .f32) (g : FVec F S32x128 .f32)
    (k : Fin (Scf.trips k0_t1_loop.lb k0_t1_loop.ub k0_t1_loop.st))
    (h1 : ∀ a x, ((![k0_pay2 k, k0_pay3 k] : Fin 2 → IVec S16 32) a x).toNat < S64x128.size a)
    (h2 : ∀ a x, ((![k0_pay4 k, k0_pay5 k] : Fin 2 → IVec S16 32) a x).toNat < S32x128.size a)
    (h3 : ∀ a x, ((![k0_pay4 k, k0_pay5 k] : Fin 2 → IVec S16 32) a x).toNat < S32x128.size a)
    (IH : ∀ j, Cert.LibStoreStep.flat j < 16 * k.val → g j = Cert.TileVal.val G1 G2 j) :
    ∀ j, Cert.LibStoreStep.flat j < 16 * (k.val + 1) →
      ((Memref.whole cc0_scratch3).view.writes (Elt F) g [⟨Rect.whole S32x128,
          storeIdx ((Memref.whole cc0_scratch3).view.readAt (Elt F) (LoadRect.whole S32x128) g) ![k0_pay4 k, k0_pay5 k]
            (k0_pay6 (loadIdx ((Memref.whole cc0_scratch1).view.readAt (Elt F) (LoadRect.whole S64x128) G1) ![k0_pay2 k, k0_pay3 k] h1)
                     (loadIdx ((Memref.whole cc0_scratch2).view.readAt (Elt F) (LoadRect.whole S32x128) G2) ![k0_pay4 k, k0_pay5 k] h2))
            (fun _ => 1#1) false h3⟩]) j = Cert.TileVal.val G1 G2 j := by
  intro j hj
  -- loads through whole buffers read their contents; the unmasked store through the whole buffer replaces them
  have key : ((Memref.whole cc0_scratch3).view.writes (Elt F) g [⟨Rect.whole S32x128,
          storeIdx ((Memref.whole cc0_scratch3).view.readAt (Elt F) (LoadRect.whole S32x128) g) ![k0_pay4 k, k0_pay5 k]
            (k0_pay6 (loadIdx ((Memref.whole cc0_scratch1).view.readAt (Elt F) (LoadRect.whole S64x128) G1) ![k0_pay2 k, k0_pay3 k] h1)
                     (loadIdx ((Memref.whole cc0_scratch2).view.readAt (Elt F) (LoadRect.whole S32x128) G2) ![k0_pay4 k, k0_pay5 k] h2))
            (fun _ => 1#1) false h3⟩])
      = storeIdx (s := S32x128) g ![k0_pay4 k, k0_pay5 k]
            (k0_pay6 (loadIdx (s := S64x128) G1 ![k0_pay2 k, k0_pay3 k] h1) (loadIdx (s := S32x128) G2 ![k0_pay4 k, k0_pay5 k] h2))
            (fun _ => 1#1) false h3 := by
    have e1 : (Memref.whole cc0_scratch1).view.readAt (Elt F) (LoadRect.whole S64x128) G1 = G1 :=
      Memref.readAt_whole (Elt F) cc0_scratch1 G1
    have e2 : (Memref.whole cc0_scratch2).view.readAt (Elt F) (LoadRect.whole S32x128) G2 = G2 :=
      Memref.readAt_whole (Elt F) cc0_scratch2 G2
    have e3 : (Memref.whole cc0_scratch3).view.readAt (Elt F) (LoadRect.whole S32x128) g = g :=
      Memref.readAt_whole (Elt F) cc0_scratch3 g
    rw [View.writes_singleton, e1, e2, e3]
    exact Memref.write_access_whole_univ (Elt F) cc0_scratch3 g _
  rw [key]
  have hk : k.val < 256 := Cert.KB.Pay.trip_lt k
  refine Cert.LibStoreStep.store_step (F := F) g ![k0_pay4 k, k0_pay5 k] _ h3 k.val hk ?_ (Cert.TileVal.val G1 G2) ?_ IH j hj
  · -- lane x names entry (n / 128, n % 128), n = 16 k + x
    intro x
    exact ⟨Cert.KB.Pay.pay4_toNat k x, Cert.KB.Pay.pay5_toNat k x⟩
  · -- lane x carries the prescribed value of the entry it names: that entry's flat position is n
    intro x
    have hJ : Cert.LibStoreStep.flat (idxAt (s := S32x128) ![k0_pay4 k, k0_pay5 k] h3 x) = 16 * k.val + (x 0).val := by
      show (k0_pay4 k x).toNat * 128 + (k0_pay5 k x).toNat = _
      rw [Cert.KB.Pay.pay4_toNat, Cert.KB.Pay.pay5_toNat]
      omega
    show FloatOps.addf (G1 (idxAt (s := S64x128) ![k0_pay2 k, k0_pay3 k] h1 x))
        (G2 (idxAt (s := S32x128) ![k0_pay4 k, k0_pay5 k] h2 x)) = _
    unfold Cert.TileVal.val
    refine congrArg₂ FloatOps.addf (congrArg G1 ?_) rfl
    funext a
    apply Fin.ext
    match a with
    | ⟨0, _⟩ =>
      show (k0_pay2 k x).toNat = Cert.LibStoreStep.flat (idxAt (s := S32x128) ![k0_pay4 k, k0_pay5 k] h3 x) / 64
      rw [hJ, Cert.KB.Pay.pay2_toNat]
    | ⟨1, _⟩ =>
      show (k0_pay3 k x).toNat = Cert.LibStoreStep.flat (idxAt (s := S32x128) ![k0_pay4 k, k0_pay5 k] h3 x) % 64
      rw [hJ, Cert.KB.Pay.pay3_toNat]

end Cert.KB.Step

end
-- ==== Proof.KB.Tile.lean ====
/-
  One vector subcore's task of the embedding kernel, run once at a symbolic grid point.

  The task copies its 64 words of the index list into tile memory, gathers the 64 rows of the widened table those
  words name (an indirect copy: the words are in range by the precondition), copies its 32 rows of the re-laid
  position table, then fills its 32 x 128 output block sixteen entries at a time — entry n of the block is gathered
  row n / 64 at column n % 64 plus the position block's entry n — and copies the block out to its rows of the
  result. Every copy is local and waited for before its destination or source is touched again, the two copies in
  flight together complete on different semaphores, and the indexed loads and the indexed store stay inside their
  scratches at every trip; so the task always runs to its end. What it leaves in its rows of the result is the
  embedding itself, `Cert.Spec.tileOut` of the list, the widened table and the re-laid position table: carried
  through the fill loop as "every entry below flat position 16 k already holds its final value".
-/
import proofs.«205826_g34540126994749_cont_8to1_b_743_19_alg».proof.Proof.KB.Setup
import proofs.«205826_g34540126994749_cont_8to1_b_743_19_alg».proof.Proof.KB.Pay
import proofs.«205826_g34540126994749_cont_8to1_b_743_19_alg».proof.Proof.TileVal
import proofs.«205826_g34540126994749_cont_8to1_b_743_19_alg».proof.Proof.KB.Moves
import proofs.«205826_g34540126994749_cont_8to1_b_743_19_alg».proof.Proof.KB.Step
import proofs.«205826_g34540126994749_cont_8to1_b_743_19_alg».proof.Proof.Spec
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2048 EltTy.i32)
local notation "tW" => (Memref.whole Cert.Kernel.main_v1_scv : Memref Cert.Kernel.sig Kind.scVector Space.hbm Cert.Kernel.S1000000x128 EltTy.f32)
local notation "pW" => (Memref.whole Cert.Kernel.main_v2_scv : Memref Cert.Kernel.sig Kind.scVector Space.hbm Cert.Kernel.S1024x128 EltTy.f32)
local notation "oW" => (Memref.whole Cert.Kernel.main_v3_scv : Memref Cert.Kernel.sig Kind.scVector Space.hbm Cert.Kernel.S1024x128 EltTy.f32)
local notation "s0" => (Memref.whole Cert.Kernel.cc0_scratch0 : Memref Cert.Kernel.sig Kind.scVector Space.vmem Cert.Kernel.S64 EltTy.i32)
local notation "s1" => (Memref.whole Cert.Kernel.cc0_scratch1 : Memref Cert.Kernel.sig Kind.scVector Space.vmem Cert.Kernel.S64x128 EltTy.f32)
local notation "s2" => (Memref.whole Cert.Kernel.cc0_scratch2 : Memref Cert.Kernel.sig Kind.scVector Space.vmem Cert.Kernel.S32x128 EltTy.f32)
local notation "s3" => (Memref.whole Cert.Kernel.cc0_scratch3 : Memref Cert.Kernel.sig Kind.scVector Space.vmem Cert.Kernel.S32x128 EltTy.f32)

variable [FloatOps F] [∀ e, Nonempty (Elt F e)]

section Tile

variable (d : Dev nD) (L : grid0.Coords)

/-! ## The subcore's own storage: four scratch buffers, four DMA semaphores -/

abbrev cell (d : Dev nD) (L : grid0.Coords) (sm : DmaSem sig) : GSem nD τ sig := (V d (cV L) (jV L), .dma sm)

omit [FloatOps F] in
theorem ownSems0_V :
    (ownSems0 (V d (cV L) (jV L)) : sProp 𝕄)
      = iprop(semVal (cell d L cc0_scratch4.sem) 0 ∗ semVal (cell d L cc0_scratch5.sem) 0 ∗ semVal (cell d L cc0_scoped0.sem) 0 ∗ semVal (cell d L cc0_scoped1.sem) 0
          ∗ bigSep (((((ownCells (V d (cV L) (jV L))).erase (cell d L cc0_scratch4.sem)).erase (cell d L cc0_scratch5.sem)).erase (cell d L cc0_scoped0.sem)).erase (cell d L cc0_scoped1.sem))
              fun g => semVal g 0) := by
  unfold SparseCore.Cfg.ownSems0
  rw [SparseCore.bigSep_erase' ((mem_ownCells (g := cell d L cc0_scratch4.sem)).mpr ⟨rfl, by
      show (SemLoc.dma cc0_scratch4.sem : SemLoc sig).isScoped .scVector = true; decide⟩),
    SparseCore.bigSep_erase' (Finset.mem_erase.mpr ⟨by simp [cell]; decide, (mem_ownCells (g := cell d L cc0_scratch5.sem)).mpr ⟨rfl, by
      show (SemLoc.dma cc0_scratch5.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped0.sem)).mpr ⟨rfl, by show (SemLoc.dma cc0_scoped0.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d L cc0_scoped1.sem)).mpr ⟨rfl, by show (SemLoc.dma cc0_scoped1.sem : SemLoc sig).isScoped .scVector = true; decide⟩⟩⟩⟩)]

abbrev pr (L : grid0.Coords) : Proc τ := Proc.scVector (cV L) (jV L)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (pr L)).erase ((pr L).devRef cc0_scratch0)).erase
              ((pr L).devRef cc0_scratch1)).erase ((pr L).devRef cc0_scratch2)).erase ((pr L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pr L) (b := (pr L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := pr L) (b := (pr L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := pr L) (b := (pr L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := pr L) (b := (pr L).devRef cc0_scratch3) rfl⟩⟩⟩)]

omit [FloatOps F] in
theorem pts_s0 (f : Buf (Elt F) ((V d (cV L) (jV L)).loc cc0_scratch0)) :
    ((s0).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3).view.loc (V d (cV L) (jV L)) ↦{fullShare} f : sProp 𝕄) = (V d (cV L) (jV L)).loc cc0_scratch3 ↦{fullShare} f := rfl

/-! ## The fill loop's invariant

Before trip `k` the two read-only scratches hold the gathered table rows and the position block (as pure facts beside
them), and every entry of the output scratch at a flat position below 16 k already holds its final value. -/

def inv (X : Buf (Elt F) (xLoc d)) (V1 : Buf (Elt F) (tLoc d)) (V2 : Buf (Elt F) (pLoc d)) (k : Nat) (_ : PUnit) : sProp 𝕄 :=
  iprop(∃ G1, ∃ G2, ((s1).view.loc (V d (cV L) (jV L)) ↦{fullShare} G1) ∗ ((s2).view.loc (V d (cV L) (jV L)) ↦{fullShare} G2)
    ∗ ⌜Moves.IsRows d L X V1 G1 ∧ Moves.IsPos d L V2 G2⌝
    ∗ ∃ g, ((s3).view.loc (V d (cV L) (jV L)) ↦{fullShare} g) ∗ ⌜∀ j, Cert.LibStoreStep.flat j < 16 * k → g j = Cert.TileVal.val G1 G2 j⌝)

/-- The task on vector subcore `(L 0, L 1)`: from its words of the list, a read share of the widened table, its rows of
    the position table and of the result, to the same with the result's rows at the embedding (`Cert.Spec.tileOut`). -/
theorem tile_body (hF : (K (F := F)).Facts) (q : PosShare TreeShare) (X : Buf (Elt F) (xLoc d)) (V1 : Buf (Elt F) (tLoc d)) (V2 : Buf (Elt F) (pLoc d))
    (fo : Buf (Elt F) (oLoc d)) (hX : ∀ j, (X j).toNat < 1000000)
    (O : CellTallies nD τ sig (HIx 1)) (W : Waits sig (HIx 1)) (hO : ∀ g, O g none = 0) :
    (iprop(levAts (K (F := F)).L (K (F := F)).lev ∗ emp
        ∗ (((xSl L).view.loc (V d (cV L) (jV L)) ↦[(xSl L).view.set]{fullShare} X)
          ∗ ((tW).view.loc (V d (cV L) (jV L)) ↦{q} V1)
          ∗ ((pSl L).view.loc (V d (cV L) (jV L)) ↦[(pSl L).view.set]{fullShare} V2)
          ∗ ((oSl L).view.loc (V d (cV L) (jV L)) ↦[(oSl L).view.set]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_emb L xW (Memref.isWhole_whole _) tW (Memref.isWhole_whole _) pW (Memref.isWhole_whole _) oW (Memref.isWhole_whole _)
            s0 (Memref.isWhole_whole _) s1 (Memref.isWhole_whole _) s2 (Memref.isWhole_whole _) s3 (Memref.isWhole_whole _)
            cc0_scratch4 cc0_scratch5 cc0_scoped0 cc0_scoped1)
          fun _ => iprop((((xSl L).view.loc (V d (cV L) (jV L)) ↦[(xSl L).view.set]{fullShare} X)
              ∗ ((tW).view.loc (V d (cV L) (jV L)) ↦{q} V1)
              ∗ ((pSl L).view.loc (V d (cV L) (jV L)) ↦[(pSl L).view.set]{fullShare} V2)
              ∗ ((oSl L).view.loc (V d (cV L) (jV L)) ↦[(oSl L).view.set]{fullShare} Cert.Spec.tileOut X V1 V2))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_emb_eq_skeleton]; unfold cc0_emb_skel
  rw [(K (F := F)).scopedBufs_V hF d (cV L) (jV L), SparseCore.Cfg.scopedSems0_V (Val := Elt F) d (cV L) (jV L), ownSems0_V, ownBufs_V]
  iintro ⟨#Hlv, -, ⟨Hx, Ht, Hp, Ho⟩, ⟨⟨%f0, H0⟩, ⟨%f1, H1⟩, ⟨%f2, H2⟩, ⟨%f3, H3⟩, Hbufs⟩, ⟨Hs4, Hs5, Hs6, Hs7, Hsems⟩, HO⟩
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave Hmw := ((K (F := F)).mayWaits_none (thr := V d (cV L) (jV L)) hO) $$ Hlv
  have hin := Moves.idx_inb d L X hX
  sl_exec
  sl_for (inv (F := F) d L X V1 V2) $$ [H1 H2 H3]
  case region =>
    intro k _
    unfold inv
    iintro ⟨%G1, %G2, H1, H2, %hG, %g, H3, %hg⟩
    have c1 := Pay.chk1_all k
    have c2 := Pay.chk2_all k
    sl_exec
    rw [SparseCore.vectorLoadIdx_bind (c := V d (cV L) (jV L))]
    sl_exec
    rw [SparseCore.vectorLoadIdx_bind (c := V d (cV L) (jV L))]
    sl_exec
    rw [SparseCore.vectorStoreIdx_bind (c := V d (cV L) (jV L))]
    sl_exec
    sl_step
    iexists G1, G2
    isplitl [H1]; · iexact H1
    isplitl [H2]; · iexact H2
    isplitr; · ipureintro; exact hG
    iexists _
    isplitl [H3]; · iexact H3
    ipureintro; exact Step.step_run G1 G2 g k _ _ _ hg
  · unfold inv
    iexists _, _
    isplitl [H1]; · iexact H1
    isplitl [H2]; · iexact H2
    isplitr; · ipureintro; exact ⟨Moves.rows_isRows d L X V1 f0 _ hX _ _, Moves.pos_isPos d L V2 f2⟩
    iexists _
    isplitl [H3]; · iexact H3
    ipureintro; intro j hj; omega
  iintro %_ HI
  unfold inv
  icases HI with ⟨%G1, %G2, H1, H2, %hG, %g, H3, %hg⟩
  have hall : ∀ j, g j = Cert.TileVal.val G1 G2 j := fun j => hg j (by
    have h256 : Scf.trips k0_t1_loop.lb k0_t1_loop.ub k0_t1_loop.st = 256 := Pay.trips_eq
    have := Cert.TileVal.flat_lt j
    omega)
  sl_exec
  sl_step
  isplitl [Hx Ht Hp Ho]
  · isplitl [Hx]; · iexact Hx
    isplitl [Ht]; · iexact Ht
    isplitl [Hp]; · iexact Hp
    iapply (Entails.of_eq (pointsTo_congr (Moves.out_eq d L X V1 V2 fo G1 G2 g hG.1 hG.2 hall)))
    iexact Ho
  isplitl [H0 H1 H2 H3 Hbufs]
  · isplitl [H0]; · iexists _; iapply (Entails.of_eq (pts_s0 (F := F) d L _)); iexact H0
    isplitl [H1]; · iexists _; iapply (Entails.of_eq (pts_s1 (F := F) d L _)); iexact H1
    isplitl [H2]; · iexists _; iapply (Entails.of_eq (pts_s2 (F := F) d L _)); iexact H2
    isplitl [H3]; · iexists _; iapply (Entails.of_eq (pts_s3 (F := F) d L _)); iexact H3
    iexact Hbufs
  isplitl [Hs4 Hs5 Hs6 Hs7 Hsems]
  · isplitl [Hs4]; · iexact Hs4
    isplitl [Hs5]; · iexact Hs5
    isplitl [Hs6]; · iexact Hs6
    isplitl [Hs7]; · iexact Hs7
    iexact Hsems
  iexists (insert (SemLoc.dma cc0_scoped1.sem, (default : HIx 1)) (insert (SemLoc.dma cc0_scratch5.sem, (default : HIx 1))
    (insert (SemLoc.dma cc0_scratch4.sem, (default : HIx 1)) (insert (SemLoc.dma cc0_scoped0.sem, (default : HIx 1)) W))))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iexact HO

end Tile

end Cert.KB

end
-- ==== Proof.KB.Pieces.lean ====
import proofs.«205826_g34540126994749_cont_8to1_b_743_19_alg».proof.Proof.KB.Setup
import Idealize.ShloMosaic.Lib.Transfers

/-!
  How the call's operands split among the 32 workers.

  The index list (2048 words) is cut along its one axis into 32 parts of 64 words; the re-laid position table and the
  result (1024 x 128 each) are cut along their rows into 32 parts of 32 rows.  Worker w owns part w of each: the
  rectangle the kernel slices at offset 64 w (respectively at row 32 w) is that part.  The parts are pairwise
  disjoint and cover the array, so holding an array outright is holding its 32 parts.  The widened table is read by
  every worker: holding it outright is holding 32 read tokens and the remaining share.  The 32 workers are two
  SparseCores of 16 subcores, worker 2 i + c being subcore i of SparseCore c: a product over the 32 workers is the
  product over SparseCore 0's subcores times the product over SparseCore 1's.
-/

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The parts -/

theorem xdiv : 32 ∣ S2048.size 0 := ⟨64, rfl⟩
theorem pdiv : 32 ∣ S1024x128.size 0 := ⟨32, rfl⟩

/-- Part w of the list: words [64 w, 64 w + 64).  Part w of a 1024 x 128 array: rows [32 w, 32 w + 32). -/
abbrev xPart (w : Fin 32) : Rect S2048 := Rect.part (s := S2048) (a₀ := 0) xdiv w
abbrev pPart (w : Fin 32) : Rect S1024x128 := Rect.part (s := S1024x128) (a₀ := 0) pdiv w

/-- The elements of part w, as a set of indices of the array. -/
abbrev xSet (w : Fin 32) : Finset S2048.Idx :=
  ((Memref.whole main_arg0_scv : Memref sig .scVector .hbm S2048 .i32).view.slice (xPart w)).set
abbrev pSet (w : Fin 32) : Finset S1024x128.Idx :=
  ((Memref.whole main_v2_scv : Memref sig .scVector .hbm S1024x128 .f32).view.slice (pPart w)).set

/-- The worker of a grid point. -/
abbrev wOf (L : grid0.Coords) : Fin 32 := ⟨widN L, widN_lt L⟩

/-- The rectangle the kernel slices out of the list at a grid point is the worker's part. -/
theorem xRect_eq (L : grid0.Coords) :
    Rect.unit (s := S2048) (k0_off1 L) S64.size (k0_off1_inb L) = xPart (wOf L) := by
  unfold xPart Rect.part Rect.block
  congr 1 <;> funext a
  · rw [off1_eq]
    match a with
    | 0 => simp [Shape.partIx, Shape.partSize]; omega
  · match a with
    | 0 => simp [Shape.partSize]

/-- The rectangle the kernel slices out of a 1024 x 128 array at a grid point is the worker's part. -/
theorem pRect_eq (L : grid0.Coords) :
    Rect.unit (s := S1024x128) (k0_off2 L) S32x128.size (k0_off2_inb L) = pPart (wOf L) := by
  unfold pPart Rect.part Rect.block
  congr 1 <;> funext a
  · rw [off2_eq]
    match a with
    | 0 => simp [Shape.partIx, Shape.partSize]; omega
    | 1 => simp [Shape.partIx, Shape.partSize]
  · match a with
    | 0 => simp [Shape.partSize]
    | 1 => simp [Shape.partSize]

theorem set_xSl (L : grid0.Coords) : (xSl L).view.set = xSet (wOf L) := by
  show ((Memref.whole main_arg0_scv : Memref sig .scVector .hbm S2048 .i32).view.slice
      (Rect.unit (s := S2048) (k0_off1 L) S64.size (k0_off1_inb L))).set
    = ((Memref.whole main_arg0_scv : Memref sig .scVector .hbm S2048 .i32).view.slice (xPart (wOf L))).set
  exact xRect_eq L ▸ rfl

theorem set_pSl (L : grid0.Coords) : (pSl L).view.set = pSet (wOf L) := by
  show ((Memref.whole main_v2_scv : Memref sig .scVector .hbm S1024x128 .f32).view.slice
      (Rect.unit (s := S1024x128) (k0_off2 L) S32x128.size (k0_off2_inb L))).set
    = ((Memref.whole main_v2_scv : Memref sig .scVector .hbm S1024x128 .f32).view.slice (pPart (wOf L))).set
  exact pRect_eq L ▸ rfl

theorem set_oSl (L : grid0.Coords) : (oSl L).view.set = pSet (wOf L) := by
  show ((Memref.whole main_v3_scv : Memref sig .scVector .hbm S1024x128 .f32).view.slice
      (Rect.unit (s := S1024x128) (k0_off2 L) S32x128.size (k0_off2_inb L))).set
    = ((Memref.whole main_v2_scv : Memref sig .scVector .hbm S1024x128 .f32).view.slice (pPart (wOf L))).set
  exact pRect_eq L ▸ rfl

/-! ## The parts are disjoint and cover -/

theorem xSet_eq (w : Fin 32) : xSet w = (xPart w).set := by
  show ((View.whole (main_arg0_scv : Ref sig .scVector)).slice (xPart w)).set = _
  rw [View.set_slice]; exact Finset.map_refl
theorem pSet_eq (w : Fin 32) : pSet w = (pPart w).set := by
  show ((View.whole (main_v2_scv : Ref sig .scVector)).slice (pPart w)).set = _
  rw [View.set_slice]; exact Finset.map_refl

theorem xSets_disjoint : ∀ i ∈ (Finset.univ : Finset (Fin 32)), ∀ j ∈ (Finset.univ : Finset (Fin 32)), i ≠ j →
    Disjoint (xSet i) (xSet j) :=
  fun i _ j _ h => by rw [xSet_eq, xSet_eq]; exact Rect.part_disjoint xdiv h
theorem pSets_disjoint : ∀ i ∈ (Finset.univ : Finset (Fin 32)), ∀ j ∈ (Finset.univ : Finset (Fin 32)), i ≠ j →
    Disjoint (pSet i) (pSet j) :=
  fun i _ j _ h => by rw [pSet_eq, pSet_eq]; exact Rect.part_disjoint pdiv h

theorem xSets_cover : (Finset.univ : Finset (Fin 32)).biUnion xSet = Finset.univ :=
  (Finset.biUnion_congr rfl fun i _ => xSet_eq i).trans (Rect.biUnion_part xdiv)
theorem pSets_cover : (Finset.univ : Finset (Fin 32)).biUnion pSet = Finset.univ :=
  (Finset.biUnion_congr rfl fun i _ => pSet_eq i).trans (Rect.biUnion_part pdiv)

/-! ## An array held outright is its 32 parts -/

theorem xPts_pieces (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xSets_disjoint, xSets_cover]; try rfl
theorem pPts_pieces (d : Dev nD) (f : Buf (Elt F) (pLoc d)) :
    (pLoc d ↦{fullShare} f : sProp 𝕄) = bigSep Finset.univ fun w : Fin 32 => pLoc d ↦[pSet w]{fullShare} f := by
  rw [← pointsTo_biUnion Finset.univ (ℓ := pLoc d) pSet pSets_disjoint, pSets_cover]; try rfl
theorem oPts_pieces (d : Dev nD) (f : Buf (Elt F) (oLoc d)) :
    (oLoc d ↦{fullShare} f : sProp 𝕄) = bigSep Finset.univ fun w : Fin 32 => oLoc d ↦[pSet w]{fullShare} f := by
  rw [← pointsTo_biUnion Finset.univ (ℓ := oLoc d) pSet pSets_disjoint, pSets_cover]; try rfl

/-! ## The table every worker reads: 32 read tokens and the rest -/

theorem tPts_toks (d : Dev nD) (f : Buf (Elt F) (tLoc d)) :
    (tLoc d ↦{fullShare} f : sProp 𝕄) ⊣⊢
      iprop((tLoc d ↦{Transfers.shareDrop fullShare 32} f) ∗
        bigSep Finset.univ fun w : Fin 32 => tLoc d ↦{Transfers.shareTok fullShare 32 w} f) :=
  Transfers.pointsTo_toks fullShare 32

/-! ## The 32 workers as two SparseCores of 16 subcores -/

/-- Subcore i of SparseCore c is worker 2 i + c. -/
def wid (c : Fin 2) (i : Fin 16) : Fin 32 := ⟨2 * i.val + c.val, by have := c.isLt; have := i.isLt; omega⟩

/-- The workers, listed SparseCore by SparseCore. -/
def widEquiv : Fin 16 ⊕ Fin 16 ≃ Fin 32 where
  toFun := fun
    | .inl i => wid 0 i
    | .inr i => wid 1 i
  invFun w :=
    if w.val % 2 = 0 then .inl ⟨w.val / 2, by have := w.isLt; omega⟩ else .inr ⟨w.val / 2, by have := w.isLt; omega⟩
  left_inv := fun
    | .inl i => by
      have h : (wid 0 i).val = 2 * i.val := by show 2 * i.val + 0 = _; omega
      have h2 : (wid 0 i).val % 2 = 0 := by omega
      simp only [h2, ↓reduceIte]
      exact congrArg Sum.inl (Fin.ext (by show (wid 0 i).val / 2 = i.val; omega))
    | .inr i => by
      have h : (wid 1 i).val = 2 * i.val + 1 := rfl
      have h2 : ¬ (wid 1 i).val % 2 = 0 := by omega
      simp only [h2, ↓reduceIte]
      exact congrArg Sum.inr (Fin.ext (by show (wid 1 i).val / 2 = i.val; omega))
  right_inv := fun w => by
    by_cases h2 : w.val % 2 = 0
    · simp only [h2, ↓reduceIte]
      exact Fin.ext (by show 2 * (w.val / 2) + 0 = w.val; omega)
    · simp only [h2, ↓reduceIte]
      exact Fin.ext (by show 2 * (w.val / 2) + 1 = w.val; omega)

theorem split32 (R : Fin 32 → sProp 𝕄) :
    bigSep Finset.univ R
      = iprop((bigSep Finset.univ fun i : Fin 16 => R (wid 0 i)) ∗ (bigSep Finset.univ fun i : Fin 16 => R (wid 1 i))) := by
  rw [bigSep_univ_equiv widEquiv R, bigSep_univ_sum]
  rfl

end Cert.KB

end
-- ==== Proof.KB.Deal.lean ====
import proofs.«205826_g34540126994749_cont_8to1_b_743_19_alg».proof.Proof.KB.Pieces

/-!
  Dealing the call's arrays to the 32 workers, and gathering them back.

  Worker w holds its 64 words of the index list, a read token of the widened table, and its 32 rows of the re-laid
  position table and of the result.  Holding the four arrays outright is holding the table's remaining share and the 32
  workers' holdings, listed SparseCore by SparseCore (worker 2 i + c is subcore i of SparseCore c); and conversely.  A
  worker's holding is the same thing named through the pieces the kernel slices for it.
-/

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- What worker `w` holds: its words of the list, a read token of the table, its rows of the position table and of
    the result. -/
abbrev goRes (d : Dev nD) (X : Buf (Elt F) (xLoc d)) (V1 : Buf (Elt F) (tLoc d)) (V2 : Buf (Elt F) (pLoc d))
    (fo : Buf (Elt F) (oLoc d)) (w : Fin 32) : sProp 𝕄 :=
  iprop((xLoc d ↦[xSet w]{fullShare} X) ∗ (tLoc d ↦{Transfers.shareTok fullShare 32 w} V1)
    ∗ (pLoc d ↦[pSet w]{fullShare} V2) ∗ (oLoc d ↦[pSet w]{fullShare} fo))

/-- The 32 workers' holdings together: the list, the position table and the result outright, and the table's 32 read
    tokens. -/
theorem goRes_all (d : Dev nD) (X : Buf (Elt F) (xLoc d)) (V1 : Buf (Elt F) (tLoc d)) (V2 : Buf (Elt F) (pLoc d))
    (fo : Buf (Elt F) (oLoc d)) :
    (bigSep Finset.univ fun w : Fin 32 => goRes d X V1 V2 fo w : sProp 𝕄)
      = iprop((xLoc d ↦{fullShare} X)
          ∗ (bigSep Finset.univ fun w : Fin 32 => tLoc d ↦{Transfers.shareTok fullShare 32 w} V1)
          ∗ (pLoc d ↦{fullShare} V2) ∗ (oLoc d ↦{fullShare} fo)) := by
  rw [xPts_pieces, pPts_pieces, oPts_pieces]
  show (bigSep Finset.univ fun w : Fin 32 =>
      iprop((xLoc d ↦[xSet w]{fullShare} X) ∗ (tLoc d ↦{Transfers.shareTok fullShare 32 w} V1)
        ∗ (pLoc d ↦[pSet w]{fullShare} V2) ∗ (oLoc d ↦[pSet w]{fullShare} fo)) : sProp 𝕄) = _
  rw [bigSep_sep', bigSep_sep', bigSep_sep']

/-- The four arrays held outright are the table's remaining share and every worker's holding. -/
theorem deal_out (d : Dev nD) (X : Buf (Elt F) (xLoc d)) (V1 : Buf (Elt F) (tLoc d)) (V2 : Buf (Elt F) (pLoc d))
    (fo : Buf (Elt F) (oLoc d)) :
    (iprop((xLoc d ↦{fullShare} X) ∗ (tLoc d ↦{fullShare} V1) ∗ (pLoc d ↦{fullShare} V2) ∗ (oLoc d ↦{fullShare} fo)) : sProp 𝕄)
      ⊢ iprop((tLoc d ↦{Transfers.shareDrop fullShare 32} V1)
          ∗ (bigSep Finset.univ fun i : Fin 16 => goRes d X V1 V2 fo (wid 0 i))
          ∗ (bigSep Finset.univ fun i : Fin 16 => goRes d X V1 V2 fo (wid 1 i))) := by
  rw [← split32 (fun w => goRes d X V1 V2 fo w), goRes_all]
  iintro ⟨Hx, Ht, Hp, Ho⟩
  ihave Ht' := (tPts_toks (F := F) d V1).1 $$ Ht
  icases Ht' with ⟨Hd, Htk⟩
  isplitl [Hd]; · iexact Hd
  isplitl [Hx]; · iexact Hx
  isplitl [Htk]; · iexact Htk
  isplitl [Hp]; · iexact Hp
  iexact Ho

/-- The table's remaining share and every worker's holding are the four arrays held outright. -/
theorem deal_in (d : Dev nD) (X : Buf (Elt F) (xLoc d)) (V1 : Buf (Elt F) (tLoc d)) (V2 : Buf (Elt F) (pLoc d))
    (fo : Buf (Elt F) (oLoc d)) :
    (iprop((tLoc d ↦{Transfers.shareDrop fullShare 32} V1)
          ∗ (bigSep Finset.univ fun i : Fin 16 => goRes d X V1 V2 fo (wid 0 i))
          ∗ (bigSep Finset.univ fun i : Fin 16 => goRes d X V1 V2 fo (wid 1 i))) : sProp 𝕄)
      ⊢ iprop((xLoc d ↦{fullShare} X) ∗ (tLoc d ↦{fullShare} V1) ∗ (pLoc d ↦{fullShare} V2) ∗ (oLoc d ↦{fullShare} fo)) := by
  rw [← split32 (fun w => goRes d X V1 V2 fo w), goRes_all]
  iintro ⟨Hd, Hx, Htk, Hp, Ho⟩
  isplitl [Hx]; · iexact Hx
  isplitl [Hd Htk]
  · iapply (tPts_toks (F := F) d V1).2
    isplitl [Hd]; · iexact Hd
    iexact Htk
  isplitl [Hp]; · iexact Hp
  iexact Ho

/-- A worker's holding, named through the pieces the kernel slices for its grid point. -/
theorem goRes_slices (d : Dev nD) (X : Buf (Elt F) (xLoc d)) (V1 : Buf (Elt F) (tLoc d)) (V2 : Buf (Elt F) (pLoc d))
    (fo : Buf (Elt F) (oLoc d)) (L : grid0.Coords) :
    goRes d X V1 V2 fo (wOf L)
      = (iprop(((xSl L).view.loc (V d (cV L) (jV L)) ↦[(xSl L).view.set]{fullShare} X)
          ∗ ((Memref.whole main_v1_scv : Memref sig .scVector .hbm S1000000x128 .f32).view.loc (V d (cV L) (jV L))
              ↦{Transfers.shareTok fullShare 32 (wOf L)} V1)
          ∗ ((pSl L).view.loc (V d (cV L) (jV L)) ↦[(pSl L).view.set]{fullShare} V2)
          ∗ ((oSl L).view.loc (V d (cV L) (jV L)) ↦[(oSl L).view.set]{fullShare} fo)) : sProp 𝕄) := by
  rw [set_xSl, set_pSl, set_oSl]

end Cert.KB

end
-- ==== Proof.KB.Host.lean ====
import proofs.«205826_g34540126994749_cont_8to1_b_743_19_alg».proof.Proof.KB.Setup
import Idealize.ShloMosaic.Lib.StableHlo.Run

/-!
  The host side of the program: what runs on the TensorCore before and after the SparseCore call.

  Before the call, four operations: a zero constant, its broadcast to a 1 000 000 x 64 array, that array laid to the
  right of the word table (the widened table), and the position table re-laid as 1024 x 128.  After the call, one:
  the 1024 x 128 result re-laid as 2048 x 64.  The program is those four, the call, that one.  The nine arrays involved
  are all of the TensorCore's arrays; each operation touches only them and allocates nothing.  What the operations
  leave in each array is read off their functions: the widened table and the re-laid position table are written, the
  three arguments and the two result arrays are untouched by the first four, and the last writes only the final array.
-/

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The arrays and the operations -/

abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev r3 : DevRef τ sig := Proc.devRef .tc (main_cst : Ref sig .tc)
abbrev r4 : DevRef τ sig := Proc.devRef .tc (main_v0 : Ref sig .tc)
abbrev r5 : DevRef τ sig := Proc.devRef .tc (main_v1 : Ref sig .tc)
abbrev r6 : DevRef τ sig := Proc.devRef .tc (main_v2 : Ref sig .tc)
abbrev r7 : DevRef τ sig := Proc.devRef .tc (main_v3 : Ref sig .tc)
abbrev r8 : DevRef τ sig := Proc.devRef .tc (main_v4 : Ref sig .tc)

/-- The TensorCore's arrays, all unscoped. -/
abbrev S9 : Finset (DevRef τ sig) := {r0, r1, r2, r3, r4, r5, r6, r7, r8}

/-- The zero constant. -/
abbrev opCst : HloOp τ sig (Elt F) := StableHlo.nullary main_cst (constant S_ .f32 0x00000000#32)
/-- Its broadcast to 1 000 000 x 64. -/
abbrev opBc : HloOp τ sig (Elt F) :=
  StableHlo.unary main_cst main_v0 (broadcastInDim S1000000x64 ![] bcast_S_S1000000x64 : (⟨S_, .f32⟩ : BufTy).Contents (Elt F) → (⟨S1000000x64, .f32⟩ : BufTy).Contents (Elt F))
/-- The word table with that array to its right. -/
abbrev opCat : HloOp τ sig (Elt F) :=
  StableHlo.binary main_arg1 main_v0 main_v1 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F))
/-- The position table re-laid as 1024 x 128. -/
abbrev opRs : HloOp τ sig (Elt F) := StableHlo.reshape main_arg2 main_v2 rfl shapeCasts_S2048x64_S1024x128
/-- The result re-laid as 2048 x 64. -/
abbrev opRs2 : HloOp τ sig (Elt F) := StableHlo.reshape main_v3 main_v4 rfl shapeCasts_S1024x128_S2048x64

/-- The operations before the call. -/
abbrev pre : List (HloOp τ sig (Elt F)) := [opCst, opBc, opCat, opRs]

/-- The program: the four operations, the call, the last operation. -/
theorem main_eq (d : Dev nD) :
    main (F := F) d = (seq pre >>= fun _ => (K (F := F)).run d 0 >>= fun _ => seq [opRs2]) := by
  simp only [main, seq, bind_assoc, pure_bind]

/-! ## Every operation stays inside the nine arrays and allocates nothing -/

theorem pre_sub : ∀ op ∈ (pre : List (HloOp τ sig (Elt F))), op.bufs ⊆ S9 := by
  intro op hop
  simp only [List.mem_cons, List.not_mem_nil, or_false] at hop
  rcases hop with rfl | rfl | rfl | rfl
  · rw [StableHlo.nullary_bufs]; decide
  · rw [StableHlo.unary_bufs]; decide
  · rw [StableHlo.binary_bufs]; decide
  · rw [StableHlo.reshape_bufs]; decide

theorem pre_fresh : ∀ op ∈ (pre : List (HloOp τ sig (Elt F))), op.fresh = ∅ := by
  intro op hop
  simp only [List.mem_cons, List.not_mem_nil, or_false] at hop
  rcases hop with rfl | rfl | rfl | rfl <;> rfl

theorem post_sub : ∀ op ∈ ([opRs2] : List (HloOp τ sig (Elt F))), op.bufs ⊆ S9 := by
  intro op hop
  simp only [List.mem_cons, List.not_mem_nil, or_false] at hop
  subst hop
  rw [StableHlo.reshape_bufs]; decide

theorem post_fresh : ∀ op ∈ ([opRs2] : List (HloOp τ sig (Elt F))), op.fresh = ∅ := by
  intro op hop
  simp only [List.mem_cons, List.not_mem_nil, or_false] at hop
  subst hop
  rfl

/-! ## The nine arrays held, one by one -/

omit [FloatOps F] in
theorem held_S9 (d : Dev nD) (W : Valuation τ sig (Elt F)) :
    (held (SparseCore.T d) S9 W : sProp 𝕄)
      = iprop(((SparseCore.T d).loc main_arg0 ↦{fullShare} W r0) ∗ ((SparseCore.T d).loc main_arg1 ↦{fullShare} W r1)
          ∗ ((SparseCore.T d).loc main_arg2 ↦{fullShare} W r2) ∗ ((SparseCore.T d).loc main_cst ↦{fullShare} W r3)
          ∗ ((SparseCore.T d).loc main_v0 ↦{fullShare} W r4) ∗ ((SparseCore.T d).loc main_v1 ↦{fullShare} W r5)
          ∗ ((SparseCore.T d).loc main_v2 ↦{fullShare} W r6) ∗ ((SparseCore.T d).loc main_v3 ↦{fullShare} W r7)
          ∗ (SparseCore.T d).loc main_v4 ↦{fullShare} W r8) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_cst ↦{fullShare} W main_cst)
          ∗ ((SparseCore.T d).loc main_v0 ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ (SparseCore.T d).loc main_v4 ↦{fullShare} W main_v4) := by
  unfold unscopedBufs
  rw [show (Finset.univ.filter fun b : Ref sig .tc => ¬ b.isScoped)
      = {main_arg0, main_arg1, main_arg2, main_cst, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The launch's unscoped arrays are the nine, at the launch memory. -/
theorem unscoped_held (m : (ℓ : Loc nD τ sig) → Buf (Elt F) ℓ) (d : Dev nD) :
    (unscopedBufs d (fun b => m ((SparseCore.T d).loc b)) : sProp 𝕄) = held (SparseCore.T d) S9 (fun b => m (d, b)) := by
  rw [unscopedBufs_eq, held_S9]

/-! ## What the operations leave in each array -/

section Values
variable (V : Valuation τ sig (Elt F))

theorem pre_keep0 : after pre V r0 = V r0 := by
  show after [opCst, opBc, opCat, opRs] V _ = _; after_results
theorem pre_keep1 : after pre V r1 = V r1 := by
  show after [opCst, opBc, opCat, opRs] V _ = _; after_results
theorem pre_keep2 : after pre V r2 = V r2 := by
  show after [opCst, opBc, opCat, opRs] V _ = _; after_results
theorem pre_keep7 : after pre V r7 = V r7 := by
  show after [opCst, opBc, opCat, opRs] V _ = _; after_results
theorem pre_keep8 : after pre V r8 = V r8 := by
  show after [opCst, opBc, opCat, opRs] V _ = _; after_results

/-- The widened table: the word table with the broadcast zero to its right. -/
theorem pre_v1 :
    after pre V r5
      = concatenate S1000000x128 1
          [⟨S1000000x64, V r1⟩, ⟨S1000000x64, (broadcastInDim S1000000x64 ![] bcast_S_S1000000x64 (constant (F := F) S_ .f32 0x00000000#32 : FVec F S_ .f32) : FVec F S1000000x64 .f32)⟩]
          concatenates_S1000000x64_S1000000x64_S1000000x128_d1 := by
  show after [opCst, opBc, opCat, opRs] V _ = _; after_results

/-- The re-laid position table. -/
theorem pre_v2 : after pre V r6 = shapeCast S1024x128 (V r2) shapeCasts_S2048x64_S1024x128 := by
  show after [opCst, opBc, opCat, opRs] V _ = _; after_results; rfl

/-- The final array: the call's result re-laid. -/
theorem post_v4 : after [opRs2] V r8 = shapeCast S2048x64 (V r7) shapeCasts_S1024x128_S2048x64 := by
  after_results; rfl

theorem post_keep0 : after [opRs2] V r0 = V r0 := by
  after_results
theorem post_keep1 : after [opRs2] V r1 = V r1 := by
  after_results
theorem post_keep2 : after [opRs2] V r2 = V r2 := by
  after_results

end Values

end Cert.KB

end
-- ==== Proof.KB.Fin.lean ====
import proofs.«205826_g34540126994749_cont_8to1_b_743_19_alg».proof.Proof.KB.Setup
import Idealize.ShloMosaic.Lib.SparseCore.Launch

/-!
  How the final memory reads the claim.

  When the program has run, device `d` owns its three input arrays — the index list, the word table and the position
  table — with the contents they were launched with, and the result array with contents `R d`.  Owning an array
  with given contents pins the physical memory's contents of that array, so the final memory holds `R d` in the
  result and the launch contents in the three inputs: the four equations of the claim, result first.
-/

noncomputable section

namespace Cert.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The index list, the word table, the position table and the result of the whole program, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v4

/-- What device `d` owns at the end: its three inputs with their launch contents and the result with contents `R d`. -/
abbrev FIN (m : (ℓ : Loc nD τ sig) → Buf (Elt F) ℓ) (R : (d : Dev nD) → Buf (Elt F) (rLoc d)) (d : Dev nD) : sProp 𝕄 :=
  iprop((a0Loc d ↦{fullShare} m (a0Loc d)) ∗ (a1Loc d ↦{fullShare} m (a1Loc d)) ∗ (a2Loc d ↦{fullShare} m (a2Loc d)) ∗
    (rLoc d ↦{fullShare} R d))

/-- The final memory of device `d`: the result holds `R d`, the three inputs their launch contents. -/
def fq (m : (ℓ : Loc nD τ sig) → Buf (Elt F) ℓ) (R : (d : Dev nD) → Buf (Elt F) (rLoc d)) (d : Dev nD)
    (s' : Phys nD τ sig (Elt F)) : Prop :=
  s'.mem.mem (rLoc d) = R d ∧ s'.mem.mem (a0Loc d) = m (a0Loc d) ∧ s'.mem.mem (a1Loc d) = m (a1Loc d) ∧
    s'.mem.mem (a2Loc d) = m (a2Loc d)

/-- Owning the four arrays with those contents, under the state interpretation, pins the final memory. -/
theorem hfin (m : (ℓ : Loc nD τ sig) → Buf (Elt F) ℓ) (R : (d : Dev nD) → Buf (Elt F) (rLoc d)) (d : Dev nD)
    (s' : Phys nD τ sig (Elt F)) : iprop(FIN m R d ∗ SI s') ⊢ (⌜fq m R d s'⌝ : sProp 𝕄) := by
  iintro ⟨⟨H0, H1, H2, HR⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := R d)) $$ [HSI HR]
  · isplitl [HSI] <;> iassumption
  icases H with %hr
  ipureintro
  exact ⟨funext fun i => hr i (Finset.mem_univ i), funext fun i => h0 i (Finset.mem_univ i),
    funext fun i => h1 i (Finset.mem_univ i), funext fun i => h2 i (Finset.mem_univ i)⟩

/-- The claim's four equations on every device: result, index list, word table, position table. -/
def QC (m : (ℓ : Loc nD τ sig) → Buf (Elt F) ℓ) (R : (d : Dev nD) → Buf (Elt F) (rLoc d)) :
    PUnit × MemSt nD τ sig (Elt F) → Prop :=
  fun r => ∀ c : Dev nD, r.2.mem (rLoc c) = R c ∧ r.2.mem (a0Loc c) = m (a0Loc c) ∧ r.2.mem (a1Loc c) = m (a1Loc c) ∧
    r.2.mem (a2Loc c) = m (a2Loc c)

/-- The per-device facts about the final memory are the claim's equations. -/
theorem hQ (m : (ℓ : Loc nD τ sig) → Buf (Elt F) ℓ) (R : (d : Dev nD) → Buf (Elt F) (rLoc d)) :
    ∀ s' : Phys nD τ sig (Elt F), (∀ d, fq m R d s') → QC m R (⟨⟩, s'.mem) := fun _ h => h

/-- A subcore's closing obligation, weakened: a wait it still owes may also be one on the call's own round. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.KB

end
-- ==== Proof.KB.Launch.lean ====
/-
  The embedding kernel's program run whole: every weakly fair execution of the device's threads — the TensorCore's
  @main, the two SparseCores' sequencers and their thirty-two vector subcores — terminates, nothing faulting, with
  the three arguments unchanged and the result buffer at a named term of them.

  @main widens the word table to 128 columns (zeros appended) and re-lays the position table as 1024 x 128, hands
  the call the index list, those two arrays and the result array, and re-lays what comes back as 2048 x 64. The call
  deals each of the 32 workers its 64 words of the list, a read token of the widened table, its 32 rows of the
  position table and its 32 rows of the result, and takes the same back with the result's rows at the embedding;
  since every worker's rows are rows of ONE whole-array function, the pieces join to the array at that function.
  No thread signals another beyond the launch's own handshakes: the kernel's ghost state is the handshakes' rounds
  beside the transfers' counters.
-/
import proofs.«205826_g34540126994749_cont_8to1_b_743_19_alg».proof.Proof.KB.Tile
import proofs.«205826_g34540126994749_cont_8to1_b_743_19_alg».proof.Proof.KB.Deal
import proofs.«205826_g34540126994749_cont_8to1_b_743_19_alg».proof.Proof.KB.Host
import proofs.«205826_g34540126994749_cont_8to1_b_743_19_alg».proof.Proof.KB.Fin
import Idealize.ShloMosaic.Lib.StableHlo.Run

noncomputable section

namespace Cert.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after wp_seq)

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S2048 EltTy.i32)
local notation "tW" => (Memref.whole Cert.Kernel.main_v1_scv : Memref Cert.Kernel.sig Kind.scVector Space.hbm Cert.Kernel.S1000000x128 EltTy.f32)
local notation "pW" => (Memref.whole Cert.Kernel.main_v2_scv : Memref Cert.Kernel.sig Kind.scVector Space.hbm Cert.Kernel.S1024x128 EltTy.f32)
local notation "oW" => (Memref.whole Cert.Kernel.main_v3_scv : Memref Cert.Kernel.sig Kind.scVector Space.hbm Cert.Kernel.S1024x128 EltTy.f32)
local notation "s0" => (Memref.whole Cert.Kernel.cc0_scratch0 : Memref Cert.Kernel.sig Kind.scVector Space.vmem Cert.Kernel.S64 EltTy.i32)
local notation "s1" => (Memref.whole Cert.Kernel.cc0_scratch1 : Memref Cert.Kernel.sig Kind.scVector Space.vmem Cert.Kernel.S64x128 EltTy.f32)
local notation "s2" => (Memref.whole Cert.Kernel.cc0_scratch2 : Memref Cert.Kernel.sig Kind.scVector Space.vmem Cert.Kernel.S32x128 EltTy.f32)
local notation "s3" => (Memref.whole Cert.Kernel.cc0_scratch3 : Memref Cert.Kernel.sig Kind.scVector Space.vmem Cert.Kernel.S32x128 EltTy.f32)

variable (m : (ℓ : Loc nD τ sig) → Buf (Elt F) ℓ) (ρ : Dev nD → PrngReg)

variable [FloatOps F] [∀ e, Nonempty (Elt F e)]

/-! ## What @main's buffers hold along the run -/

/-- The launch memory as the TensorCore's valuation; -/
abbrev V0 (d : Dev nD) : Valuation τ sig (Elt F) := fun b => m (d, b)
/-- the index list, and what the four host operations before the call leave in the widened table, the re-laid
    position table and the result array; -/
abbrev Xm (d : Dev nD) : Buf (Elt F) (xLoc d) := m (xLoc d)
abbrev V1m (d : Dev nD) : Buf (Elt F) (tLoc d) := after pre (V0 m d) r5
abbrev V2m (d : Dev nD) : Buf (Elt F) (pLoc d) := after pre (V0 m d) r6
abbrev fo0 (d : Dev nD) : Buf (Elt F) (oLoc d) := after pre (V0 m d) r7
/-- the result array after the call: the embedding as 1024 rows of 128; -/
abbrev OUTm (d : Dev nD) : Buf (Elt F) (oLoc d) := Cert.Spec.tileOut (Xm m d) (V1m m d) (V2m m d)
/-- the valuation after the call, and the result buffer after the last re-laying. -/
def Vc (d : Dev nD) : Valuation τ sig (Elt F) := Function.update (after pre (V0 m d)) r7 (OUTm m d)
abbrev RESm (d : Dev nD) : Buf (Elt F) (rLoc d) := after [opRs2] (Vc m d) r8

theorem Vc_r7 (d : Dev nD) : Vc m d r7 = OUTm m d := Function.update_self _ _ _
theorem Vc_of_ne (d : Dev nD) {b : DevRef τ sig} (h : b ≠ r7) : Vc m d b = after pre (V0 m d) b := Function.update_of_ne h _ _

/-! ## What the handshakes carry -/

/-- The one call hands SparseCore `c` its sixteen workers' resources and takes them back with the result's rows at the
    embedding; each task its own worker's. -/
def P : (K (F := F)).Pay (nD := nD) (Val := Elt F) (Name := ℕ) (U := UU) where
  st := fun q d c => match q with
    | 0 => bigSep Finset.univ fun i : Fin 16 => goRes d (Xm m d) (V1m m d) (V2m m d) (fo0 m d) (wid (Fin.cast nCore_zero c) i)
  dn := fun q d c => match q with
    | 0 => bigSep Finset.univ fun i : Fin 16 => goRes d (Xm m d) (V1m m d) (V2m m d) (OUTm m d) (wid (Fin.cast nCore_zero c) i)
  go := fun q d c i => match q with
    | 0 => goRes d (Xm m d) (V1m m d) (V2m m d) (fo0 m d) (wid (Fin.cast nCore_zero c) (Fin.cast nSub_zero i))
  td := fun q d c i => match q with
    | 0 => goRes d (Xm m d) (V1m m d) (V2m m d) (OUTm m d) (wid (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin 16 => goRes d (Xm m d) (V1m m d) (V2m m d) (fo0 m d) (wid (Fin.cast nCore_zero c) i)))
  dn q d c := match q with
    | 0 => (inferInstance : BI.Storable (upEmb : UEmb _ 𝕄)
        (bigSep Finset.univ fun i : Fin 16 => goRes d (Xm m d) (V1m m d) (V2m m d) (OUTm m d) (wid (Fin.cast nCore_zero c) i)))
  go q d c i := match q with
    | 0 => (inferInstance : BI.Storable (upEmb : UEmb _ 𝕄)
        (goRes d (Xm m d) (V1m m d) (V2m m d) (fo0 m d) (wid (Fin.cast nCore_zero c) (Fin.cast nSub_zero i))))
  td q d c i := match q with
    | 0 => (inferInstance : BI.Storable (upEmb : UEmb _ 𝕄)
        (goRes d (Xm m d) (V1m m d) (V2m m d) (OUTm m d) (wid (Fin.cast nCore_zero c) (Fin.cast nSub_zero i))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb (coordsV c s)
          xW (Memref.isWhole_whole _) tW (Memref.isWhole_whole _) pW (Memref.isWhole_whole _) oW (Memref.isWhole_whole _)
          s0 (Memref.isWhole_whole _) s1 (Memref.isWhole_whole _) s2 (Memref.isWhole_whole _) s3 (Memref.isWhole_whole _)
          cc0_scratch4 cc0_scratch5 cc0_scoped0 cc0_scoped1) ⟨⟩ c s := rfl

/-- Every word of the index list names a row of the table: what the precondition gives, and what each task's
    indirect copy asks. -/
def PreOK : Prop := ∀ (d : Dev nD) (j : S2048.Idx), (m (xLoc d) j).toNat < 1000000

theorem tileObl (hF : (K (F := F)).Facts) (hX : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ goRes d (Xm m d) (V1m m d) (V2m m d) (fo0 m d) (wOf (coordsV ⟨_, hc.1⟩ ⟨_, hc.2⟩)) ∗ _)
    ⊢ wp _ _ _ _ (fun _ => iprop(goRes d (Xm m d) (V1m m d) (V2m m d) (OUTm m d) (wOf (coordsV ⟨_, hc.1⟩ ⟨_, hc.2⟩)) ∗ _))
  rw [goRes_slices, goRes_slices]
  exact (tile_body d (coordsV ⟨_, hc.1⟩ ⟨_, hc.2⟩) hF _ (Xm m d) (V1m m d) (V2m m d) (fo0 m d) (hX d) O W hO).trans
    (wp_mono frame _ _ fun _ => obl_post)

omit [FloatOps F] [∀ e, Nonempty (Elt F e)] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands ARE its sixteen tasks' resources, and its results theirs. -/
theorem vecSplit : (K (F := F)).VecSplit' (P m) 0 := by
  intro d c
  show (bigSep Finset.univ fun i : Fin 16 => goRes d (Xm m d) (V1m m d) (V2m m d) (fo0 m d) (wid (Fin.cast nCore_zero c) i))
    ⊢ |={Set.univ}=> iprop(
      (bigSep Finset.univ fun i : Fin ((K (F := F)).nSub 0) =>
        goRes d (Xm m d) (V1m m d) (V2m m d) (fo0 m d) (wid (Fin.cast nCore_zero c) (Fin.cast nSub_zero i)))
      ∗ ((bigSep Finset.univ fun i : Fin ((K (F := F)).nSub 0) =>
          goRes d (Xm m d) (V1m m d) (V2m m d) (OUTm m d) (wid (Fin.cast nCore_zero c) (Fin.cast nSub_zero i)))
          -∗ bigSep Finset.univ fun i : Fin 16 => goRes d (Xm m d) (V1m m d) (V2m m d) (OUTm m d) (wid (Fin.cast nCore_zero c) i)))
  rw [bigSep_tasks (F := F) (fun i => goRes d (Xm m d) (V1m m d) (V2m m d) (fo0 m d) (wid (Fin.cast nCore_zero c) i)),
    bigSep_tasks (F := F) (fun i => goRes d (Xm m d) (V1m m d) (V2m m d) (OUTm m d) (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] [∀ e, Nonempty (Elt F e)] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem st0_eq (d : Dev nD) : (bigSep Finset.univ fun c : Fin ((K (F := F)).nCore 0) => (P m).st 0 d c)
    = iprop((bigSep Finset.univ fun i : Fin 16 => goRes d (Xm m d) (V1m m d) (V2m m d) (fo0 m d) (wid 0 i))
        ∗ (bigSep Finset.univ fun i : Fin 16 => goRes d (Xm m d) (V1m m d) (V2m m d) (fo0 m d) (wid 1 i))) := by
  show (bigSep (Finset.univ : Finset (Fin 2)) fun c => bigSep Finset.univ fun i : Fin 16 => goRes d (Xm m d) (V1m m d) (V2m m d) (fo0 m d) (wid c i)) = _
  rw [show (Finset.univ : Finset (Fin 2)) = {0, 1} by decide, SparseCore.bigSep_insert' (by decide), bigSep_singleton]
theorem dn0_eq (d : Dev nD) : (bigSep Finset.univ fun c : Fin ((K (F := F)).nCore 0) => (P m).dn 0 d c)
    = iprop((bigSep Finset.univ fun i : Fin 16 => goRes d (Xm m d) (V1m m d) (V2m m d) (OUTm m d) (wid 0 i))
        ∗ (bigSep Finset.univ fun i : Fin 16 => goRes d (Xm m d) (V1m m d) (V2m m d) (OUTm m d) (wid 1 i))) := by
  show (bigSep (Finset.univ : Finset (Fin 2)) fun c => bigSep Finset.univ fun i : Fin 16 => goRes d (Xm m d) (V1m m d) (V2m m d) (OUTm m d) (wid c i)) = _
  rw [show (Finset.univ : Finset (Fin 2)) = {0, 1} by decide, SparseCore.bigSep_insert' (by decide), bigSep_singleton]

/-- @main with its last line bound to a return, the form the straight-line rule reads. -/
theorem main_eq' (d : Dev nD) :
    main (F := F) d = (seq pre >>= fun _ => (K (F := F)).run d 0 >>= fun _ => (seq [opRs2] >>= pure)) := by
  rw [main_eq, bind_pure]

theorem fin0 (d : Dev nD) : after [opRs2] (Vc m d) r0 = m (a0Loc d) := by
  rw [post_keep0, Vc_of_ne m d (by decide), pre_keep0]
theorem fin1 (d : Dev nD) : after [opRs2] (Vc m d) r1 = m (a1Loc d) := by
  rw [post_keep1, Vc_of_ne m d (by decide), pre_keep1]
theorem fin2 (d : Dev nD) : after [opRs2] (Vc m d) r2 = m (a2Loc d) := by
  rw [post_keep2, Vc_of_ne m d (by decide), pre_keep2]
theorem pre0 (d : Dev nD) : after pre (V0 m d) r0 = Xm m d := by rw [pre_keep0]

/-- @main on device `d`'s TensorCore: the four host operations, the call (the workers' resources dealt out of the
    four arrays and gathered back), the last re-laying; the arguments kept, the result at `RESm`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m (RESm m) d) := by
  unfold SparseCore.Cfg.tcRes
  rw [unscoped_held, main_eq']
  iintro ⟨#Hctx, Hst, ⟨Hb, Hheld, -, -⟩, -⟩
  iapply (wp_seq 𝒱 none Set.univ d S9 _ pre pre_sub pre_fresh (V0 m d)) $$ [Hb Hheld]
  · isplitl [Hb]; · iexact Hb
    iexact Hheld
  iintro ⟨Hb, Hheld⟩
  ihave Hh := (Entails.of_eq (held_S9 (F := F) d _)) $$ Hheld
  icases Hh with ⟨H0, H1, H2, H3, H4, H5, H6, H7, H8⟩
  ihave H0 := (Entails.of_eq (congrArg (fun f => (xLoc d ↦{fullShare} f : sProp 𝕄)) (pre0 m d))) $$ H0
  ihave Hd := (deal_out d (Xm m d) (V1m m d) (V2m m d) (fo0 m d)) $$ [H0 H5 H6 H7]
  · isplitl [H0]; · iexact H0
    isplitl [H5]; · iexact H5
    isplitl [H6]; · iexact H6
    iexact H7
  icases Hd with ⟨Hdrop, Hc0, Hc1⟩
  rw [wp_bind]
  iapply ((K (F := F)).wp_run (D (F := F)) 𝒱 (EH := EH) (P := P m) κ d 0) $$ [Hst Hc0 Hc1 Hdrop Hb H1 H2 H3 H4 H8]
  isplitr; · iexact Hctx
  isplitl [Hst]; · iexact Hst
  isplitl [Hc0 Hc1]
  · rw [st0_eq]
    isplitl [Hc0]; · iexact Hc0
    iexact Hc1
  iintro ⟨Hst, Hdn⟩
  ihave Hdn' := (Entails.of_eq (dn0_eq m d)) $$ Hdn
  icases Hdn' with ⟨Hc0, Hc1⟩
  ihave Hj := (deal_in d (Xm m d) (V1m m d) (V2m m d) (OUTm m d)) $$ [Hdrop Hc0 Hc1]
  · isplitl [Hdrop]; · iexact Hdrop
    isplitl [Hc0]; · iexact Hc0
    iexact Hc1
  icases Hj with ⟨H0, H5, H6, H7⟩
  iapply (wp_seq 𝒱 none Set.univ d S9 _ [opRs2] post_sub post_fresh (Vc m d)) $$ [Hb H0 H1 H2 H3 H4 H5 H6 H7 H8]
  · isplitl [Hb]; · iexact Hb
    rw [held_S9, Vc_r7, Vc_of_ne m d (b := r0) (by decide), Vc_of_ne m d (b := r1) (by decide), Vc_of_ne m d (b := r2) (by decide),
      Vc_of_ne m d (b := r3) (by decide), Vc_of_ne m d (b := r4) (by decide), Vc_of_ne m d (b := r5) (by decide),
      Vc_of_ne m d (b := r6) (by decide), Vc_of_ne m d (b := r8) (by decide), pre0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨Hb, Hheld⟩
  ihave Hh := (Entails.of_eq (held_S9 (F := F) d _)) $$ Hheld
  icases Hh with ⟨H0, H1, H2, -, -, -, -, -, H8⟩
  rw [wp_pure]
  imodintro
  isplitl [Hst]; · iexact Hst
  isplitl [H0]; · iapply (Entails.of_eq (congrArg (fun f => (a0Loc d ↦{fullShare} f : sProp 𝕄)) (fin0 m d))); iexact H0
  isplitl [H1]; · iapply (Entails.of_eq (congrArg (fun f => (a1Loc d ↦{fullShare} f : sProp 𝕄)) (fin1 m d))); iexact H1
  isplitl [H2]; · iapply (Entails.of_eq (congrArg (fun f => (a2Loc d ↦{fullShare} f : sProp 𝕄)) (fin2 m d))); iexact H2
  iexact H8

/-! ## The program's run -/

/-- Every weakly fair execution of the program's threads from a launch memory whose index list names table rows
    terminates, nothing faulting, with the result buffer at `RESm` of the arguments and the arguments unchanged. -/
theorem run_main (hX : PreOK m) :
    θ_run (Cert.Kernel.defs (F := F)) (Cert.Kernel.threads (F := F)) ⟨m, fun _ => 0, ρ⟩ (QC m (RESm m)) :=
  SparseCore.Cfg.θ_run_sc (K := K (F := F)) (D := D (F := F)) (𝒱 := 𝒱) (EH := EH) (P := P m) facts v₀
    (fun q hq => match q with | 0 => nomatch hq)
    (fun q _ => match q with | 0 => tileObl m facts hX)
    (fun q _ => match q with | 0 => SparseCore.Cfg.VecSplit.of_plain (vecSplit m))
    m ρ main (fun _ => iprop(emp)) (FIN m (RESm m)) (u₀ (F := F)) (sep_elim_left.trans (hu₀ m)) (hmain m ρ) (fq m (RESm m)) (hfin m (RESm m))
    (QC m (RESm m)) (hQ m (RESm m))

end Cert.KB

end
-- ==== Proof.KI.Setup.lean ====
import proofs.«205826_g34540126994749_cont_8to1_b_743_19_alg».proof.Defs
import proofs.«205826_g34540126994749_cont_8to1_b_743_19_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205826_g34540126994749_cont_8to1_b_743_19_alg».proof.Proof.Gen.KernelIdeal
import proofs.«205826_g34540126994749_cont_8to1_b_743_19_alg».proof.Proof.Gen.KernelIdeal.Skeleton

/-!
  The embedding kernel as the launch theorem reads it: the call's configuration, the ghost state (the launch
  handshakes' rounds beside the transfers' counters), the four device arrays the call touches, and the pieces of
  them one vector subcore works on.

  Subcore `s` of SparseCore `c` is worker  w = 2 s + c  (0 ≤ w < 32). It owns words [64 w, 64 w + 64) of the index
  list, rows [32 w, 32 w + 32) of the re-laid position table and of the result, and reads the whole widened table.
-/

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the transfers' counters beside them. -/
abbrev UH : Type := URounds (GSem nD τ sig) ℕ
abbrev UU : Type := UH × Counters
abbrev EH : Emb UH (MT nD τ sig (HIx 1) (Elt F) ℕ UU ℕ) := embL

/-- The index list, the widened table, the re-laid position table and the result, as locations of device `d`. -/
abbrev xLoc (d : Dev nD) : Loc nD τ sig := (SparseCore.T d).loc main_arg0
abbrev tLoc (d : Dev nD) : Loc nD τ sig := (SparseCore.T d).loc main_v1
abbrev pLoc (d : Dev nD) : Loc nD τ sig := (SparseCore.T d).loc main_v2
abbrev oLoc (d : Dev nD) : Loc nD τ sig := (SparseCore.T d).loc main_v3

/-- The SparseCore and the subcore a grid point names. -/
abbrev cV (L : grid0.Coords) : Fin τ.nSC := (L 0).castLE hcore0
abbrev jV (L : grid0.Coords) : Fin τ.nSub := (L 1).castLE hsub0

/-- The worker number of a grid point: 2 s + c. -/
def widN (L : grid0.Coords) : ℕ := 2 * (L 1).val + (L 0).val

theorem widN_lt (L : grid0.Coords) : widN L < 32 := by
  have h0 : (L 0).val < 2 := (L 0).isLt
  have h1 : (L 1).val < 16 := (L 1).isLt
  unfold widN; omega

/-- The worker's words of the list start at 64 w, its rows of the position table and of the result at 32 w. -/
theorem off1_eq (L : grid0.Coords) : k0_off1 L = ![64 * widN L] := by
  rw [k0_off1_eq]; unfold widN; congr 1; omega
theorem off2_eq (L : grid0.Coords) : k0_off2 L = ![32 * widN L, 0] := by
  rw [k0_off2_eq]; unfold widN
  funext a; match a with
  | ⟨0, _⟩ => show 64 * (L 1).val + 32 * (L 0).val = 32 * (2 * (L 1).val + (L 0).val); omega
  | ⟨1, _⟩ => rfl

/-- The worker's pieces of the three arrays it is handed parts of, spelt as the kernel slices them. -/
abbrev xSl (L : grid0.Coords) : Memref sig .scVector .hbm S64 .i32 :=
  (Memref.whole main_arg0_scv : Memref sig .scVector .hbm S2048 .i32).slice (Rect.unit (s := S2048) (k0_off1 L) S64.size (k0_off1_inb L)) (fun _ => rfl)
abbrev pSl (L : grid0.Coords) : Memref sig .scVector .hbm S32x128 .f32 :=
  (Memref.whole main_v2_scv : Memref sig .scVector .hbm S1024x128 .f32).slice (Rect.unit (s := S1024x128) (k0_off2 L) S32x128.size (k0_off2_inb L)) (fun _ => rfl)
abbrev oSl (L : grid0.Coords) : Memref sig .scVector .hbm S32x128 .f32 :=
  (Memref.whole main_v3_scv : Memref sig .scVector .hbm S1024x128 .f32).slice (Rect.unit (s := S1024x128) (k0_off2 L) S32x128.size (k0_off2_inb L)) (fun _ => rfl)
/-- The widened table as the gather names it: the whole array, sliced at offset zero with its full extents. -/
abbrev tSl : Memref sig .scVector .hbm S1000000x128 .f32 :=
  (Memref.whole main_v1_scv : Memref sig .scVector .hbm S1000000x128 .f32).slice
    (Rect.unit (s := S1000000x128) ![0, 0] S1000000x128.size inb_S1000000x128_S1000000x128_0_0) (fun _ => rfl)

end Cert.KI

end
-- ==== Proof.KI.Pay.lean ====
/-
  The loop body's integer payloads, read lane by lane.

  Trip k of the 256 trips handles the sixteen flat positions f = 16 k + l, l the lane.  The body computes, per lane,
  f / 64 and f % 64 (where the gathered table row sits in its 64 x 128 scratch) and f / 128 and f % 128 (the entry of
  the 32 x 128 tile of positions and of results): a right shift by 6 or 7 of a 32-bit word is its quotient by 64 or
  128, and its conjunction with 63 or 127 the remainder.  No sum or product wraps, as f < 4096.  Every such index
  is inside the scratch it addresses, which is what the body's two checks ask.
-/
import proofs.«205826_g34540126994749_cont_8to1_b_743_19_alg».proof.Proof.Gen.KernelIdeal.Skeleton

noncomputable section

namespace Cert.KI.Pay

open Idealize.ShloMosaic Idealize.SL.Sem Cert.KernelIdeal Cert.KernelIdeal.Gen

/-- The loop runs 256 trips. -/
theorem trips_eq : k0_t1_loop.trips = 256 := by decide

/-- A trip's number is below 256. -/
theorem trip_lt (k : Fin k0_t1_loop.trips) : k.val < 256 := trips_eq ▸ k.isLt

/-- A lane's number is below 16. -/
theorem lane_lt (x : S16.Idx) : (x 0).val < 16 := (x 0).isLt

/-- The flat position a lane of a trip handles is below 4096. -/
theorem flat_lt (k : Fin k0_t1_loop.trips) (x : S16.Idx) : 16 * k.val + (x 0).val < 4096 := by
  have := trip_lt k; have := lane_lt x; omega

/-- Lane l of trip k holds the flat position 16 k + l. -/
theorem pay1_toNat (k : Fin k0_t1_loop.trips) (x : S16.Idx) : (k0_pay1 k x).toNat = 16 * k.val + (x 0).val := by
  have hk := trip_lt k
  have hx := lane_lt x
  show ((0#32 + BitVec.ofNat 32 k.val * 1#32) * 16#32 + BitVec.ofNat 32 (0 * 16 + (x 0).val)).toNat = _
  simp only [BitVec.toNat_add, BitVec.toNat_mul, BitVec.toNat_ofNat]
  omega

/-- A right shift by 6 of a 32-bit word is its quotient by 64. -/
theorem shr6_toNat (w : BitVec 32) : (IntOp.shrui .vector w 6#32).toNat = w.toNat / 64 := by
  show (if (6#32 : BitVec 32).toNat < 32 then w >>> (6#32 : BitVec 32) else _).toNat = _
  rw [if_pos (by decide)]
  show (w >>> 6).toNat = _
  rw [BitVec.toNat_ushiftRight, Nat.shiftRight_eq_div_pow]

/-- A right shift by 7 of a 32-bit word is its quotient by 128. -/
theorem shr7_toNat (w : BitVec 32) : (IntOp.shrui .vector w 7#32).toNat = w.toNat / 128 := by
  show (if (7#32 : BitVec 32).toNat < 32 then w >>> (7#32 : BitVec 32) else _).toNat = _
  rw [if_pos (by decide)]
  show (w >>> 7).toNat = _
  rw [BitVec.toNat_ushiftRight, Nat.shiftRight_eq_div_pow]

/-- The conjunction of a 32-bit word with 63 is its remainder by 64. -/
theorem and63_toNat (w : BitVec 32) : (IntOp.andi w 63#32).toNat = w.toNat % 64 := by
  show (w &&& 63#32).toNat = _
  rw [BitVec.toNat_and]
  exact Nat.and_two_pow_sub_one_eq_mod w.toNat 6

/-- The conjunction of a 32-bit word with 127 is its remainder by 128. -/
theorem and127_toNat (w : BitVec 32) : (IntOp.andi w 127#32).toNat = w.toNat % 128 := by
  show (w &&& 127#32).toNat = _
  rw [BitVec.toNat_and]
  exact Nat.and_two_pow_sub_one_eq_mod w.toNat 7

/-- The row of the 64 x 128 scratch a lane reads: f / 64. -/
theorem pay2_toNat (k : Fin k0_t1_loop.trips) (x : S16.Idx) :
    (k0_pay2 k x).toNat = (16 * k.val + (x 0).val) / 64 := by
  show (IntOp.shrui .vector (k0_pay1 k x) 6#32).toNat = _
  rw [shr6_toNat, pay1_toNat]

/-- The column of the 64 x 128 scratch a lane reads: f % 64. -/
theorem pay3_toNat (k : Fin k0_t1_loop.trips) (x : S16.Idx) :
    (k0_pay3 k x).toNat = (16 * k.val + (x 0).val) % 64 := by
  show (IntOp.andi (k0_pay1 k x) 63#32).toNat = _
  rw [and63_toNat, pay1_toNat]

/-- The row of the 32 x 128 tile a lane reads and writes: f / 128. -/
theorem pay4_toNat (k : Fin k0_t1_loop.trips) (x : S16.Idx) :
    (k0_pay4 k x).toNat = (16 * k.val + (x 0).val) / 128 := by
  show (IntOp.shrui .vector (k0_pay1 k x) 7#32).toNat = _
  rw [shr7_toNat, pay1_toNat]

/-- The column of the 32 x 128 tile a lane reads and writes: f % 128. -/
theorem pay5_toNat (k : Fin k0_t1_loop.trips) (x : S16.Idx) :
    (k0_pay5 k x).toNat = (16 * k.val + (x 0).val) % 128 := by
  show (IntOp.andi (k0_pay1 k x) 127#32).toNat = _
  rw [and127_toNat, pay1_toNat]

/-- Every index of the gather from the 64 x 128 scratch is inside it, at every trip. -/
theorem chk1_all (k : Fin k0_t1_loop.trips) : k0_chk1 (k0_pay2 k) (k0_pay3 k) := by
  intro a x
  have hf := flat_lt k x
  match a with
  | ⟨0, _⟩ =>
    show (k0_pay2 k x).toNat < 64
    rw [pay2_toNat]; omega
  | ⟨1, _⟩ =>
    show (k0_pay3 k x).toNat < 128
    rw [pay3_toNat]; omega

/-- Every index into the 32 x 128 tile is inside it, at every trip. -/
theorem idx2_all (k : Fin k0_t1_loop.trips) :
    ∀ a x, ((![k0_pay4 k, k0_pay5 k] : Fin 2 → IVec S16 32) a x).toNat < S32x128.size a := by
  intro a x
  have hf := flat_lt k x
  match a with
  | ⟨0, _⟩ =>
    show (k0_pay4 k x).toNat < 32
    rw [pay4_toNat]; omega
  | ⟨1, _⟩ =>
    show (k0_pay5 k x).toNat < 128
    rw [pay5_toNat]; omega

/-- The second check (the gather from and the scatter into the 32 x 128 tile) holds at every trip. -/
theorem chk2_all (k : Fin k0_t1_loop.trips) : k0_chk2 (k0_pay4 k) (k0_pay5 k) :=
  ⟨idx2_all k, idx2_all k⟩

end Cert.KI.Pay

end
-- ==== Proof.KI.Moves.lean ====
/-
  What one vector subcore's data movement leaves in its buffers, read at an entry.

  Worker w = 2 s + c (0 ≤ w < 32) copies words [64 w, 64 w + 64) of the index list into its first buffer, gathers
  into its second buffer (64 rows of 128) the rows of the widened table those words name, copies rows
  [32 w, 32 w + 32) of the re-laid position table into its third buffer, and copies its fourth buffer (32 rows of
  128) out to rows [32 w, 32 w + 32) of the result.  Read at an entry:

    * the first buffer's word t is word 64 w + t of the list, so below 1 000 000 when every word of the list is;
    * the second buffer's entry (t, c) is the table at (value of word 64 w + t, c), and that value is the row the
      specification names when it is below 1 000 000;
    * the third buffer's entry (r, c) is the position table at (32 w + r, c);
    * when the fourth buffer's entry at flat position n = 128 r + c is the second buffer's (n / 64, n % 64) plus the
      third's (r, c), the result's entry (32 w + r, c) is the specification's tiled result there: its flat position
      is 4096 w + n, whose quotient by 64 is 64 w + n / 64 and whose remainder is n % 64.
-/
import proofs.«205826_g34540126994749_cont_8to1_b_743_19_alg».proof.Proof.KI.Setup
import proofs.«205826_g34540126994749_cont_8to1_b_743_19_alg».proof.Proof.Spec
import proofs.«205826_g34540126994749_cont_8to1_b_743_19_alg».proof.Proof.TileVal
import proofs.«205826_g34540126994749_cont_8to1_b_743_19_alg».proof.Proof.Bridge
import Idealize.ShloMosaic.Lib.SparseCore.Stream
import Idealize.ShloMosaic.Lib.Writes
import Idealize.ShloMosaic.Lib.ValueIdx

noncomputable section

namespace Cert.KI.Moves

open Cert.KernelIdeal Cert.KernelIdeal.Gen Cert.KI Idealize.ShloMosaic Idealize.ShloMosaic.ValueIdx
open Idealize.ShloMosaic.SparseCore (V)

variable {F : FTy → Type} (d : Dev nD) (L : grid0.Coords)

/-! ## The list's words in the first buffer -/

/-- The worker's piece of the list at word `t` is word `64 w + t` of the list. -/
theorem xSl_emb (t : Fin 64) :
    (xSl L).view.emb (ix1 t) = ix1 (n := 2048) ⟨64 * widN L + t.val, by have := widN_lt L; omega⟩ := by
  funext a
  refine Fin.ext ?_
  match a with
  | ⟨0, _⟩ =>
    show (k0_off1 L) 0 + 1 * t.val = 64 * widN L + t.val
    rw [off1_eq]
    show 64 * widN L + 1 * t.val = 64 * widN L + t.val
    omega

/-- The first buffer written whole with the worker's piece of the list reads as that piece. -/
theorem scratch0_read (X : Buf (Elt F) (xLoc d)) (g : Buf (Elt F) ((V d (cV L) (jV L)).loc cc0_scratch0)) :
    (Memref.whole cc0_scratch0).view.read (Elt F)
        ((Memref.whole cc0_scratch0).view.write (Elt F) g (ReadAs.same.apply ((xSl L).view.read (Elt F) X)) Finset.univ)
      = (xSl L).view.read (Elt F) X := by
  show (View.whole cc0_scratch0).read (Elt F) ((View.whole cc0_scratch0).write (Elt F) g _ Finset.univ) = _
  rw [View.write_whole_univ]
  rfl

/-- Every word the first buffer then holds is a word of the list: below 1 000 000 when all of the list's are. -/
theorem idx_inb (X : Buf (Elt F) (xLoc d)) (hX : ∀ j, (X j).toNat < 1000000) :
    ∀ (g : Buf (Elt F) ((V d (cV L) (jV L)).loc cc0_scratch0)) (x : cc0_scratch0.ty.shape.Idx),
      ((Memref.whole cc0_scratch0).view.read (Elt F)
        ((Memref.whole cc0_scratch0).view.write (Elt F) g (ReadAs.same.apply ((xSl L).view.read (Elt F) X)) Finset.univ)
        x).toNat < 1000000 := by
  intro g x
  rw [scratch0_read]
  exact hX ((xSl L).view.emb x)

/-! ## The position table's rows in the third buffer -/

/-- The worker's piece of the position table at `(r, c)` is the table's entry `(32 w + r, c)`. -/
theorem pSl_emb (r : Fin 32) (c : Fin 128) :
    (pSl L).view.emb (ix2 r c)
      = ix2 (n0 := 1024) (n1 := 128) ⟨32 * widN L + r.val, by have := widN_lt L; omega⟩ c := by
  funext a
  refine Fin.ext ?_
  match a with
  | ⟨0, _⟩ =>
    show (k0_off2 L) 0 + 1 * r.val = 32 * widN L + r.val
    rw [off2_eq]
    show 32 * widN L + 1 * r.val = 32 * widN L + r.val
    omega
  | ⟨1, _⟩ =>
    show (k0_off2 L) 1 + 1 * c.val = c.val
    rw [off2_eq]
    show 0 + 1 * c.val = c.val
    omega

/-- The third buffer holds the worker's rows of the position table: entry `(r, c)` is the table's `(32 w + r, c)`. -/
def IsPos (V2 : Buf (Elt F) (pLoc d)) (G2 : Buf (Elt F) ((V d (cV L) (jV L)).loc cc0_scratch2)) : Prop :=
  ∀ (r : Fin 32) (c : Fin 128),
    G2 (ix2 r c) = V2 (ix2 (n0 := 1024) (n1 := 128) ⟨32 * widN L + r.val, by have := widN_lt L; omega⟩ c)

/-- The third buffer written whole with the worker's piece of the position table holds those rows. -/
theorem pos_isPos (V2 : Buf (Elt F) (pLoc d)) (f2 : Buf (Elt F) ((V d (cV L) (jV L)).loc cc0_scratch2)) :
    IsPos d L V2 ((Memref.whole cc0_scratch2).view.write (Elt F) f2
      (ReadAs.same.apply ((pSl L).view.read (Elt F) V2)) Finset.univ) := by
  intro r c
  show (View.whole cc0_scratch2).write (Elt F) f2 ((pSl L).view.read (Elt F) V2) Finset.univ (ix2 r c) = _
  rw [View.write_whole_univ, View.read_apply, pSl_emb]
  rfl

/-! ## The gathered rows in the second buffer -/

/-- The whole rectangle places an index at itself. -/
theorem rect_whole_emb {s : Shape} (x : s.Idx) : (Rect.whole s).emb x = x := by
  funext a
  refine Fin.ext ?_
  show 0 + 1 * (x a).val = (x a).val
  omega

/-- The row a list of 64 words names for entry `k`: the value of word `k`. -/
theorem rows_val {o z : ℕ} (idx : S64.Idx → Elt F .i32) (hn : S64.numel = o) (h : ∀ x, (idx x).toNat < z) (k : Fin o)
    (hk : k.val < 64) : (SparseCore.rows idx hn h k).val = (idx (ix1 ⟨k.val, hk⟩)).toNat := by
  have he : S64.rowMajor.symm (k.cast hn.symm) = ix1 ⟨k.val, hk⟩ := by
    rw [Equiv.symm_apply_eq]
    refine Fin.ext ?_
    rw [Shape.rowMajor_val_one]
    rfl
  show (idx (S64.rowMajor.symm (k.cast hn.symm))).toNat = _
  rw [he]

/-- The second buffer holds the table's rows the worker's words name: entry `(t, c)` is the table at
    (the row of word `64 w + t`, `c`). -/
def IsRows (X : Buf (Elt F) (xLoc d)) (V1 : Buf (Elt F) (tLoc d))
    (G1 : Buf (Elt F) ((V d (cV L) (jV L)).loc cc0_scratch1)) : Prop :=
  ∀ (t : Fin 64) (c : Fin 128),
    G1 (ix2 t c) = V1 (ix2 (n0 := 1000000) (n1 := 128)
      (Cert.Spec.rowOf (X (ix1 (n := 2048) ⟨64 * widN L + t.val, by have := widN_lt L; omega⟩))) c)

/-- The gather's payload over the list the first buffer holds, written whole into the second buffer over any earlier
    contents, is those rows. -/
theorem rows_isRows (X : Buf (Elt F) (xLoc d)) (V1 : Buf (Elt F) (tLoc d))
    (f0 : Buf (Elt F) ((V d (cV L) (jV L)).loc cc0_scratch0))
    (f1 : Buf (Elt F) ((V d (cV L) (jV L)).loc cc0_scratch1)) (hX : ∀ j, (X j).toNat < 1000000)
    (hn : S64.numel = S64x128.size gathers_S1000000x128_S64x128.axis')
    (hin : ∀ x, ((Memref.whole cc0_scratch0).view.read (Elt F)
      ((Memref.whole cc0_scratch0).view.write (Elt F) f0 (ReadAs.same.apply ((xSl L).view.read (Elt F) X)) Finset.univ)
      x).toNat < S1000000x128.size gathers_S1000000x128_S64x128.axis) :
    IsRows d L X V1 ((Memref.whole cc0_scratch1).view.writes (Elt F) f1
      [⟨Rect.whole cc0_scratch1.ty.shape, SparseCore.gatherPayload gathers_S1000000x128_S64x128 (tSl.view.read (Elt F) V1)
        (SparseCore.rows ((Memref.whole cc0_scratch0).view.read (Elt F)
          ((Memref.whole cc0_scratch0).view.write (Elt F) f0 (ReadAs.same.apply ((xSl L).view.read (Elt F) X)) Finset.univ))
          hn hin)⟩]) := by
  intro t c
  rw [View.writes_singleton]
  have he : ((Memref.whole cc0_scratch1).view.slice (Rect.whole cc0_scratch1.ty.shape)).emb (ix2 t c) = ix2 t c :=
    rect_whole_emb (s := S64x128) (ix2 t c)
  refine ((congrArg _ he.symm).trans (View.write_emb_of_mem _ _ (Finset.mem_univ _))).trans ?_
  show V1 (tSl.view.emb (gathers_S1000000x128_S64x128.idx _ (ix2 t c))) = _
  congr 1
  funext b
  refine Fin.ext ?_
  match b with
  | ⟨0, _⟩ =>
    show 0 + 1 * (gathers_S1000000x128_S64x128.idx _ (ix2 t c) gathers_S1000000x128_S64x128.axis).val = _
    rw [Shape.Gathers.idx_axis, rows_val _ hn hin _ t.isLt]
    show 0 + 1 * ((Memref.whole cc0_scratch0).view.read (Elt F)
      ((Memref.whole cc0_scratch0).view.write (Elt F) f0 (ReadAs.same.apply ((xSl L).view.read (Elt F) X)) Finset.univ)
      (ix1 t)).toNat = _
    rw [scratch0_read, View.read_apply, xSl_emb]
    show 0 + 1 * (X (ix1 (n := 2048) ⟨64 * widN L + t.val, _⟩)).toNat = (Cert.Spec.rowOf _).val
    rw [Cert.Spec.rowOf_val (hX _)]
    omega
  | ⟨1, _⟩ =>
    show 0 + 1 * (gathers_S1000000x128_S64x128.idx _ (ix2 t c) ⟨1, by decide⟩).val = c.val
    rw [Shape.Gathers.idx_of_ne _ _ _ _ (by decide)]
    show 0 + 1 * c.val = c.val
    omega

/-! ## The result's rows -/

/-- The worker's piece of the result at `(r, c)` is the result's entry `(32 w + r, c)`. -/
theorem oSl_emb (r : Fin 32) (c : Fin 128) :
    (oSl L).view.emb (ix2 r c)
      = ix2 (n0 := 1024) (n1 := 128) ⟨32 * widN L + r.val, by have := widN_lt L; omega⟩ c := by
  funext a
  refine Fin.ext ?_
  match a with
  | ⟨0, _⟩ =>
    show (k0_off2 L) 0 + 1 * r.val = 32 * widN L + r.val
    rw [off2_eq]
    show 32 * widN L + 1 * r.val = 32 * widN L + r.val
    omega
  | ⟨1, _⟩ =>
    show (k0_off2 L) 1 + 1 * c.val = c.val
    rw [off2_eq]
    show 0 + 1 * c.val = c.val
    omega

/-- The fourth buffer, holding at each entry the gathered entry plus the position entry, copied out to the worker's
    rows of the result, leaves there the specification's tiled result. -/
theorem out_eq [FloatOps F] (X : Buf (Elt F) (xLoc d)) (V1 : Buf (Elt F) (tLoc d)) (V2 : Buf (Elt F) (pLoc d))
    (fo : Buf (Elt F) (oLoc d)) (G1 : Buf (Elt F) ((V d (cV L) (jV L)).loc cc0_scratch1))
    (G2 : Buf (Elt F) ((V d (cV L) (jV L)).loc cc0_scratch2)) (g : Buf (Elt F) ((V d (cV L) (jV L)).loc cc0_scratch3))
    (h1 : IsRows d L X V1 G1) (h2 : IsPos d L V2 G2) (hg : ∀ j, g j = Cert.TileVal.val G1 G2 j) :
    ∀ i ∈ (oSl L).view.set,
      (oSl L).view.writes (Elt F) fo
          [⟨Rect.whole S32x128, ReadAs.same.apply ((Memref.whole cc0_scratch3).view.read (Elt F) g)⟩] i
        = Cert.Spec.tileOut X V1 V2 i := by
  intro i hi
  obtain ⟨y, -, rfl⟩ := Finset.mem_map.mp hi
  obtain ⟨r, c, rfl⟩ : ∃ (r : Fin 32) (c : Fin 128), y = ix2 r c := ⟨y 0, y 1, eq_ix2 y⟩
  have hw := widN_lt L
  have hr := r.isLt
  have hc := c.isLt
  have hfl : Cert.LibStoreStep.flat (ix2 r c) = r.val * 128 + c.val := rfl
  have he : ((oSl L).view.slice (Rect.whole S32x128)).emb (ix2 r c) = (oSl L).view.emb (ix2 r c) :=
    congrArg (oSl L).view.emb (rect_whole_emb (s := S32x128) (ix2 r c))
  rw [View.writes_singleton]
  refine ((congrArg _ he.symm).trans (View.write_emb_of_mem _ _ (Finset.mem_univ _))).trans ?_
  show g (ix2 r c) = _
  rw [hg, oSl_emb,
    Cert.Bridge.tileOut_apply X V1 V2 ⟨32 * widN L + r.val, by omega⟩ c
      ⟨64 * widN L + Cert.LibStoreStep.flat (ix2 r c) / 64, by omega⟩
      ⟨Cert.LibStoreStep.flat (ix2 r c) % 64, Nat.mod_lt _ (by decide)⟩
      (by show (32 * widN L + r.val) * 128 + c.val
            = (64 * widN L + Cert.LibStoreStep.flat (ix2 r c) / 64) * 64 + Cert.LibStoreStep.flat (ix2 r c) % 64
          omega)]
  unfold Cert.TileVal.val
  rw [h1, h2 r c]

end Cert.KI.Moves

end
-- ==== Proof.KI.Step.lean ====
/-
  One trip of the filling loop, stated on the contents the run leaves.

  A vector subcore holds 64 gathered table rows (64 x 128), 32 rows of the re-laid position table (32 x 128) and a
  32 x 128 output block.  Trip k of the loop reads, lane by lane, the gathered entry (n / 64, n % 64) and the position
  entry (n / 128, n % 128) for the flat position n = 16 k + lane, adds them, and stores the sum into the output block
  at entry (n / 128, n % 128), whose flat position is n.

  A load through a whole buffer reads the buffer's contents, and an unmasked store through a whole buffer replaces
  them, so the contents after the trip are the indexed store of the sixteen sums into the contents before it.  The
  sum lane x carries is the prescribed value of the entry lane x names (its flat position is n, so the gathered entry
  read is (n / 64, n % 64) and the position entry read is the entry itself); hence, if every entry at a flat position
  below 16 k held its prescribed value before the trip, every entry below 16 (k + 1) holds it after.
-/
import proofs.«205826_g34540126994749_cont_8to1_b_743_19_alg».proof.Proof.KI.Pay
import proofs.«205826_g34540126994749_cont_8to1_b_743_19_alg».proof.Proof.TileVal
import Idealize.ShloMosaic.Lib.Writes

noncomputable section

namespace Cert.KI.Step

open Idealize.ShloMosaic Idealize.SL.Sem Idealize.ShloMosaic.ValueIdx Cert.KernelIdeal Cert.KernelIdeal.Gen

variable {F : FTy → Type} [FloatOps F]

/-- One trip of the filling loop: the output block's contents after trip `k` agree with the prescribed values at
    every flat position below 16 (k + 1), given that the contents before it do below 16 k.  See the head of the file. -/
theorem step_run (G1 : FVec F S64x128 .f32) (G2 : FVec F S32x128 .f32) (g : FVec F S32x128 .f32)
    (k : Fin (Scf.trips k0_t1_loop.lb k0_t1_loop.ub k0_t1_loop.st))
    (h1 : ∀ a x, ((![k0_pay2 k, k0_pay3 k] : Fin 2 → IVec S16 32) a x).toNat < S64x128.size a)
    (h2 : ∀ a x, ((![k0_pay4 k, k0_pay5 k] : Fin 2 → IVec S16 32) a x).toNat < S32x128.size a)
    (h3 : ∀ a x, ((![k0_pay4 k, k0_pay5 k] : Fin 2 → IVec S16 32) a x).toNat < S32x128.size a)
    (IH : ∀ j, Cert.LibStoreStep.flat j < 16 * k.val → g j = Cert.TileVal.val G1 G2 j) :
    ∀ j, Cert.LibStoreStep.flat j < 16 * (k.val + 1) →
      ((Memref.whole cc0_scratch3).view.writes (Elt F) g [⟨Rect.whole S32x128,
          storeIdx ((Memref.whole cc0_scratch3).view.readAt (Elt F) (LoadRect.whole S32x128) g) ![k0_pay4 k, k0_pay5 k]
            (k0_pay6 (loadIdx ((Memref.whole cc0_scratch1).view.readAt (Elt F) (LoadRect.whole S64x128) G1) ![k0_pay2 k, k0_pay3 k] h1)
                     (loadIdx ((Memref.whole cc0_scratch2).view.readAt (Elt F) (LoadRect.whole S32x128) G2) ![k0_pay4 k, k0_pay5 k] h2))
            (fun _ => 1#1) false h3⟩]) j = Cert.TileVal.val G1 G2 j := by
  intro j hj
  -- loads through whole buffers read their contents; the unmasked store through the whole buffer replaces them
  have key : ((Memref.whole cc0_scratch3).view.writes (Elt F) g [⟨Rect.whole S32x128,
          storeIdx ((Memref.whole cc0_scratch3).view.readAt (Elt F) (LoadRect.whole S32x128) g) ![k0_pay4 k, k0_pay5 k]
            (k0_pay6 (loadIdx ((Memref.whole cc0_scratch1).view.readAt (Elt F) (LoadRect.whole S64x128) G1) ![k0_pay2 k, k0_pay3 k] h1)
                     (loadIdx ((Memref.whole cc0_scratch2).view.readAt (Elt F) (LoadRect.whole S32x128) G2) ![k0_pay4 k, k0_pay5 k] h2))
            (fun _ => 1#1) false h3⟩])
      = storeIdx (s := S32x128) g ![k0_pay4 k, k0_pay5 k]
            (k0_pay6 (loadIdx (s := S64x128) G1 ![k0_pay2 k, k0_pay3 k] h1) (loadIdx (s := S32x128) G2 ![k0_pay4 k, k0_pay5 k] h2))
            (fun _ => 1#1) false h3 := by
    have e1 : (Memref.whole cc0_scratch1).view.readAt (Elt F) (LoadRect.whole S64x128) G1 = G1 :=
      Memref.readAt_whole (Elt F) cc0_scratch1 G1
    have e2 : (Memref.whole cc0_scratch2).view.readAt (Elt F) (LoadRect.whole S32x128) G2 = G2 :=
      Memref.readAt_whole (Elt F) cc0_scratch2 G2
    have e3 : (Memref.whole cc0_scratch3).view.readAt (Elt F) (LoadRect.whole S32x128) g = g :=
      Memref.readAt_whole (Elt F) cc0_scratch3 g
    rw [View.writes_singleton, e1, e2, e3]
    exact Memref.write_access_whole_univ (Elt F) cc0_scratch3 g _
  rw [key]
  have hk : k.val < 256 := Cert.KI.Pay.trip_lt k
  refine Cert.LibStoreStep.store_step (F := F) g ![k0_pay4 k, k0_pay5 k] _ h3 k.val hk ?_ (Cert.TileVal.val G1 G2) ?_ IH j hj
  · -- lane x names entry (n / 128, n % 128), n = 16 k + x
    intro x
    exact ⟨Cert.KI.Pay.pay4_toNat k x, Cert.KI.Pay.pay5_toNat k x⟩
  · -- lane x carries the prescribed value of the entry it names: that entry's flat position is n
    intro x
    have hJ : Cert.LibStoreStep.flat (idxAt (s := S32x128) ![k0_pay4 k, k0_pay5 k] h3 x) = 16 * k.val + (x 0).val := by
      show (k0_pay4 k x).toNat * 128 + (k0_pay5 k x).toNat = _
      rw [Cert.KI.Pay.pay4_toNat, Cert.KI.Pay.pay5_toNat]
      omega
    show FloatOps.addf (G1 (idxAt (s := S64x128) ![k0_pay2 k, k0_pay3 k] h1 x))
        (G2 (idxAt (s := S32x128) ![k0_pay4 k, k0_pay5 k] h2 x)) = _
    unfold Cert.TileVal.val
    refine congrArg₂ FloatOps.addf (congrArg G1 ?_) rfl
    funext a
    apply Fin.ext
    match a with
    | ⟨0, _⟩ =>
      show (k0_pay2 k x).toNat = Cert.LibStoreStep.flat (idxAt (s := S32x128) ![k0_pay4 k, k0_pay5 k] h3 x) / 64
      rw [hJ, Cert.KI.Pay.pay2_toNat]
    | ⟨1, _⟩ =>
      show (k0_pay3 k x).toNat = Cert.LibStoreStep.flat (idxAt (s := S32x128) ![k0_pay4 k, k0_pay5 k] h3 x) % 64
      rw [hJ, Cert.KI.Pay.pay3_toNat]

end Cert.KI.Step

end
-- ==== Proof.KI.Tile.lean ====
/-
  One vector subcore's task of the embedding kernel, run once at a symbolic grid point.

  The task copies its 64 words of the index list into tile memory, gathers the 64 rows of the widened table those
  words name (an indirect copy: the words are in range by the precondition), copies its 32 rows of the re-laid
  position table, then fills its 32 x 128 output block sixteen entries at a time — entry n of the block is gathered
  row n / 64 at column n % 64 plus the position block's entry n — and copies the block out to its rows of the
  result. Every copy is local and waited for before its destination or source is touched again, the two copies in
  flight together complete on different semaphores, and the indexed loads and the indexed store stay inside their
  scratches at every trip; so the task always runs to its end. What it leaves in its rows of the result is the
  embedding itself, `Cert.Spec.tileOut` of the list, the widened table and the re-laid position table: carried
  through the fill loop as "every entry below flat position 16 k already holds its final value".
-/
import proofs.«205826_g34540126994749_cont_8to1_b_743_19_alg».proof.Proof.KI.Setup
import proofs.«205826_g34540126994749_cont_8to1_b_743_19_alg».proof.Proof.KI.Pay
import proofs.«205826_g34540126994749_cont_8to1_b_743_19_alg».proof.Proof.TileVal
import proofs.«205826_g34540126994749_cont_8to1_b_743_19_alg».proof.Proof.KI.Moves
import proofs.«205826_g34540126994749_cont_8to1_b_743_19_alg».proof.Proof.KI.Step
import proofs.«205826_g34540126994749_cont_8to1_b_743_19_alg».proof.Proof.Spec
import Idealize.ShloMosaic.Lib.SparseCore.Launch
import Idealize.ShloMosaic.Lib.SparseCore.Ops
import Idealize.ShloMosaic.Lib.SparseCore.Stream
import Idealize.ShloMosaic.Lib.Pipeline.Kit
import Idealize.ShloMosaic.Lib.Tactic

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2048 EltTy.i32)
local notation "tW" => (Memref.whole Cert.KernelIdeal.main_v1_scv : Memref Cert.KernelIdeal.sig Kind.scVector Space.hbm Cert.KernelIdeal.S1000000x128 EltTy.f32)
local notation "pW" => (Memref.whole Cert.KernelIdeal.main_v2_scv : Memref Cert.KernelIdeal.sig Kind.scVector Space.hbm Cert.KernelIdeal.S1024x128 EltTy.f32)
local notation "oW" => (Memref.whole Cert.KernelIdeal.main_v3_scv : Memref Cert.KernelIdeal.sig Kind.scVector Space.hbm Cert.KernelIdeal.S1024x128 EltTy.f32)
local notation "s0" => (Memref.whole Cert.KernelIdeal.cc0_scratch0 : Memref Cert.KernelIdeal.sig Kind.scVector Space.vmem Cert.KernelIdeal.S64 EltTy.i32)
local notation "s1" => (Memref.whole Cert.KernelIdeal.cc0_scratch1 : Memref Cert.KernelIdeal.sig Kind.scVector Space.vmem Cert.KernelIdeal.S64x128 EltTy.f32)
local notation "s2" => (Memref.whole Cert.KernelIdeal.cc0_scratch2 : Memref Cert.KernelIdeal.sig Kind.scVector Space.vmem Cert.KernelIdeal.S32x128 EltTy.f32)
local notation "s3" => (Memref.whole Cert.KernelIdeal.cc0_scratch3 : Memref Cert.KernelIdeal.sig Kind.scVector Space.vmem Cert.KernelIdeal.S32x128 EltTy.f32)

variable [FloatOps F] [∀ e, Nonempty (Elt F e)]

section Tile

variable (d : Dev nD) (L : grid0.Coords)

/-! ## The subcore's own storage: four scratch buffers, four DMA semaphores -/

abbrev cell (d : Dev nD) (L : grid0.Coords) (sm : DmaSem sig) : GSem nD τ sig := (V d (cV L) (jV L), .dma sm)

omit [FloatOps F] in
theorem ownSems0_V :
    (ownSems0 (V d (cV L) (jV L)) : sProp 𝕄)
      = iprop(semVal (cell d L cc0_scratch4.sem) 0 ∗ semVal (cell d L cc0_scratch5.sem) 0 ∗ semVal (cell d L cc0_scoped0.sem) 0 ∗ semVal (cell d L cc0_scoped1.sem) 0
          ∗ bigSep (((((ownCells (V d (cV L) (jV L))).erase (cell d L cc0_scratch4.sem)).erase (cell d L cc0_scratch5.sem)).erase (cell d L cc0_scoped0.sem)).erase (cell d L cc0_scoped1.sem))
              fun g => semVal g 0) := by
  unfold SparseCore.Cfg.ownSems0
  rw [SparseCore.bigSep_erase' ((mem_ownCells (g := cell d L cc0_scratch4.sem)).mpr ⟨rfl, by
      show (SemLoc.dma cc0_scratch4.sem : SemLoc sig).isScoped .scVector = true; decide⟩),
    SparseCore.bigSep_erase' (Finset.mem_erase.mpr ⟨by simp [cell]; decide, (mem_ownCells (g := cell d L cc0_scratch5.sem)).mpr ⟨rfl, by
      show (SemLoc.dma cc0_scratch5.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped0.sem)).mpr ⟨rfl, by show (SemLoc.dma cc0_scoped0.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d L cc0_scoped1.sem)).mpr ⟨rfl, by show (SemLoc.dma cc0_scoped1.sem : SemLoc sig).isScoped .scVector = true; decide⟩⟩⟩⟩)]

abbrev pr (L : grid0.Coords) : Proc τ := Proc.scVector (cV L) (jV L)

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (pr L)).erase ((pr L).devRef cc0_scratch0)).erase
              ((pr L).devRef cc0_scratch1)).erase ((pr L).devRef cc0_scratch2)).erase ((pr L).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := pr L) (b := (pr L).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := pr L) (b := (pr L).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := pr L) (b := (pr L).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := pr L) (b := (pr L).devRef cc0_scratch3) rfl⟩⟩⟩)]

omit [FloatOps F] in
theorem pts_s0 (f : Buf (Elt F) ((V d (cV L) (jV L)).loc cc0_scratch0)) :
    ((s0).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2).view.loc (V d (cV L) (jV L)) ↦{fullShare} f : sProp 𝕄) = (V d (cV L) (jV L)).loc cc0_scratch2 ↦{fullShare} f := rfl
omit [FloatOps F] in
theorem pts_s3 (f : Buf (Elt F) ((V d (cV L) (jV L)).loc cc0_scratch3)) :
    ((s3).view.loc (V d (cV L) (jV L)) ↦{fullShare} f : sProp 𝕄) = (V d (cV L) (jV L)).loc cc0_scratch3 ↦{fullShare} f := rfl

/-! ## The fill loop's invariant

Before trip `k` the two read-only scratches hold the gathered table rows and the position block (as pure facts beside
them), and every entry of the output scratch at a flat position below 16 k already holds its final value. -/

def inv (X : Buf (Elt F) (xLoc d)) (V1 : Buf (Elt F) (tLoc d)) (V2 : Buf (Elt F) (pLoc d)) (k : Nat) (_ : PUnit) : sProp 𝕄 :=
  iprop(∃ G1, ∃ G2, ((s1).view.loc (V d (cV L) (jV L)) ↦{fullShare} G1) ∗ ((s2).view.loc (V d (cV L) (jV L)) ↦{fullShare} G2)
    ∗ ⌜Moves.IsRows d L X V1 G1 ∧ Moves.IsPos d L V2 G2⌝
    ∗ ∃ g, ((s3).view.loc (V d (cV L) (jV L)) ↦{fullShare} g) ∗ ⌜∀ j, Cert.LibStoreStep.flat j < 16 * k → g j = Cert.TileVal.val G1 G2 j⌝)

/-- The task on vector subcore `(L 0, L 1)`: from its words of the list, a read share of the widened table, its rows of
    the position table and of the result, to the same with the result's rows at the embedding (`Cert.Spec.tileOut`). -/
theorem tile_body (hF : (K (F := F)).Facts) (q : PosShare TreeShare) (X : Buf (Elt F) (xLoc d)) (V1 : Buf (Elt F) (tLoc d)) (V2 : Buf (Elt F) (pLoc d))
    (fo : Buf (Elt F) (oLoc d)) (hX : ∀ j, (X j).toNat < 1000000)
    (O : CellTallies nD τ sig (HIx 1)) (W : Waits sig (HIx 1)) (hO : ∀ g, O g none = 0) :
    (iprop(levAts (K (F := F)).L (K (F := F)).lev ∗ emp
        ∗ (((xSl L).view.loc (V d (cV L) (jV L)) ↦[(xSl L).view.set]{fullShare} X)
          ∗ ((tW).view.loc (V d (cV L) (jV L)) ↦{q} V1)
          ∗ ((pSl L).view.loc (V d (cV L) (jV L)) ↦[(pSl L).view.set]{fullShare} V2)
          ∗ ((oSl L).view.loc (V d (cV L) (jV L)) ↦[(oSl L).view.set]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_emb L xW (Memref.isWhole_whole _) tW (Memref.isWhole_whole _) pW (Memref.isWhole_whole _) oW (Memref.isWhole_whole _)
            s0 (Memref.isWhole_whole _) s1 (Memref.isWhole_whole _) s2 (Memref.isWhole_whole _) s3 (Memref.isWhole_whole _)
            cc0_scratch4 cc0_scratch5 cc0_scoped0 cc0_scoped1)
          fun _ => iprop((((xSl L).view.loc (V d (cV L) (jV L)) ↦[(xSl L).view.set]{fullShare} X)
              ∗ ((tW).view.loc (V d (cV L) (jV L)) ↦{q} V1)
              ∗ ((pSl L).view.loc (V d (cV L) (jV L)) ↦[(pSl L).view.set]{fullShare} V2)
              ∗ ((oSl L).view.loc (V d (cV L) (jV L)) ↦[(oSl L).view.set]{fullShare} Cert.Spec.tileOut X V1 V2))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_emb_eq_skeleton]; unfold cc0_emb_skel
  rw [(K (F := F)).scopedBufs_V hF d (cV L) (jV L), SparseCore.Cfg.scopedSems0_V (Val := Elt F) d (cV L) (jV L), ownSems0_V, ownBufs_V]
  iintro ⟨#Hlv, -, ⟨Hx, Ht, Hp, Ho⟩, ⟨⟨%f0, H0⟩, ⟨%f1, H1⟩, ⟨%f2, H2⟩, ⟨%f3, H3⟩, Hbufs⟩, ⟨Hs4, Hs5, Hs6, Hs7, Hsems⟩, HO⟩
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave Hmw := ((K (F := F)).mayWaits_none (thr := V d (cV L) (jV L)) hO) $$ Hlv
  have hin := Moves.idx_inb d L X hX
  sl_exec
  sl_for (inv (F := F) d L X V1 V2) $$ [H1 H2 H3]
  case region =>
    intro k _
    unfold inv
    iintro ⟨%G1, %G2, H1, H2, %hG, %g, H3, %hg⟩
    have c1 := Pay.chk1_all k
    have c2 := Pay.chk2_all k
    sl_exec
    rw [SparseCore.vectorLoadIdx_bind (c := V d (cV L) (jV L))]
    sl_exec
    rw [SparseCore.vectorLoadIdx_bind (c := V d (cV L) (jV L))]
    sl_exec
    rw [SparseCore.vectorStoreIdx_bind (c := V d (cV L) (jV L))]
    sl_exec
    sl_step
    iexists G1, G2
    isplitl [H1]; · iexact H1
    isplitl [H2]; · iexact H2
    isplitr; · ipureintro; exact hG
    iexists _
    isplitl [H3]; · iexact H3
    ipureintro; exact Step.step_run G1 G2 g k _ _ _ hg
  · unfold inv
    iexists _, _
    isplitl [H1]; · iexact H1
    isplitl [H2]; · iexact H2
    isplitr; · ipureintro; exact ⟨Moves.rows_isRows d L X V1 f0 _ hX _ _, Moves.pos_isPos d L V2 f2⟩
    iexists _
    isplitl [H3]; · iexact H3
    ipureintro; intro j hj; omega
  iintro %_ HI
  unfold inv
  icases HI with ⟨%G1, %G2, H1, H2, %hG, %g, H3, %hg⟩
  have hall : ∀ j, g j = Cert.TileVal.val G1 G2 j := fun j => hg j (by
    have h256 : Scf.trips k0_t1_loop.lb k0_t1_loop.ub k0_t1_loop.st = 256 := Pay.trips_eq
    have := Cert.TileVal.flat_lt j
    omega)
  sl_exec
  sl_step
  isplitl [Hx Ht Hp Ho]
  · isplitl [Hx]; · iexact Hx
    isplitl [Ht]; · iexact Ht
    isplitl [Hp]; · iexact Hp
    iapply (Entails.of_eq (pointsTo_congr (Moves.out_eq d L X V1 V2 fo G1 G2 g hG.1 hG.2 hall)))
    iexact Ho
  isplitl [H0 H1 H2 H3 Hbufs]
  · isplitl [H0]; · iexists _; iapply (Entails.of_eq (pts_s0 (F := F) d L _)); iexact H0
    isplitl [H1]; · iexists _; iapply (Entails.of_eq (pts_s1 (F := F) d L _)); iexact H1
    isplitl [H2]; · iexists _; iapply (Entails.of_eq (pts_s2 (F := F) d L _)); iexact H2
    isplitl [H3]; · iexists _; iapply (Entails.of_eq (pts_s3 (F := F) d L _)); iexact H3
    iexact Hbufs
  isplitl [Hs4 Hs5 Hs6 Hs7 Hsems]
  · isplitl [Hs4]; · iexact Hs4
    isplitl [Hs5]; · iexact Hs5
    isplitl [Hs6]; · iexact Hs6
    isplitl [Hs7]; · iexact Hs7
    iexact Hsems
  iexists (insert (SemLoc.dma cc0_scoped1.sem, (default : HIx 1)) (insert (SemLoc.dma cc0_scratch5.sem, (default : HIx 1))
    (insert (SemLoc.dma cc0_scratch4.sem, (default : HIx 1)) (insert (SemLoc.dma cc0_scoped0.sem, (default : HIx 1)) W))))
  isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iexact HO

end Tile

end Cert.KI

end
-- ==== Proof.KI.Pieces.lean ====
import proofs.«205826_g34540126994749_cont_8to1_b_743_19_alg».proof.Proof.KI.Setup
import Idealize.ShloMosaic.Lib.Transfers

/-!
  How the call's operands split among the 32 workers.

  The index list (2048 words) is cut along its one axis into 32 parts of 64 words; the re-laid position table and the
  result (1024 x 128 each) are cut along their rows into 32 parts of 32 rows.  Worker w owns part w of each: the
  rectangle the kernel slices at offset 64 w (respectively at row 32 w) is that part.  The parts are pairwise
  disjoint and cover the array, so holding an array outright is holding its 32 parts.  The widened table is read by
  every worker: holding it outright is holding 32 read tokens and the remaining share.  The 32 workers are two
  SparseCores of 16 subcores, worker 2 i + c being subcore i of SparseCore c: a product over the 32 workers is the
  product over SparseCore 0's subcores times the product over SparseCore 1's.
-/

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The parts -/

theorem xdiv : 32 ∣ S2048.size 0 := ⟨64, rfl⟩
theorem pdiv : 32 ∣ S1024x128.size 0 := ⟨32, rfl⟩

/-- Part w of the list: words [64 w, 64 w + 64).  Part w of a 1024 x 128 array: rows [32 w, 32 w + 32). -/
abbrev xPart (w : Fin 32) : Rect S2048 := Rect.part (s := S2048) (a₀ := 0) xdiv w
abbrev pPart (w : Fin 32) : Rect S1024x128 := Rect.part (s := S1024x128) (a₀ := 0) pdiv w

/-- The elements of part w, as a set of indices of the array. -/
abbrev xSet (w : Fin 32) : Finset S2048.Idx :=
  ((Memref.whole main_arg0_scv : Memref sig .scVector .hbm S2048 .i32).view.slice (xPart w)).set
abbrev pSet (w : Fin 32) : Finset S1024x128.Idx :=
  ((Memref.whole main_v2_scv : Memref sig .scVector .hbm S1024x128 .f32).view.slice (pPart w)).set

/-- The worker of a grid point. -/
abbrev wOf (L : grid0.Coords) : Fin 32 := ⟨widN L, widN_lt L⟩

/-- The rectangle the kernel slices out of the list at a grid point is the worker's part. -/
theorem xRect_eq (L : grid0.Coords) :
    Rect.unit (s := S2048) (k0_off1 L) S64.size (k0_off1_inb L) = xPart (wOf L) := by
  unfold xPart Rect.part Rect.block
  congr 1 <;> funext a
  · rw [off1_eq]
    match a with
    | 0 => simp [Shape.partIx, Shape.partSize]; omega
  · match a with
    | 0 => simp [Shape.partSize]

/-- The rectangle the kernel slices out of a 1024 x 128 array at a grid point is the worker's part. -/
theorem pRect_eq (L : grid0.Coords) :
    Rect.unit (s := S1024x128) (k0_off2 L) S32x128.size (k0_off2_inb L) = pPart (wOf L) := by
  unfold pPart Rect.part Rect.block
  congr 1 <;> funext a
  · rw [off2_eq]
    match a with
    | 0 => simp [Shape.partIx, Shape.partSize]; omega
    | 1 => simp [Shape.partIx, Shape.partSize]
  · match a with
    | 0 => simp [Shape.partSize]
    | 1 => simp [Shape.partSize]

theorem set_xSl (L : grid0.Coords) : (xSl L).view.set = xSet (wOf L) := by
  show ((Memref.whole main_arg0_scv : Memref sig .scVector .hbm S2048 .i32).view.slice
      (Rect.unit (s := S2048) (k0_off1 L) S64.size (k0_off1_inb L))).set
    = ((Memref.whole main_arg0_scv : Memref sig .scVector .hbm S2048 .i32).view.slice (xPart (wOf L))).set
  exact xRect_eq L ▸ rfl

theorem set_pSl (L : grid0.Coords) : (pSl L).view.set = pSet (wOf L) := by
  show ((Memref.whole main_v2_scv : Memref sig .scVector .hbm S1024x128 .f32).view.slice
      (Rect.unit (s := S1024x128) (k0_off2 L) S32x128.size (k0_off2_inb L))).set
    = ((Memref.whole main_v2_scv : Memref sig .scVector .hbm S1024x128 .f32).view.slice (pPart (wOf L))).set
  exact pRect_eq L ▸ rfl

theorem set_oSl (L : grid0.Coords) : (oSl L).view.set = pSet (wOf L) := by
  show ((Memref.whole main_v3_scv : Memref sig .scVector .hbm S1024x128 .f32).view.slice
      (Rect.unit (s := S1024x128) (k0_off2 L) S32x128.size (k0_off2_inb L))).set
    = ((Memref.whole main_v2_scv : Memref sig .scVector .hbm S1024x128 .f32).view.slice (pPart (wOf L))).set
  exact pRect_eq L ▸ rfl

/-! ## The parts are disjoint and cover -/

theorem xSet_eq (w : Fin 32) : xSet w = (xPart w).set := by
  show ((View.whole (main_arg0_scv : Ref sig .scVector)).slice (xPart w)).set = _
  rw [View.set_slice]; exact Finset.map_refl
theorem pSet_eq (w : Fin 32) : pSet w = (pPart w).set := by
  show ((View.whole (main_v2_scv : Ref sig .scVector)).slice (pPart w)).set = _
  rw [View.set_slice]; exact Finset.map_refl

theorem xSets_disjoint : ∀ i ∈ (Finset.univ : Finset (Fin 32)), ∀ j ∈ (Finset.univ : Finset (Fin 32)), i ≠ j →
    Disjoint (xSet i) (xSet j) :=
  fun i _ j _ h => by rw [xSet_eq, xSet_eq]; exact Rect.part_disjoint xdiv h
theorem pSets_disjoint : ∀ i ∈ (Finset.univ : Finset (Fin 32)), ∀ j ∈ (Finset.univ : Finset (Fin 32)), i ≠ j →
    Disjoint (pSet i) (pSet j) :=
  fun i _ j _ h => by rw [pSet_eq, pSet_eq]; exact Rect.part_disjoint pdiv h

theorem xSets_cover : (Finset.univ : Finset (Fin 32)).biUnion xSet = Finset.univ :=
  (Finset.biUnion_congr rfl fun i _ => xSet_eq i).trans (Rect.biUnion_part xdiv)
theorem pSets_cover : (Finset.univ : Finset (Fin 32)).biUnion pSet = Finset.univ :=
  (Finset.biUnion_congr rfl fun i _ => pSet_eq i).trans (Rect.biUnion_part pdiv)

/-! ## An array held outright is its 32 parts -/

theorem xPts_pieces (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet xSets_disjoint, xSets_cover]; try rfl
theorem pPts_pieces (d : Dev nD) (f : Buf (Elt F) (pLoc d)) :
    (pLoc d ↦{fullShare} f : sProp 𝕄) = bigSep Finset.univ fun w : Fin 32 => pLoc d ↦[pSet w]{fullShare} f := by
  rw [← pointsTo_biUnion Finset.univ (ℓ := pLoc d) pSet pSets_disjoint, pSets_cover]; try rfl
theorem oPts_pieces (d : Dev nD) (f : Buf (Elt F) (oLoc d)) :
    (oLoc d ↦{fullShare} f : sProp 𝕄) = bigSep Finset.univ fun w : Fin 32 => oLoc d ↦[pSet w]{fullShare} f := by
  rw [← pointsTo_biUnion Finset.univ (ℓ := oLoc d) pSet pSets_disjoint, pSets_cover]; try rfl

/-! ## The table every worker reads: 32 read tokens and the rest -/

theorem tPts_toks (d : Dev nD) (f : Buf (Elt F) (tLoc d)) :
    (tLoc d ↦{fullShare} f : sProp 𝕄) ⊣⊢
      iprop((tLoc d ↦{Transfers.shareDrop fullShare 32} f) ∗
        bigSep Finset.univ fun w : Fin 32 => tLoc d ↦{Transfers.shareTok fullShare 32 w} f) :=
  Transfers.pointsTo_toks fullShare 32

/-! ## The 32 workers as two SparseCores of 16 subcores -/

/-- Subcore i of SparseCore c is worker 2 i + c. -/
def wid (c : Fin 2) (i : Fin 16) : Fin 32 := ⟨2 * i.val + c.val, by have := c.isLt; have := i.isLt; omega⟩

/-- The workers, listed SparseCore by SparseCore. -/
def widEquiv : Fin 16 ⊕ Fin 16 ≃ Fin 32 where
  toFun := fun
    | .inl i => wid 0 i
    | .inr i => wid 1 i
  invFun w :=
    if w.val % 2 = 0 then .inl ⟨w.val / 2, by have := w.isLt; omega⟩ else .inr ⟨w.val / 2, by have := w.isLt; omega⟩
  left_inv := fun
    | .inl i => by
      have h : (wid 0 i).val = 2 * i.val := by show 2 * i.val + 0 = _; omega
      have h2 : (wid 0 i).val % 2 = 0 := by omega
      simp only [h2, ↓reduceIte]
      exact congrArg Sum.inl (Fin.ext (by show (wid 0 i).val / 2 = i.val; omega))
    | .inr i => by
      have h : (wid 1 i).val = 2 * i.val + 1 := rfl
      have h2 : ¬ (wid 1 i).val % 2 = 0 := by omega
      simp only [h2, ↓reduceIte]
      exact congrArg Sum.inr (Fin.ext (by show (wid 1 i).val / 2 = i.val; omega))
  right_inv := fun w => by
    by_cases h2 : w.val % 2 = 0
    · simp only [h2, ↓reduceIte]
      exact Fin.ext (by show 2 * (w.val / 2) + 0 = w.val; omega)
    · simp only [h2, ↓reduceIte]
      exact Fin.ext (by show 2 * (w.val / 2) + 1 = w.val; omega)

theorem split32 (R : Fin 32 → sProp 𝕄) :
    bigSep Finset.univ R
      = iprop((bigSep Finset.univ fun i : Fin 16 => R (wid 0 i)) ∗ (bigSep Finset.univ fun i : Fin 16 => R (wid 1 i))) := by
  rw [bigSep_univ_equiv widEquiv R, bigSep_univ_sum]
  rfl

end Cert.KI

end
-- ==== Proof.KI.Deal.lean ====
import proofs.«205826_g34540126994749_cont_8to1_b_743_19_alg».proof.Proof.KI.Pieces

/-!
  Dealing the call's arrays to the 32 workers, and gathering them back.

  Worker w holds its 64 words of the index list, a read token of the widened table, and its 32 rows of the re-laid
  position table and of the result.  Holding the four arrays outright is holding the table's remaining share and the 32
  workers' holdings, listed SparseCore by SparseCore (worker 2 i + c is subcore i of SparseCore c); and conversely.  A
  worker's holding is the same thing named through the pieces the kernel slices for it.
-/

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- What worker `w` holds: its words of the list, a read token of the table, its rows of the position table and of
    the result. -/
abbrev goRes (d : Dev nD) (X : Buf (Elt F) (xLoc d)) (V1 : Buf (Elt F) (tLoc d)) (V2 : Buf (Elt F) (pLoc d))
    (fo : Buf (Elt F) (oLoc d)) (w : Fin 32) : sProp 𝕄 :=
  iprop((xLoc d ↦[xSet w]{fullShare} X) ∗ (tLoc d ↦{Transfers.shareTok fullShare 32 w} V1)
    ∗ (pLoc d ↦[pSet w]{fullShare} V2) ∗ (oLoc d ↦[pSet w]{fullShare} fo))

/-- The 32 workers' holdings together: the list, the position table and the result outright, and the table's 32 read
    tokens. -/
theorem goRes_all (d : Dev nD) (X : Buf (Elt F) (xLoc d)) (V1 : Buf (Elt F) (tLoc d)) (V2 : Buf (Elt F) (pLoc d))
    (fo : Buf (Elt F) (oLoc d)) :
    (bigSep Finset.univ fun w : Fin 32 => goRes d X V1 V2 fo w : sProp 𝕄)
      = iprop((xLoc d ↦{fullShare} X)
          ∗ (bigSep Finset.univ fun w : Fin 32 => tLoc d ↦{Transfers.shareTok fullShare 32 w} V1)
          ∗ (pLoc d ↦{fullShare} V2) ∗ (oLoc d ↦{fullShare} fo)) := by
  rw [xPts_pieces, pPts_pieces, oPts_pieces]
  show (bigSep Finset.univ fun w : Fin 32 =>
      iprop((xLoc d ↦[xSet w]{fullShare} X) ∗ (tLoc d ↦{Transfers.shareTok fullShare 32 w} V1)
        ∗ (pLoc d ↦[pSet w]{fullShare} V2) ∗ (oLoc d ↦[pSet w]{fullShare} fo)) : sProp 𝕄) = _
  rw [bigSep_sep', bigSep_sep', bigSep_sep']

/-- The four arrays held outright are the table's remaining share and every worker's holding. -/
theorem deal_out (d : Dev nD) (X : Buf (Elt F) (xLoc d)) (V1 : Buf (Elt F) (tLoc d)) (V2 : Buf (Elt F) (pLoc d))
    (fo : Buf (Elt F) (oLoc d)) :
    (iprop((xLoc d ↦{fullShare} X) ∗ (tLoc d ↦{fullShare} V1) ∗ (pLoc d ↦{fullShare} V2) ∗ (oLoc d ↦{fullShare} fo)) : sProp 𝕄)
      ⊢ iprop((tLoc d ↦{Transfers.shareDrop fullShare 32} V1)
          ∗ (bigSep Finset.univ fun i : Fin 16 => goRes d X V1 V2 fo (wid 0 i))
          ∗ (bigSep Finset.univ fun i : Fin 16 => goRes d X V1 V2 fo (wid 1 i))) := by
  rw [← split32 (fun w => goRes d X V1 V2 fo w), goRes_all]
  iintro ⟨Hx, Ht, Hp, Ho⟩
  ihave Ht' := (tPts_toks (F := F) d V1).1 $$ Ht
  icases Ht' with ⟨Hd, Htk⟩
  isplitl [Hd]; · iexact Hd
  isplitl [Hx]; · iexact Hx
  isplitl [Htk]; · iexact Htk
  isplitl [Hp]; · iexact Hp
  iexact Ho

/-- The table's remaining share and every worker's holding are the four arrays held outright. -/
theorem deal_in (d : Dev nD) (X : Buf (Elt F) (xLoc d)) (V1 : Buf (Elt F) (tLoc d)) (V2 : Buf (Elt F) (pLoc d))
    (fo : Buf (Elt F) (oLoc d)) :
    (iprop((tLoc d ↦{Transfers.shareDrop fullShare 32} V1)
          ∗ (bigSep Finset.univ fun i : Fin 16 => goRes d X V1 V2 fo (wid 0 i))
          ∗ (bigSep Finset.univ fun i : Fin 16 => goRes d X V1 V2 fo (wid 1 i))) : sProp 𝕄)
      ⊢ iprop((xLoc d ↦{fullShare} X) ∗ (tLoc d ↦{fullShare} V1) ∗ (pLoc d ↦{fullShare} V2) ∗ (oLoc d ↦{fullShare} fo)) := by
  rw [← split32 (fun w => goRes d X V1 V2 fo w), goRes_all]
  iintro ⟨Hd, Hx, Htk, Hp, Ho⟩
  isplitl [Hx]; · iexact Hx
  isplitl [Hd Htk]
  · iapply (tPts_toks (F := F) d V1).2
    isplitl [Hd]; · iexact Hd
    iexact Htk
  isplitl [Hp]; · iexact Hp
  iexact Ho

/-- A worker's holding, named through the pieces the kernel slices for its grid point. -/
theorem goRes_slices (d : Dev nD) (X : Buf (Elt F) (xLoc d)) (V1 : Buf (Elt F) (tLoc d)) (V2 : Buf (Elt F) (pLoc d))
    (fo : Buf (Elt F) (oLoc d)) (L : grid0.Coords) :
    goRes d X V1 V2 fo (wOf L)
      = (iprop(((xSl L).view.loc (V d (cV L) (jV L)) ↦[(xSl L).view.set]{fullShare} X)
          ∗ ((Memref.whole main_v1_scv : Memref sig .scVector .hbm S1000000x128 .f32).view.loc (V d (cV L) (jV L))
              ↦{Transfers.shareTok fullShare 32 (wOf L)} V1)
          ∗ ((pSl L).view.loc (V d (cV L) (jV L)) ↦[(pSl L).view.set]{fullShare} V2)
          ∗ ((oSl L).view.loc (V d (cV L) (jV L)) ↦[(oSl L).view.set]{fullShare} fo)) : sProp 𝕄) := by
  rw [set_xSl, set_pSl, set_oSl]

end Cert.KI

end
-- ==== Proof.KI.Host.lean ====
import proofs.«205826_g34540126994749_cont_8to1_b_743_19_alg».proof.Proof.KI.Setup
import Idealize.ShloMosaic.Lib.StableHlo.Run

/-!
  The host side of the program: what runs on the TensorCore before and after the SparseCore call.

  Before the call, four operations: a zero constant, its broadcast to a 1 000 000 x 64 array, that array laid to the
  right of the word table (the widened table), and the position table re-laid as 1024 x 128.  After the call, one:
  the 1024 x 128 result re-laid as 2048 x 64.  The program is those four, the call, that one.  The nine arrays involved
  are all of the TensorCore's arrays; each operation touches only them and allocates nothing.  What the operations
  leave in each array is read off their functions: the widened table and the re-laid position table are written, the
  three arguments and the two result arrays are untouched by the first four, and the last writes only the final array.
-/

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type} [FloatOps F]

local notation "𝕄" => MT nD τ sig (HIx 1) (Elt F) ℕ UU ℕ

/-! ## The arrays and the operations -/

abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev r3 : DevRef τ sig := Proc.devRef .tc (main_cst : Ref sig .tc)
abbrev r4 : DevRef τ sig := Proc.devRef .tc (main_v0 : Ref sig .tc)
abbrev r5 : DevRef τ sig := Proc.devRef .tc (main_v1 : Ref sig .tc)
abbrev r6 : DevRef τ sig := Proc.devRef .tc (main_v2 : Ref sig .tc)
abbrev r7 : DevRef τ sig := Proc.devRef .tc (main_v3 : Ref sig .tc)
abbrev r8 : DevRef τ sig := Proc.devRef .tc (main_v4 : Ref sig .tc)

/-- The TensorCore's arrays, all unscoped. -/
abbrev S9 : Finset (DevRef τ sig) := {r0, r1, r2, r3, r4, r5, r6, r7, r8}

/-- The zero constant. -/
abbrev opCst : HloOp τ sig (Elt F) := StableHlo.nullary main_cst (constant S_ .f32 0x00000000#32)
/-- Its broadcast to 1 000 000 x 64. -/
abbrev opBc : HloOp τ sig (Elt F) :=
  StableHlo.unary main_cst main_v0 (broadcastInDim S1000000x64 ![] bcast_S_S1000000x64 : (⟨S_, .f32⟩ : BufTy).Contents (Elt F) → (⟨S1000000x64, .f32⟩ : BufTy).Contents (Elt F))
/-- The word table with that array to its right. -/
abbrev opCat : HloOp τ sig (Elt F) :=
  StableHlo.binary main_arg1 main_v0 main_v1 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F))
/-- The position table re-laid as 1024 x 128. -/
abbrev opRs : HloOp τ sig (Elt F) := StableHlo.reshape main_arg2 main_v2 rfl shapeCasts_S2048x64_S1024x128
/-- The result re-laid as 2048 x 64. -/
abbrev opRs2 : HloOp τ sig (Elt F) := StableHlo.reshape main_v3 main_v4 rfl shapeCasts_S1024x128_S2048x64

/-- The operations before the call. -/
abbrev pre : List (HloOp τ sig (Elt F)) := [opCst, opBc, opCat, opRs]

/-- The program: the four operations, the call, the last operation. -/
theorem main_eq (d : Dev nD) :
    main (F := F) d = (seq pre >>= fun _ => (K (F := F)).run d 0 >>= fun _ => seq [opRs2]) := by
  simp only [main, seq, bind_assoc, pure_bind]

/-! ## Every operation stays inside the nine arrays and allocates nothing -/

theorem pre_sub : ∀ op ∈ (pre : List (HloOp τ sig (Elt F))), op.bufs ⊆ S9 := by
  intro op hop
  simp only [List.mem_cons, List.not_mem_nil, or_false] at hop
  rcases hop with rfl | rfl | rfl | rfl
  · rw [StableHlo.nullary_bufs]; decide
  · rw [StableHlo.unary_bufs]; decide
  · rw [StableHlo.binary_bufs]; decide
  · rw [StableHlo.reshape_bufs]; decide

theorem pre_fresh : ∀ op ∈ (pre : List (HloOp τ sig (Elt F))), op.fresh = ∅ := by
  intro op hop
  simp only [List.mem_cons, List.not_mem_nil, or_false] at hop
  rcases hop with rfl | rfl | rfl | rfl <;> rfl

theorem post_sub : ∀ op ∈ ([opRs2] : List (HloOp τ sig (Elt F))), op.bufs ⊆ S9 := by
  intro op hop
  simp only [List.mem_cons, List.not_mem_nil, or_false] at hop
  subst hop
  rw [StableHlo.reshape_bufs]; decide

theorem post_fresh : ∀ op ∈ ([opRs2] : List (HloOp τ sig (Elt F))), op.fresh = ∅ := by
  intro op hop
  simp only [List.mem_cons, List.not_mem_nil, or_false] at hop
  subst hop
  rfl

/-! ## The nine arrays held, one by one -/

omit [FloatOps F] in
theorem held_S9 (d : Dev nD) (W : Valuation τ sig (Elt F)) :
    (held (SparseCore.T d) S9 W : sProp 𝕄)
      = iprop(((SparseCore.T d).loc main_arg0 ↦{fullShare} W r0) ∗ ((SparseCore.T d).loc main_arg1 ↦{fullShare} W r1)
          ∗ ((SparseCore.T d).loc main_arg2 ↦{fullShare} W r2) ∗ ((SparseCore.T d).loc main_cst ↦{fullShare} W r3)
          ∗ ((SparseCore.T d).loc main_v0 ↦{fullShare} W r4) ∗ ((SparseCore.T d).loc main_v1 ↦{fullShare} W r5)
          ∗ ((SparseCore.T d).loc main_v2 ↦{fullShare} W r6) ∗ ((SparseCore.T d).loc main_v3 ↦{fullShare} W r7)
          ∗ (SparseCore.T d).loc main_v4 ↦{fullShare} W r8) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_cst ↦{fullShare} W main_cst)
          ∗ ((SparseCore.T d).loc main_v0 ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ (SparseCore.T d).loc main_v4 ↦{fullShare} W main_v4) := by
  unfold unscopedBufs
  rw [show (Finset.univ.filter fun b : Ref sig .tc => ¬ b.isScoped)
      = {main_arg0, main_arg1, main_arg2, main_cst, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The launch's unscoped arrays are the nine, at the launch memory. -/
theorem unscoped_held (m : (ℓ : Loc nD τ sig) → Buf (Elt F) ℓ) (d : Dev nD) :
    (unscopedBufs d (fun b => m ((SparseCore.T d).loc b)) : sProp 𝕄) = held (SparseCore.T d) S9 (fun b => m (d, b)) := by
  rw [unscopedBufs_eq, held_S9]

/-! ## What the operations leave in each array -/

section Values
variable (V : Valuation τ sig (Elt F))

theorem pre_keep0 : after pre V r0 = V r0 := by
  show after [opCst, opBc, opCat, opRs] V _ = _; after_results
theorem pre_keep1 : after pre V r1 = V r1 := by
  show after [opCst, opBc, opCat, opRs] V _ = _; after_results
theorem pre_keep2 : after pre V r2 = V r2 := by
  show after [opCst, opBc, opCat, opRs] V _ = _; after_results
theorem pre_keep7 : after pre V r7 = V r7 := by
  show after [opCst, opBc, opCat, opRs] V _ = _; after_results
theorem pre_keep8 : after pre V r8 = V r8 := by
  show after [opCst, opBc, opCat, opRs] V _ = _; after_results

/-- The widened table: the word table with the broadcast zero to its right. -/
theorem pre_v1 :
    after pre V r5
      = concatenate S1000000x128 1
          [⟨S1000000x64, V r1⟩, ⟨S1000000x64, (broadcastInDim S1000000x64 ![] bcast_S_S1000000x64 (constant (F := F) S_ .f32 0x00000000#32 : FVec F S_ .f32) : FVec F S1000000x64 .f32)⟩]
          concatenates_S1000000x64_S1000000x64_S1000000x128_d1 := by
  show after [opCst, opBc, opCat, opRs] V _ = _; after_results

/-- The re-laid position table. -/
theorem pre_v2 : after pre V r6 = shapeCast S1024x128 (V r2) shapeCasts_S2048x64_S1024x128 := by
  show after [opCst, opBc, opCat, opRs] V _ = _; after_results; rfl

/-- The final array: the call's result re-laid. -/
theorem post_v4 : after [opRs2] V r8 = shapeCast S2048x64 (V r7) shapeCasts_S1024x128_S2048x64 := by
  after_results; rfl

theorem post_keep0 : after [opRs2] V r0 = V r0 := by
  after_results
theorem post_keep1 : after [opRs2] V r1 = V r1 := by
  after_results
theorem post_keep2 : after [opRs2] V r2 = V r2 := by
  after_results

end Values

end Cert.KI

end
-- ==== Proof.KI.Fin.lean ====
import proofs.«205826_g34540126994749_cont_8to1_b_743_19_alg».proof.Proof.KI.Setup
import Idealize.ShloMosaic.Lib.SparseCore.Launch

/-!
  How the final memory reads the claim.

  When the program has run, device `d` owns its three input arrays — the index list, the word table and the position
  table — with the contents they were launched with, and the result array with contents `R d`.  Owning an array
  with given contents pins the physical memory's contents of that array, so the final memory holds `R d` in the
  result and the launch contents in the three inputs: the four equations of the claim, result first.
-/

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The index list, the word table, the position table and the result of the whole program, as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v4

/-- What device `d` owns at the end: its three inputs with their launch contents and the result with contents `R d`. -/
abbrev FIN (m : (ℓ : Loc nD τ sig) → Buf (Elt F) ℓ) (R : (d : Dev nD) → Buf (Elt F) (rLoc d)) (d : Dev nD) : sProp 𝕄 :=
  iprop((a0Loc d ↦{fullShare} m (a0Loc d)) ∗ (a1Loc d ↦{fullShare} m (a1Loc d)) ∗ (a2Loc d ↦{fullShare} m (a2Loc d)) ∗
    (rLoc d ↦{fullShare} R d))

/-- The final memory of device `d`: the result holds `R d`, the three inputs their launch contents. -/
def fq (m : (ℓ : Loc nD τ sig) → Buf (Elt F) ℓ) (R : (d : Dev nD) → Buf (Elt F) (rLoc d)) (d : Dev nD)
    (s' : Phys nD τ sig (Elt F)) : Prop :=
  s'.mem.mem (rLoc d) = R d ∧ s'.mem.mem (a0Loc d) = m (a0Loc d) ∧ s'.mem.mem (a1Loc d) = m (a1Loc d) ∧
    s'.mem.mem (a2Loc d) = m (a2Loc d)

/-- Owning the four arrays with those contents, under the state interpretation, pins the final memory. -/
theorem hfin (m : (ℓ : Loc nD τ sig) → Buf (Elt F) ℓ) (R : (d : Dev nD) → Buf (Elt F) (rLoc d)) (d : Dev nD)
    (s' : Phys nD τ sig (Elt F)) : iprop(FIN m R d ∗ SI s') ⊢ (⌜fq m R d s'⌝ : sProp 𝕄) := by
  iintro ⟨⟨H0, H1, H2, HR⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := R d)) $$ [HSI HR]
  · isplitl [HSI] <;> iassumption
  icases H with %hr
  ipureintro
  exact ⟨funext fun i => hr i (Finset.mem_univ i), funext fun i => h0 i (Finset.mem_univ i),
    funext fun i => h1 i (Finset.mem_univ i), funext fun i => h2 i (Finset.mem_univ i)⟩

/-- The claim's four equations on every device: result, index list, word table, position table. -/
def QC (m : (ℓ : Loc nD τ sig) → Buf (Elt F) ℓ) (R : (d : Dev nD) → Buf (Elt F) (rLoc d)) :
    PUnit × MemSt nD τ sig (Elt F) → Prop :=
  fun r => ∀ c : Dev nD, r.2.mem (rLoc c) = R c ∧ r.2.mem (a0Loc c) = m (a0Loc c) ∧ r.2.mem (a1Loc c) = m (a1Loc c) ∧
    r.2.mem (a2Loc c) = m (a2Loc c)

/-- The per-device facts about the final memory are the claim's equations. -/
theorem hQ (m : (ℓ : Loc nD τ sig) → Buf (Elt F) ℓ) (R : (d : Dev nD) → Buf (Elt F) (rLoc d)) :
    ∀ s' : Phys nD τ sig (Elt F), (∀ d, fq m R d s') → QC m R (⟨⟩, s'.mem) := fun _ h => h

/-- A subcore's closing obligation, weakened: a wait it still owes may also be one on the call's own round. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.KI

end
-- ==== Proof.KI.Launch.lean ====
/-
  The embedding kernel's program run whole: every weakly fair execution of the device's threads — the TensorCore's
  @main, the two SparseCores' sequencers and their thirty-two vector subcores — terminates, nothing faulting, with
  the three arguments unchanged and the result buffer at a named term of them.

  @main widens the word table to 128 columns (zeros appended) and re-lays the position table as 1024 x 128, hands
  the call the index list, those two arrays and the result array, and re-lays what comes back as 2048 x 64. The call
  deals each of the 32 workers its 64 words of the list, a read token of the widened table, its 32 rows of the
  position table and its 32 rows of the result, and takes the same back with the result's rows at the embedding;
  since every worker's rows are rows of ONE whole-array function, the pieces join to the array at that function.
  No thread signals another beyond the launch's own handshakes: the kernel's ghost state is the handshakes' rounds
  beside the transfers' counters.
-/
import proofs.«205826_g34540126994749_cont_8to1_b_743_19_alg».proof.Proof.KI.Tile
import proofs.«205826_g34540126994749_cont_8to1_b_743_19_alg».proof.Proof.KI.Deal
import proofs.«205826_g34540126994749_cont_8to1_b_743_19_alg».proof.Proof.KI.Host
import proofs.«205826_g34540126994749_cont_8to1_b_743_19_alg».proof.Proof.KI.Fin
import Idealize.ShloMosaic.Lib.StableHlo.Run

noncomputable section

namespace Cert.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after wp_seq)

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S2048 EltTy.i32)
local notation "tW" => (Memref.whole Cert.KernelIdeal.main_v1_scv : Memref Cert.KernelIdeal.sig Kind.scVector Space.hbm Cert.KernelIdeal.S1000000x128 EltTy.f32)
local notation "pW" => (Memref.whole Cert.KernelIdeal.main_v2_scv : Memref Cert.KernelIdeal.sig Kind.scVector Space.hbm Cert.KernelIdeal.S1024x128 EltTy.f32)
local notation "oW" => (Memref.whole Cert.KernelIdeal.main_v3_scv : Memref Cert.KernelIdeal.sig Kind.scVector Space.hbm Cert.KernelIdeal.S1024x128 EltTy.f32)
local notation "s0" => (Memref.whole Cert.KernelIdeal.cc0_scratch0 : Memref Cert.KernelIdeal.sig Kind.scVector Space.vmem Cert.KernelIdeal.S64 EltTy.i32)
local notation "s1" => (Memref.whole Cert.KernelIdeal.cc0_scratch1 : Memref Cert.KernelIdeal.sig Kind.scVector Space.vmem Cert.KernelIdeal.S64x128 EltTy.f32)
local notation "s2" => (Memref.whole Cert.KernelIdeal.cc0_scratch2 : Memref Cert.KernelIdeal.sig Kind.scVector Space.vmem Cert.KernelIdeal.S32x128 EltTy.f32)
local notation "s3" => (Memref.whole Cert.KernelIdeal.cc0_scratch3 : Memref Cert.KernelIdeal.sig Kind.scVector Space.vmem Cert.KernelIdeal.S32x128 EltTy.f32)

variable (m : (ℓ : Loc nD τ sig) → Buf (Elt F) ℓ) (ρ : Dev nD → PrngReg)

variable [FloatOps F] [∀ e, Nonempty (Elt F e)]

/-! ## What @main's buffers hold along the run -/

/-- The launch memory as the TensorCore's valuation; -/
abbrev V0 (d : Dev nD) : Valuation τ sig (Elt F) := fun b => m (d, b)
/-- the index list, and what the four host operations before the call leave in the widened table, the re-laid
    position table and the result array; -/
abbrev Xm (d : Dev nD) : Buf (Elt F) (xLoc d) := m (xLoc d)
abbrev V1m (d : Dev nD) : Buf (Elt F) (tLoc d) := after pre (V0 m d) r5
abbrev V2m (d : Dev nD) : Buf (Elt F) (pLoc d) := after pre (V0 m d) r6
abbrev fo0 (d : Dev nD) : Buf (Elt F) (oLoc d) := after pre (V0 m d) r7
/-- the result array after the call: the embedding as 1024 rows of 128; -/
abbrev OUTm (d : Dev nD) : Buf (Elt F) (oLoc d) := Cert.Spec.tileOut (Xm m d) (V1m m d) (V2m m d)
/-- the valuation after the call, and the result buffer after the last re-laying. -/
def Vc (d : Dev nD) : Valuation τ sig (Elt F) := Function.update (after pre (V0 m d)) r7 (OUTm m d)
abbrev RESm (d : Dev nD) : Buf (Elt F) (rLoc d) := after [opRs2] (Vc m d) r8

theorem Vc_r7 (d : Dev nD) : Vc m d r7 = OUTm m d := Function.update_self _ _ _
theorem Vc_of_ne (d : Dev nD) {b : DevRef τ sig} (h : b ≠ r7) : Vc m d b = after pre (V0 m d) b := Function.update_of_ne h _ _

/-! ## What the handshakes carry -/

/-- The one call hands SparseCore `c` its sixteen workers' resources and takes them back with the result's rows at the
    embedding; each task its own worker's. -/
def P : (K (F := F)).Pay (nD := nD) (Val := Elt F) (Name := ℕ) (U := UU) where
  st := fun q d c => match q with
    | 0 => bigSep Finset.univ fun i : Fin 16 => goRes d (Xm m d) (V1m m d) (V2m m d) (fo0 m d) (wid (Fin.cast nCore_zero c) i)
  dn := fun q d c => match q with
    | 0 => bigSep Finset.univ fun i : Fin 16 => goRes d (Xm m d) (V1m m d) (V2m m d) (OUTm m d) (wid (Fin.cast nCore_zero c) i)
  go := fun q d c i => match q with
    | 0 => goRes d (Xm m d) (V1m m d) (V2m m d) (fo0 m d) (wid (Fin.cast nCore_zero c) (Fin.cast nSub_zero i))
  td := fun q d c i => match q with
    | 0 => goRes d (Xm m d) (V1m m d) (V2m m d) (OUTm m d) (wid (Fin.cast nCore_zero c) (Fin.cast nSub_zero i))
  x := fun _ _ => iprop(emp)

instance P_storable : (P (F := F) m).IsStorable where
  st q d c := match q with
    | 0 => (inferInstance : BI.Storable (upEmb : UEmb _ 𝕄)
        (bigSep Finset.univ fun i : Fin 16 => goRes d (Xm m d) (V1m m d) (V2m m d) (fo0 m d) (wid (Fin.cast nCore_zero c) i)))
  dn q d c := match q with
    | 0 => (inferInstance : BI.Storable (upEmb : UEmb _ 𝕄)
        (bigSep Finset.univ fun i : Fin 16 => goRes d (Xm m d) (V1m m d) (V2m m d) (OUTm m d) (wid (Fin.cast nCore_zero c) i)))
  go q d c i := match q with
    | 0 => (inferInstance : BI.Storable (upEmb : UEmb _ 𝕄)
        (goRes d (Xm m d) (V1m m d) (V2m m d) (fo0 m d) (wid (Fin.cast nCore_zero c) (Fin.cast nSub_zero i))))
  td q d c i := match q with
    | 0 => (inferInstance : BI.Storable (upEmb : UEmb _ 𝕄)
        (goRes d (Xm m d) (V1m m d) (V2m m d) (OUTm m d) (wid (Fin.cast nCore_zero c) (Fin.cast nSub_zero i))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb (coordsV c s)
          xW (Memref.isWhole_whole _) tW (Memref.isWhole_whole _) pW (Memref.isWhole_whole _) oW (Memref.isWhole_whole _)
          s0 (Memref.isWhole_whole _) s1 (Memref.isWhole_whole _) s2 (Memref.isWhole_whole _) s3 (Memref.isWhole_whole _)
          cc0_scratch4 cc0_scratch5 cc0_scoped0 cc0_scoped1) ⟨⟩ c s := rfl

/-- Every word of the index list names a row of the table: what the precondition gives, and what each task's
    indirect copy asks. -/
def PreOK : Prop := ∀ (d : Dev nD) (j : S2048.Idx), (m (xLoc d) j).toNat < 1000000

theorem tileObl (hF : (K (F := F)).Facts) (hX : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ goRes d (Xm m d) (V1m m d) (V2m m d) (fo0 m d) (wOf (coordsV ⟨_, hc.1⟩ ⟨_, hc.2⟩)) ∗ _)
    ⊢ wp _ _ _ _ (fun _ => iprop(goRes d (Xm m d) (V1m m d) (V2m m d) (OUTm m d) (wOf (coordsV ⟨_, hc.1⟩ ⟨_, hc.2⟩)) ∗ _))
  rw [goRes_slices, goRes_slices]
  exact (tile_body d (coordsV ⟨_, hc.1⟩ ⟨_, hc.2⟩) hF _ (Xm m d) (V1m m d) (V2m m d) (fo0 m d) (hX d) O W hO).trans
    (wp_mono frame _ _ fun _ => obl_post)

omit [FloatOps F] [∀ e, Nonempty (Elt F e)] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands ARE its sixteen tasks' resources, and its results theirs. -/
theorem vecSplit : (K (F := F)).VecSplit' (P m) 0 := by
  intro d c
  show (bigSep Finset.univ fun i : Fin 16 => goRes d (Xm m d) (V1m m d) (V2m m d) (fo0 m d) (wid (Fin.cast nCore_zero c) i))
    ⊢ |={Set.univ}=> iprop(
      (bigSep Finset.univ fun i : Fin ((K (F := F)).nSub 0) =>
        goRes d (Xm m d) (V1m m d) (V2m m d) (fo0 m d) (wid (Fin.cast nCore_zero c) (Fin.cast nSub_zero i)))
      ∗ ((bigSep Finset.univ fun i : Fin ((K (F := F)).nSub 0) =>
          goRes d (Xm m d) (V1m m d) (V2m m d) (OUTm m d) (wid (Fin.cast nCore_zero c) (Fin.cast nSub_zero i)))
          -∗ bigSep Finset.univ fun i : Fin 16 => goRes d (Xm m d) (V1m m d) (V2m m d) (OUTm m d) (wid (Fin.cast nCore_zero c) i)))
  rw [bigSep_tasks (F := F) (fun i => goRes d (Xm m d) (V1m m d) (V2m m d) (fo0 m d) (wid (Fin.cast nCore_zero c) i)),
    bigSep_tasks (F := F) (fun i => goRes d (Xm m d) (V1m m d) (V2m m d) (OUTm m d) (wid (Fin.cast nCore_zero c) i))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] [∀ e, Nonempty (Elt F e)] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem st0_eq (d : Dev nD) : (bigSep Finset.univ fun c : Fin ((K (F := F)).nCore 0) => (P m).st 0 d c)
    = iprop((bigSep Finset.univ fun i : Fin 16 => goRes d (Xm m d) (V1m m d) (V2m m d) (fo0 m d) (wid 0 i))
        ∗ (bigSep Finset.univ fun i : Fin 16 => goRes d (Xm m d) (V1m m d) (V2m m d) (fo0 m d) (wid 1 i))) := by
  show (bigSep (Finset.univ : Finset (Fin 2)) fun c => bigSep Finset.univ fun i : Fin 16 => goRes d (Xm m d) (V1m m d) (V2m m d) (fo0 m d) (wid c i)) = _
  rw [show (Finset.univ : Finset (Fin 2)) = {0, 1} by decide, SparseCore.bigSep_insert' (by decide), bigSep_singleton]
theorem dn0_eq (d : Dev nD) : (bigSep Finset.univ fun c : Fin ((K (F := F)).nCore 0) => (P m).dn 0 d c)
    = iprop((bigSep Finset.univ fun i : Fin 16 => goRes d (Xm m d) (V1m m d) (V2m m d) (OUTm m d) (wid 0 i))
        ∗ (bigSep Finset.univ fun i : Fin 16 => goRes d (Xm m d) (V1m m d) (V2m m d) (OUTm m d) (wid 1 i))) := by
  show (bigSep (Finset.univ : Finset (Fin 2)) fun c => bigSep Finset.univ fun i : Fin 16 => goRes d (Xm m d) (V1m m d) (V2m m d) (OUTm m d) (wid c i)) = _
  rw [show (Finset.univ : Finset (Fin 2)) = {0, 1} by decide, SparseCore.bigSep_insert' (by decide), bigSep_singleton]

/-- @main with its last line bound to a return, the form the straight-line rule reads. -/
theorem main_eq' (d : Dev nD) :
    main (F := F) d = (seq pre >>= fun _ => (K (F := F)).run d 0 >>= fun _ => (seq [opRs2] >>= pure)) := by
  rw [main_eq, bind_pure]

theorem fin0 (d : Dev nD) : after [opRs2] (Vc m d) r0 = m (a0Loc d) := by
  rw [post_keep0, Vc_of_ne m d (by decide), pre_keep0]
theorem fin1 (d : Dev nD) : after [opRs2] (Vc m d) r1 = m (a1Loc d) := by
  rw [post_keep1, Vc_of_ne m d (by decide), pre_keep1]
theorem fin2 (d : Dev nD) : after [opRs2] (Vc m d) r2 = m (a2Loc d) := by
  rw [post_keep2, Vc_of_ne m d (by decide), pre_keep2]
theorem pre0 (d : Dev nD) : after pre (V0 m d) r0 = Xm m d := by rw [pre_keep0]

/-- @main on device `d`'s TensorCore: the four host operations, the call (the workers' resources dealt out of the
    four arrays and gathered back), the last re-laying; the arguments kept, the result at `RESm`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m (RESm m) d) := by
  unfold SparseCore.Cfg.tcRes
  rw [unscoped_held, main_eq']
  iintro ⟨#Hctx, Hst, ⟨Hb, Hheld, -, -⟩, -⟩
  iapply (wp_seq 𝒱 none Set.univ d S9 _ pre pre_sub pre_fresh (V0 m d)) $$ [Hb Hheld]
  · isplitl [Hb]; · iexact Hb
    iexact Hheld
  iintro ⟨Hb, Hheld⟩
  ihave Hh := (Entails.of_eq (held_S9 (F := F) d _)) $$ Hheld
  icases Hh with ⟨H0, H1, H2, H3, H4, H5, H6, H7, H8⟩
  ihave H0 := (Entails.of_eq (congrArg (fun f => (xLoc d ↦{fullShare} f : sProp 𝕄)) (pre0 m d))) $$ H0
  ihave Hd := (deal_out d (Xm m d) (V1m m d) (V2m m d) (fo0 m d)) $$ [H0 H5 H6 H7]
  · isplitl [H0]; · iexact H0
    isplitl [H5]; · iexact H5
    isplitl [H6]; · iexact H6
    iexact H7
  icases Hd with ⟨Hdrop, Hc0, Hc1⟩
  rw [wp_bind]
  iapply ((K (F := F)).wp_run (D (F := F)) 𝒱 (EH := EH) (P := P m) κ d 0) $$ [Hst Hc0 Hc1 Hdrop Hb H1 H2 H3 H4 H8]
  isplitr; · iexact Hctx
  isplitl [Hst]; · iexact Hst
  isplitl [Hc0 Hc1]
  · rw [st0_eq]
    isplitl [Hc0]; · iexact Hc0
    iexact Hc1
  iintro ⟨Hst, Hdn⟩
  ihave Hdn' := (Entails.of_eq (dn0_eq m d)) $$ Hdn
  icases Hdn' with ⟨Hc0, Hc1⟩
  ihave Hj := (deal_in d (Xm m d) (V1m m d) (V2m m d) (OUTm m d)) $$ [Hdrop Hc0 Hc1]
  · isplitl [Hdrop]; · iexact Hdrop
    isplitl [Hc0]; · iexact Hc0
    iexact Hc1
  icases Hj with ⟨H0, H5, H6, H7⟩
  iapply (wp_seq 𝒱 none Set.univ d S9 _ [opRs2] post_sub post_fresh (Vc m d)) $$ [Hb H0 H1 H2 H3 H4 H5 H6 H7 H8]
  · isplitl [Hb]; · iexact Hb
    rw [held_S9, Vc_r7, Vc_of_ne m d (b := r0) (by decide), Vc_of_ne m d (b := r1) (by decide), Vc_of_ne m d (b := r2) (by decide),
      Vc_of_ne m d (b := r3) (by decide), Vc_of_ne m d (b := r4) (by decide), Vc_of_ne m d (b := r5) (by decide),
      Vc_of_ne m d (b := r6) (by decide), Vc_of_ne m d (b := r8) (by decide), pre0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨Hb, Hheld⟩
  ihave Hh := (Entails.of_eq (held_S9 (F := F) d _)) $$ Hheld
  icases Hh with ⟨H0, H1, H2, -, -, -, -, -, H8⟩
  rw [wp_pure]
  imodintro
  isplitl [Hst]; · iexact Hst
  isplitl [H0]; · iapply (Entails.of_eq (congrArg (fun f => (a0Loc d ↦{fullShare} f : sProp 𝕄)) (fin0 m d))); iexact H0
  isplitl [H1]; · iapply (Entails.of_eq (congrArg (fun f => (a1Loc d ↦{fullShare} f : sProp 𝕄)) (fin1 m d))); iexact H1
  isplitl [H2]; · iapply (Entails.of_eq (congrArg (fun f => (a2Loc d ↦{fullShare} f : sProp 𝕄)) (fin2 m d))); iexact H2
  iexact H8

/-! ## The program's run -/

/-- Every weakly fair execution of the program's threads from a launch memory whose index list names table rows
    terminates, nothing faulting, with the result buffer at `RESm` of the arguments and the arguments unchanged. -/
theorem run_main (hX : PreOK m) :
    θ_run (Cert.KernelIdeal.defs (F := F)) (Cert.KernelIdeal.threads (F := F)) ⟨m, fun _ => 0, ρ⟩ (QC m (RESm m)) :=
  SparseCore.Cfg.θ_run_sc (K := K (F := F)) (D := D (F := F)) (𝒱 := 𝒱) (EH := EH) (P := P m) facts v₀
    (fun q hq => match q with | 0 => nomatch hq)
    (fun q _ => match q with | 0 => tileObl m facts hX)
    (fun q _ => match q with | 0 => SparseCore.Cfg.VecSplit.of_plain (vecSplit m))
    m ρ main (fun _ => iprop(emp)) (FIN m (RESm m)) (u₀ (F := F)) (sep_elim_left.trans (hu₀ m)) (hmain m ρ) (fq m (RESm m)) (hfin m (RESm m))
    (QC m (RESm m)) (hQ m (RESm m))

end Cert.KI

end
-- ==== Proof.Value.lean ====
/-
  What the kernel program's run leaves in its result buffer is the embedding.

  The run names the result as: the last re-laying (1024 x 128 to 2048 x 64) of the workers' joint output, which is
  `Cert.Spec.tileOut` of the index list, the word table widened by a block of zeros, and the position table re-laid
  as 1024 x 128. A re-laying keeps row-major positions and the widened table's first 64 columns are the word
  table's, so entry (i, e) of the result is  word[x i, e] + pos[i, e]  (`Cert.Bridge.embed_of_tileOut`).
-/
import proofs.«205826_g34540126994749_cont_8to1_b_743_19_alg».proof.Proof.KI.Launch
import proofs.«205826_g34540126994749_cont_8to1_b_743_19_alg».proof.Proof.Bridge

noncomputable section

namespace Cert.KI

open Cert.KernelIdeal Cert.KernelIdeal.Gen Idealize.ShloMosaic Idealize.SL.Sem
open Idealize.ShloMosaic.StableHlo (after)

variable {F : FTy → Type} [FloatOps F] [∀ e, Nonempty (Elt F e)]

/-- The result buffer after the run, as a function of the three arguments' launch contents: the embedding. -/
theorem res_eq_embed (m : (ℓ : Loc nD τ sig) → Buf (Elt F) ℓ) (d : Dev nD) :
    RESm m d = Cert.Spec.embed (m (a0Loc d)) (m (a1Loc d)) (m (a2Loc d)) := by
  show after [opRs2] (Vc m d) r8 = _
  rw [post_v4, Vc_r7]
  show shapeCast S2048x64 (Cert.Spec.tileOut (m (xLoc d)) (after pre (V0 m d) r5) (after pre (V0 m d) r6)) shapeCasts_S1024x128_S2048x64 = _
  rw [pre_v1, pre_v2]
  exact Cert.Bridge.embed_of_tileOut _ _ _ _ _ _ _

end Cert.KI

end
-- ==== Proof.RefRun.lean ====
/-
  The reference program's @main as one straight line of host operations, and what a run of it leaves in memory.

  @main is: the list 0, 1, …, 2047; a row lookup of the position table at that list; a row lookup of the word
  table at the argument list; the sum of the two results. Each row lookup is a function the module outlines (and
  the lookup's choice between an index and the index plus the table's extent is a function that one calls in
  turn); a call executes the callee's body on the operands, so @main is the callee's operations in place of each
  call, over that call's own buffers: forty-eight operations in all.

  One row lookup, as a function of a table of N rows of 64 and a list of 2048 words (`take`): an index below
  zero (read signed) has the extent N added; the indices are laid as a column [2048, 1]; the rows are gathered at
  the column; an entry is kept where its index is, read signed, between 0 and N - 1, and is the float constant
  of bit pattern 0x7FC00000 elsewhere. The result of @main (`out`) is the word table's lookup at the argument
  list plus the position table's lookup at 0, 1, …, 2047.

  `run`: from any memory with zero counters every weakly fair execution of @main terminates with the result
  buffer at `out` of the three arguments' launch contents, and the three arguments unchanged.
-/
import proofs.«205826_g34540126994749_cont_8to1_b_743_19_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty-eight operations, in order: the list 0 … 2047; the position table's row lookup (twenty-three
    operations over the first call's buffers, the seventh the inner choice between index and index plus extent);
    the word table's row lookup (the same twenty-three over the second call's buffers); the sum. -/
abbrev ops : List (HloOp τ sig (Elt F)) :=
  [ nullary main_v0 (iotaInDim S2048 32 0),
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 2048#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg2) main_call0.v5 main_call0.v13 (fun x i => Host.gather gather_S2048x64_S2048x1_S2048x64_1_0_n_n_0_1_164 x i),
    TRef.unary main_call0.v12 main_call0.v14 (broadcastInDim S2048x64 ![0] bcast_S2048_S2048x64_0),
    TRef.nullary main_call0.cst (constant S_ .f32 0x7FC00000#32),
    TRef.unary main_call0.cst main_call0.v15 (broadcastInDim S2048x64 ![] bcast_S_S2048x64),
    TRef.ternary main_call0.v14 main_call0.v13 main_call0.v15 main_call0.v16 select,
    TRef.nullary main_call1.c (constantI S_ 32 0#32),
    TRef.unary main_call1.c main_call1.v0 (broadcastInDim S2048 ![] bcast_S_S2048),
    TRef.binary (.of main_arg0) main_call1.v0 main_call1.v1 (cmpi .slt),
    TRef.nullary main_call1.c_0 (constantI S_ 32 1000000#32),
    TRef.unary main_call1.c_0 main_call1.v2 (broadcastInDim S2048 ![] bcast_S_S2048),
    TRef.binary (.of main_arg0) main_call1.v2 main_call1.v3 addi,
    TRef.ternary main_call1.v1 main_call1.v3 (.of main_arg0) main_call1.call0.v0 select,
    TRef.unary main_call1.call0.v0 main_call1.v5 (broadcastInDim S2048x1 ![0] bcast_S2048_S2048x1_0),
    TRef.nullary main_call1.c_1 (constantI S1 32 999999#32),
    TRef.nullary main_call1.c_2 (constantI S_ 32 0#32),
    TRef.unary main_call1.c_2 main_call1.v6 (broadcastInDim S2048x1 ![] bcast_S_S2048x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S2048x1 ![0, 1] bcast_S1x1_S2048x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2048x1_S2048_d1 h_S_),
    TRef.binary (.of main_arg1) main_call1.v5 main_call1.v13 (fun x i => Host.gather gather_S1000000x64_S2048x1_S2048x64_1_0_n_n_0_1_164 x i),
    TRef.unary main_call1.v12 main_call1.v14 (broadcastInDim S2048x64 ![0] bcast_S2048_S2048x64_0),
    TRef.nullary main_call1.cst (constant S_ .f32 0x7FC00000#32),
    TRef.unary main_call1.cst main_call1.v15 (broadcastInDim S2048x64 ![] bcast_S_S2048x64),
    TRef.ternary main_call1.v14 main_call1.v13 main_call1.v15 main_call1.v16 select,
    binary main_v2 main_v1 main_v3 (addf : (⟨S2048x64, .f32⟩ : BufTy).Contents (Elt F) → (⟨S2048x64, .f32⟩ : BufTy).Contents (Elt F) → (⟨S2048x64, .f32⟩ : BufTy).Contents (Elt F)) ]

-- forty-eight binds re-associated: the rewrite under the chain recurses once per statement
set_option maxRecDepth 2048 in
/-- @main is that straight line: the outlined functions unfolded at their calls, both sides are one chain of
    steps once sequencing is re-associated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

/-- One row lookup of a table of `N` rows of 64 at a list of 2048 words: a negative index (read signed) has the
    extent `n` added; the rows are gathered at the column of indices; an entry is kept where its index lies
    between 0 and `hi` (read signed) and is the constant of bit pattern 0x7FC00000 elsewhere. -/
def take {N : Nat} (gd : GatherDims ⟨2, ![N, 64]⟩ S2048x1 S2048x64) (n hi : BitVec 32)
    (tbl : (⟨⟨2, ![N, 64]⟩, .f32⟩ : BufTy).Contents (Elt F)) (idx : (⟨S2048, .i32⟩ : BufTy).Contents (Elt F)) :
    (⟨S2048x64, .f32⟩ : BufTy).Contents (Elt F) :=
  select
    (broadcastInDim S2048x64 ![0] bcast_S2048_S2048x64_0
      (Host.reduce IntOp.andi
        (andi
          (cmpi .sge
            (broadcastInDim S2048x1 ![0] bcast_S2048_S2048x1_0
              (select (cmpi .slt idx (broadcastInDim S2048 ![] bcast_S_S2048 (constantI S_ 32 0#32)))
                (addi idx (broadcastInDim S2048 ![] bcast_S_S2048 (constantI S_ 32 n))) idx))
            (broadcastInDim S2048x1 ![] bcast_S_S2048x1 (constantI S_ 32 0#32)))
          (cmpi .sle
            (broadcastInDim S2048x1 ![0] bcast_S2048_S2048x1_0
              (select (cmpi .slt idx (broadcastInDim S2048 ![] bcast_S_S2048 (constantI S_ 32 0#32)))
                (addi idx (broadcastInDim S2048 ![] bcast_S_S2048 (constantI S_ 32 n))) idx))
            (broadcastInDim S2048x1 ![0, 1] bcast_S1x1_S2048x1_0_1
              (broadcastInDim S1x1 ![1] bcast_S1_S1x1_1 (constantI S1 32 hi)))))
        (constantI S_ 1 1#1) reducesTo_S2048x1_S2048_d1 h_S_))
    (Host.gather gd tbl
      (broadcastInDim S2048x1 ![0] bcast_S2048_S2048x1_0
        (select (cmpi .slt idx (broadcastInDim S2048 ![] bcast_S_S2048 (constantI S_ 32 0#32)))
          (addi idx (broadcastInDim S2048 ![] bcast_S_S2048 (constantI S_ 32 n))) idx)))
    (broadcastInDim S2048x64 ![] bcast_S_S2048x64 (constant S_ .f32 0x7FC00000#32))

/-- @main's result as a function of its three arguments: the word table's row lookup at the list plus the
    position table's row lookup at 0, 1, …, 2047. -/
def out (x : (⟨S2048, .i32⟩ : BufTy).Contents (Elt F)) (word : (⟨S1000000x64, .f32⟩ : BufTy).Contents (Elt F))
    (pos : (⟨S2048x64, .f32⟩ : BufTy).Contents (Elt F)) : (⟨S2048x64, .f32⟩ : BufTy).Contents (Elt F) :=
  addf (take gather_S1000000x64_S2048x1_S2048x64_1_0_n_n_0_1_164 1000000#32 999999#32 word x)
    (take gather_S2048x64_S2048x1_S2048x64_1_0_n_n_0_1_164 2048#32 2047#32 pos (iotaInDim S2048 32 0))

attribute [local irreducible] Host.reduce Host.gather in
set_option maxRecDepth 8192 in
set_option maxHeartbeats 400000 in
/-- The fold of the forty-eight operations at the result buffer is `out` of the contents of the three argument
    buffers: each operation's result is its function of the buffers it reads, and a typed reference's transport is
    the identity at a literal reference. -/
theorem out_eq (V : Valuation τ sig (Elt F)) :
    after ops V (main_v3 : DevRef τ sig)
      = out (V (main_arg0 : DevRef τ sig)) (V (main_arg1 : DevRef τ sig)) (V (main_arg2 : DevRef τ sig)) := by
  after_results_simp
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

/-- On every device, for any float values, from any memory with zero counters: every weakly fair execution of
    @main terminates with the result buffer at `out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
          = out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v3).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.LibRowGatherScatter.lean ====
/-
  A gather of whole rows and an accumulating scatter of whole rows, read at an entry, for any extents.

  The operand is a matrix [N, D]; the start indices are a column [E, 1] of integers, one per edge. The gather's
  result [E, D] has, in row e, the operand's row whose number is the e-th start index read as a signed integer and
  clamped into [0, N - 1]. The same for a vector operand [N] and result [E]. The scatter adds row e of the updates
  [E, D] into the operand's row whose number is the e-th index read as a signed integer, NOT clamped: an update whose
  index is outside [0, N) is dropped. So an update entry (e, q) that lands on entry (i, q') has index exactly i and q = q'.
-/
import Idealize.ShloMosaic.Lib.ValueIdx
import Idealize.ShloMosaic.Lib.Pipeline.Value
import Idealize.ShloMosaic.PureOps.Ideal.Laws

noncomputable section

namespace RowGatherScatter

open Idealize.ShloMosaic Idealize.ShloMosaic.ValueIdx

variable {α : Type}

/-- The dimension numbers of a gather of whole rows: operand [N, D], start indices [E, 1], result [E, D]. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of a gather of entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of an accumulating scatter of whole rows: operand [N, D], indices [E, 1], updates [E, D]. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row edge e reads: its start index read signed and clamped into [0, N - 1]. -/
def startRow {E w : Nat} (N : Nat) (hN : 0 < N) (idx : IVec ⟨2, ![E, 1]⟩ w) (e : Fin E) : Fin N :=
  ⟨min (idx (ix2 e (0 : Fin 1))).toInt.toNat (N - 1), by omega⟩

/-- The gather of rows at entry (e, q): the operand at (the row edge e reads, q). -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGatherDims N E D wf) x idx (ix2 e q) = x (ix2 (startRow N hN idx e) q) := by
  unfold Host.gather
  congr 1
  funext a
  refine Fin.ext ?_
  match a with
  | ⟨0, _⟩ =>
    show (rowGatherDims N E D wf).start (ix2 e q) idx 0 + (rowGatherDims N E D wf).batchCoord (ix2 e q) 0
      + (rowGatherDims N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e q) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E D wf).start (ix2 e q) idx 1 + (rowGatherDims N E D wf).batchCoord (ix2 e q) 1
      + (rowGatherDims N E D wf).offCoord (ix2 e q) 1 = q.val
    rw [GatherDims.batchCoord_eq_zero _ _ _ List.not_mem_nil]
    have hs : (rowGatherDims N E D wf).start (ix2 e q) idx 1 = 0 := by
      unfold GatherDims.start
      rw [dif_neg (show (1 : Fin 2) ∉ [(0 : Fin 2)] by decide)]
    rw [hs]
    have ho : (rowGatherDims N E D wf).offCoord (ix2 e q) 1 = q.val := by
      unfold GatherDims.offCoord
      rw [dif_pos ((GatherDims.mem_sKept _ _).mpr ⟨(show (1 : Fin 2) ∉ [(0 : Fin 2)] by decide), List.not_mem_nil⟩)]
      rfl
    rw [ho]
    omega

/-- The gather of a vector's entries at e: the operand at the row edge e reads. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (startRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- An update entry (e, q) of a scatter of rows that lands on entry i of the operand: the e-th index, read signed, is
    i's row, and q is i's column. -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (e : Fin E) (q : Fin D) (i : (⟨2, ![N, D]⟩ : Shape).Idx)
    (h : (rowScatterDims N E D wf).resultIdx? (ix2 e q) idx = some i) :
    (idx (ix2 e (0 : Fin 1))).toInt = ((i 0).val : Int) ∧ (i 1).val = q.val := by
  unfold ScatterDims.resultIdx? at h
  split at h
  · rename_i hin
    have hi := Option.some.inj h
    have hs0 : (rowScatterDims N E D wf).start (ix2 e q) idx 0 = (idx (ix2 e (0 : Fin 1))).toInt := by
      unfold ScatterDims.start
      rw [dif_pos (show (0 : Fin 2) ∈ (rowScatterDims N E D wf).scatterDimsToOperandDims from List.mem_singleton.mpr rfl)]
      have hsi : (rowScatterDims N E D wf).siIdx (ix2 e q) ⟨List.idxOf (0 : Fin 2) (rowScatterDims N E D wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowScatterDims N E D wf).window (ix2 e q) 0 = 0 := by
      unfold ScatterDims.window
      rw [dif_neg (by simp [ScatterDims.sKept, Shape.kept])]
    have hs1 : (rowScatterDims N E D wf).start (ix2 e q) idx 1 = 0 := by
      unfold ScatterDims.start
      rw [dif_neg (show (1 : Fin 2) ∉ [(0 : Fin 2)] by decide)]
    have hw1 : (rowScatterDims N E D wf).window (ix2 e q) 1 = q.val := by
      unfold ScatterDims.window
      rw [dif_pos (by simp [ScatterDims.sKept, Shape.kept])]
      rfl
    have h0 := hin 0
    have e0 := congrArg (fun j : (⟨2, ![N, D]⟩ : Shape).Idx => (j 0).val) hi
    have e1 := congrArg (fun j : (⟨2, ![N, D]⟩ : Shape).Idx => (j 1).val) hi
    simp only at e0 e1
    rw [hs0, hw0] at h0 e0
    rw [hs1, hw1] at e1
    constructor
    · omega
    · omega
  · exact absurd h (by simp)

end RowGatherScatter

end
-- ==== Proof.RefValue.lean ====
/-
  The reference's result is the embedding.

  One row lookup (`RefRun.take`) of a table of N rows of 64, N at most 2^31, at a list of 2048 words each of value
  below N, read at entry (e, q), is the table at (the e-th word's value, q). Why: a word of value below 2^31 is
  non-negative read signed, so the index is not moved by the extent; it lies between 0 and N - 1, so the mask bit
  of its row is one, the conjunction over the row's unit axis of ones is one, and the entry kept is the gathered
  one; the gather reads the row whose number is the index read signed and clamped into [0, N - 1], which is the
  word's value itself.

  The position table is looked up at the list 0, 1, …, 2047, whose e-th word has value e: the lookup is the table
  itself. The word table is looked up at the argument list, whose words are below 1 000 000 by hypothesis: entry
  (e, q) is the word table at (value of the e-th word, q), and that value is the row the specification names. Their
  sum, entry by entry, is the specification's `embed`.
-/
import proofs.«205826_g34540126994749_cont_8to1_b_743_19_alg».proof.Proof.RefRun
import proofs.«205826_g34540126994749_cont_8to1_b_743_19_alg».proof.Proof.Spec
import proofs.«205826_g34540126994749_cont_8to1_b_743_19_alg».proof.Proof.LibRowGatherScatter
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx RowGatherScatter

/-! ## Words -/

/-- A 32-bit word of value below 2^31 reads, signed, as its value. -/
theorem toInt_of_lt {x : BitVec 32} (h : x.toNat < 2147483648) : x.toInt = (x.toNat : Int) := by
  rw [BitVec.toInt_eq_toNat_cond]
  split <;> omega

/-- Such a word is not below zero, read signed. -/
theorem slt_zero_bit {x : BitVec 32} (h : x.toNat < 2147483648) : IntOp.cmpi .slt x 0#32 = 0#1 := by
  have hxi := toInt_of_lt h
  have h1 : x.slt 0#32 = false := by
    simp only [BitVec.slt, hxi, BitVec.toInt_zero, decide_eq_false_iff_not]
    omega
  simp only [IntOp.cmpi, h1]
  rfl

/-- A word of value below `N`, `N` at most 2^31, lies between 0 and the word of value `N - 1`, read signed. -/
theorem inRange_bit {N : Nat} (hN31 : N ≤ 2147483648) {x hi : BitVec 32} (hx : x.toNat < N)
    (hhi : hi.toNat = N - 1) : IntOp.andi (IntOp.cmpi .sge x 0#32) (IntOp.cmpi .sle x hi) = 1#1 := by
  have hxi : x.toInt = (x.toNat : Int) := toInt_of_lt (by omega)
  have hhii : hi.toInt = (hi.toNat : Int) := toInt_of_lt (by omega)
  have h1 : (0#32).sle x = true := by
    simp only [BitVec.sle, hxi, BitVec.toInt_zero, decide_eq_true_eq]
    omega
  have h2 : x.sle hi = true := by
    simp only [BitVec.sle, hxi, hhii, decide_eq_true_eq]
    omega
  simp only [IntOp.andi, IntOp.cmpi, h1, h2]
  rfl

/-- A conjunction, from one, of ones is one. -/
theorem foldl_and_ones {ι : Type} (l : List ι) : l.foldl (fun r _ => IntOp.andi r (1#1 : BitVec 1)) 1#1 = 1#1 := by
  induction l with
  | nil => rfl
  | cons a l ih => exact ih

/-- The conjunction over any axes of an array of ones, from one, is one everywhere. -/
theorem reduce_and_ones {s t u : Shape} {axes : List (Fin s.rank)} (h : s.ReducesTo axes t) (hu : 0 < u.numel)
    (j : t.Idx) : Host.reduce IntOp.andi (fun _ : s.Idx => (1#1 : BitVec 1)) (fun _ : u.Idx => (1#1 : BitVec 1)) h hu j = 1#1 := by
  unfold Host.reduce
  exact foldl_and_ones _

/-! ## One row lookup at an entry -/

section Take
variable {F : FTy → Type} [FloatOps F]

/-- The row lookup of a table of `N` rows (`N` at most 2^31) at a list whose words are all below `N`, at entry
    `(e, q)`: the table at (the e-th word's value, q). -/
theorem take_apply {N : Nat} (hN : 0 < N) (hN31 : N ≤ 2147483648)
    (wf : GatherDims.WF ⟨2, ![N, 64]⟩ ⟨2, ![2048, 1]⟩ ⟨2, ![2048, 64]⟩ [1] [0] [] [0] [] 1 ![1, 64])
    (n hi : BitVec 32) (hhi : hi.toNat = N - 1)
    (tbl : (⟨⟨2, ![N, 64]⟩, .f32⟩ : BufTy).Contents (Elt F)) (idx : (⟨S2048, .i32⟩ : BufTy).Contents (Elt F))
    (hidx : ∀ j, (idx j).toNat < N) (e : Fin 2048) (q : Fin 64) :
    RefRun.take (rowGatherDims N 2048 64 wf) n hi tbl idx (ix2 e q)
      = tbl (ix2 (n0 := N) (n1 := 64) ⟨(idx (ix1 e)).toNat, hidx _⟩ q) := by
  -- the index is not moved: no word is below zero
  have hsel : select (cmpi .slt idx (broadcastInDim S2048 ![] bcast_S_S2048 (constantI S_ 32 0#32)))
      (addi idx (broadcastInDim S2048 ![] bcast_S_S2048 (constantI S_ 32 n))) idx = idx := by
    funext j
    show Scalar.select (IntOp.cmpi .slt (idx j) 0#32) _ (idx j) = idx j
    rw [slt_zero_bit (by have := hidx j; omega), select_zero]
  -- the column of indices at (a, 0) is the a-th word
  have hcol : ∀ i : S2048x1.Idx, broadcastInDim S2048x1 ![0] bcast_S2048_S2048x1_0 idx i = idx (ix1 (i 0)) := by
    intro i
    refine broadcastInDim_apply _ _ _ _ _ ?_
    intro a
    match a with
    | ⟨0, _⟩ => rfl
  -- every mask bit is one
  have hmask : andi
      (cmpi .sge (broadcastInDim S2048x1 ![0] bcast_S2048_S2048x1_0 idx)
        (broadcastInDim S2048x1 ![] bcast_S_S2048x1 (constantI S_ 32 0#32)))
      (cmpi .sle (broadcastInDim S2048x1 ![0] bcast_S2048_S2048x1_0 idx)
        (broadcastInDim S2048x1 ![0, 1] bcast_S1x1_S2048x1_0_1
          (broadcastInDim S1x1 ![1] bcast_S1_S1x1_1 (constantI S1 32 hi))))
      = fun _ => (1#1 : BitVec 1) := by
    funext i
    show IntOp.andi (IntOp.cmpi .sge (broadcastInDim S2048x1 ![0] bcast_S2048_S2048x1_0 idx i) 0#32)
      (IntOp.cmpi .sle (broadcastInDim S2048x1 ![0] bcast_S2048_S2048x1_0 idx i) hi) = 1#1
    rw [hcol i]
    exact inRange_bit hN31 (hidx _) hhi
  unfold RefRun.take
  rw [hsel, hmask, select_apply]
  have hone : broadcastInDim S2048x64 ![0] bcast_S2048_S2048x64_0
      (Host.reduce IntOp.andi (fun _ : S2048x1.Idx => (1#1 : BitVec 1)) (constantI S_ 1 1#1)
        reducesTo_S2048x1_S2048_d1 h_S_) (ix2 e q) = 1#1 :=
    reduce_and_ones (u := S_) reducesTo_S2048x1_S2048_d1 h_S_ _
  rw [hone, select_one, rowGather_apply hN wf]
  congr 2
  refine Fin.ext ?_
  show min (broadcastInDim S2048x1 ![0] bcast_S2048_S2048x1_0 idx (ix2 e (0 : Fin 1))).toInt.toNat (N - 1)
    = (idx (ix1 e)).toNat
  rw [hcol]
  have h1 := hidx (ix1 e)
  rw [show (idx (ix1 ((ix2 e (0 : Fin 1) : S2048x1.Idx) 0))) = idx (ix1 e) from rfl,
    toInt_of_lt (by omega), Int.toNat_natCast]
  omega

end Take

/-! ## The result is the embedding -/

/-- The list 0, 1, …, 2047: the e-th word has value e. -/
theorem iota_toNat (j : S2048.Idx) : ((iotaInDim S2048 32 0 : IVec S2048 32) j).toNat = (j 0).val := by
  have h : (j 0).val < 2048 := (j 0).isLt
  show (BitVec.ofNat 32 (j 0).val).toNat = (j 0).val
  rw [BitVec.toNat_ofNat]
  omega

/-- On a list of words all below 1 000 000, the reference's result is the specification's embedding. -/
theorem out_eq_embed (X : (⟨S2048, .i32⟩ : BufTy).Contents (Elt Ideal))
    (W : (⟨S1000000x64, .f32⟩ : BufTy).Contents (Elt Ideal)) (Pz : (⟨S2048x64, .f32⟩ : BufTy).Contents (Elt Ideal))
    (hx : ∀ j, (X j).toNat < 1000000) : RefRun.out (F := Ideal) X W Pz = Cert.Spec.embed (F := Ideal) X W Pz := by
  funext j
  obtain ⟨e, q, rfl⟩ : ∃ (e : Fin 2048) (q : Fin 64), j = ix2 e q := ⟨j 0, j 1, eq_ix2 j⟩
  have hiota : ∀ j : S2048.Idx, ((iotaInDim S2048 32 0 : IVec S2048 32) j).toNat < 2048 := by
    intro j
    rw [iota_toNat]
    exact (j 0).isLt
  show FloatOps.addf
      (RefRun.take gather_S1000000x64_S2048x1_S2048x64_1_0_n_n_0_1_164 1000000#32 999999#32 W X (ix2 e q))
      (RefRun.take gather_S2048x64_S2048x1_S2048x64_1_0_n_n_0_1_164 2048#32 2047#32 Pz (iotaInDim S2048 32 0) (ix2 e q))
    = FloatOps.addf (W (ix2 (n0 := 1000000) (n1 := 64) (Cert.Spec.rowOf (X (ix1 (n := 2048) e))) q)) (Pz (ix2 e q))
  have hw := take_apply (F := Ideal) (N := 1000000) (by omega) (by omega)
    gather_S1000000x64_S2048x1_S2048x64_1_0_n_n_0_1_164_wf 1000000#32 999999#32 (by decide) W X hx e q
  have hp := take_apply (F := Ideal) (N := 2048) (by omega) (by omega)
    gather_S2048x64_S2048x1_S2048x64_1_0_n_n_0_1_164_wf 2048#32 2047#32 (by decide) Pz (iotaInDim S2048 32 0) hiota e q
  rw [show RefRun.take gather_S1000000x64_S2048x1_S2048x64_1_0_n_n_0_1_164 1000000#32 999999#32 W X (ix2 e q) = _ from hw,
    show RefRun.take gather_S2048x64_S2048x1_S2048x64_1_0_n_n_0_1_164 2048#32 2047#32 Pz (iotaInDim S2048 32 0) (ix2 e q) = _ from hp]
  congr 2
  · congr 1
    refine Fin.ext ?_
    exact (Cert.Spec.rowOf_val (hx _)).symm
  · congr 1
    refine Fin.ext ?_
    exact iota_toNat (ix1 e)

/-! ## The run -/

/-- From any memory with zero counters whose argument list holds only words below 1 000 000, every weakly fair
    execution of the reference at the ideal instance terminates with the result buffer at the embedding of the three
    arguments' launch contents, and the three arguments unchanged. -/
theorem run_embed (m : (ℓ : Loc Cert.ReferenceIdeal.nD Cert.ReferenceIdeal.τ Cert.ReferenceIdeal.sig) → Buf (Elt Ideal) ℓ)
    (ρ : Dev Cert.ReferenceIdeal.nD → PrngReg)
    (hx : ∀ (c : Dev Cert.ReferenceIdeal.nD) j,
      (m ((c.tc : Thread Cert.ReferenceIdeal.nD Cert.ReferenceIdeal.τ).loc Cert.ReferenceIdeal.main_arg0) j).toNat < 1000000) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v3)
            = Cert.Spec.embed (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run _ _ _).mono (fun _ h c => ⟨(h c).1.trans (out_eq_embed _ _ _ (hx c)), (h c).2⟩) (RefRun.run m ρ)

end Cert.ReferenceIdeal.RefValue

end
-- ==== Proof.PreRange.lean ====
/-
  The precondition, read back to the one fact the certificate uses.

  The predicate is  all(|W| < inf) & all(|Pz| < inf) & all((X >= 0) & (X <= 999999)),  a chain of one-bit words; the
  claim states that it is the word 1.  A conjunction of one-bit words is 1 exactly when both are, so the last conjunct
  is 1; it is a reduction by "and" over the whole list, so each of its entries is 1; the entry at j is the conjunction
  of the two signed comparisons  0 <= X j  and  X j <= 999999.  A 32-bit word whose signed value is in [0, 999999] has
  the same unsigned value, which is therefore below 1 000 000.  Nothing here depends on the float instance.
-/
import proofs.«205826_g34540126994749_cont_8to1_b_743_19_alg».proof.Pre_input_domain
import proofs.«205826_g34540126994749_cont_8to1_b_743_19_alg».proof.Proof.Gen.Pre_input_domain
import Idealize.ShloMosaic.Lib.ReduceAll

noncomputable section

namespace Cert.PreRange

open Idealize.ShloMosaic Cert.Pre_input_domain

/-- The rank-0 shape has one index. -/
instance : Subsingleton S_.Idx := ⟨fun a b => funext fun d => d.elim0⟩

/-- A 32-bit word whose signed value lies in [0, 999999] is, read unsigned, below 1 000 000. -/
theorem toNat_lt_of_signed (w : BitVec 32) (h0 : (0#32 : BitVec 32).toInt ≤ w.toInt)
    (h1 : w.toInt ≤ (999999#32 : BitVec 32).toInt) : w.toNat < 1000000 := by
  have e0 : (0#32 : BitVec 32).toInt = 0 := by decide
  have e1 : (999999#32 : BitVec 32).toInt = 999999 := by decide
  rw [e0] at h0
  rw [e1] at h1
  have hc := BitVec.toInt_eq_toNat_cond w
  have hlt := w.isLt
  split at hc <;> omega

/-- The precondition gives every word of the list a value below the table's extent. -/
theorem range_of_pre {F : FTy → Type} [FloatOps F] (X : IVec S2048 32) (W : FVec F S1000000x64 .f32)
    (Pz : FVec F S2048x64 .f32) (h : Cert.Pre_input_domain.fn (F := F) X W Pz = fun _ => 1#1) :
    ∀ j, (X j).toNat < 1000000 := by
  intro j
  have e := congrFun h (fun d => d.elim0)
  unfold Cert.Pre_input_domain.fn at e
  dsimp only at e
  -- the outer conjunction: the last conjunct is the reduction over the list
  have e14 := (IntOp.andi_eq_one.1 e).2
  -- every entry of the reduced list is 1
  have ej := Host.reduce_andi_all _ _ _ _ _ e14 j
  -- the entry at j is the conjunction of the two comparisons
  obtain ⟨hge, hle⟩ := IntOp.andi_eq_one.1 ej
  exact toNat_lt_of_signed (X j) (IntOp.cmpi_sge.1 hge) (IntOp.cmpi_sle.1 hle)

end Cert.PreRange

end
-- ==== Proof.lean ====
/-
  The certificate: a SparseCore embedding lookup equals its reference.

  For a list x of 2048 words, a word table of 1 000 000 rows of 64 floats and a position table of 2048 rows of 64
  floats, under the precondition that every float is finite and every word lies in [0, 999 999], the kernel's
  program and the reference both compute  out[i, e] = word[x i, e] + pos[i, e]  (`Cert.Spec.embed`).

  The kernel's program (thirty-five threads: the TensorCore's @main, two sequencers, thirty-two vector subcores) is
  run once, for every float instance, with the result buffer named as a term of the arguments (`run_main`): both
  of its frame claims are that run with the value dropped — at the word-level instance for the program as printed,
  at the ideal instance for its idealization — and the value claim is its ideal instance. The precondition enters
  only through the words' range: each subcore's indirect copy of table rows needs its 64 words to name rows, and
  the reference's lookup clamps and masks nothing exactly there. The reference's run is its forty-eight host
  operations in a line; its result is the same `embed`. The sum is the same two terms in the same order on both
  sides, so no law of the extended reals is used and finiteness is never opened. The ideal pass rewrote nothing:
  the idealization claim is trivial.
-/
import proofs.«205826_g34540126994749_cont_8to1_b_743_19_alg».proof.Defs
import proofs.«205826_g34540126994749_cont_8to1_b_743_19_alg».proof.Proof.Gen.Kernel
import proofs.«205826_g34540126994749_cont_8to1_b_743_19_alg».proof.Proof.Gen.Kernel.Skeleton
import proofs.«205826_g34540126994749_cont_8to1_b_743_19_alg».proof.Proof.Gen.KernelIdeal
import proofs.«205826_g34540126994749_cont_8to1_b_743_19_alg».proof.Proof.Gen.KernelIdeal.Skeleton
import proofs.«205826_g34540126994749_cont_8to1_b_743_19_alg».proof.Proof.Gen.ReferenceIdeal
import proofs.«205826_g34540126994749_cont_8to1_b_743_19_alg».proof.Proof.Gen.Pre_input_domain
import proofs.«205826_g34540126994749_cont_8to1_b_743_19_alg».proof.Proof.KB.Launch
import proofs.«205826_g34540126994749_cont_8to1_b_743_19_alg».proof.Proof.KI.Launch
import proofs.«205826_g34540126994749_cont_8to1_b_743_19_alg».proof.Proof.Value
import proofs.«205826_g34540126994749_cont_8to1_b_743_19_alg».proof.Proof.RefValue
import proofs.«205826_g34540126994749_cont_8to1_b_743_19_alg».proof.Proof.PreRange
import Idealize.ShloMosaic.Adequacy
import Idealize.ShloMosaic.Init

noncomputable section

namespace Cert.Proof

open Idealize.ShloMosaic Idealize.SL.Sem

/-- The precondition gives the word-level program what its run asks: every word of the list names a table row. -/
theorem preOK_kernel (m : (ℓ : Loc Cert.Kernel.nD Cert.Kernel.τ Cert.Kernel.sig) → Buf (Elt Bits) ℓ) (h : Cert.Pre_Kernel m) :
    Cert.KB.PreOK m := fun d => Cert.PreRange.range_of_pre _ _ _ (h d)

/-- The same for the idealized program. -/
theorem preOK_ideal (m : (ℓ : Loc Cert.KernelIdeal.nD Cert.KernelIdeal.τ Cert.KernelIdeal.sig) → Buf (Elt Ideal) ℓ) (h : Cert.Pre_KernelIdeal m) :
    Cert.KI.PreOK m := fun d => Cert.PreRange.range_of_pre _ _ _ (h d)

/-- The program as printed runs and keeps its arguments: its run with the result dropped. -/
theorem frame_kernel : Cert.frame_Kernel := fun m ρ hpre =>
  (θ_run Cert.Kernel.defs _ _).mono (fun _ h c => (h c).2) (Cert.KB.run_main (F := Bits) m ρ (preOK_kernel m hpre))

/-- Its idealization runs and keeps its arguments. -/
theorem frame_ideal : Cert.frame_KernelIdeal := fun m ρ hpre =>
  (θ_run Cert.KernelIdeal.defs _ _).mono (fun _ h c => (h c).2) (Cert.KI.run_main (F := Ideal) m ρ (preOK_ideal m hpre))

/-- The reference runs and keeps its arguments: its straight line's run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- At the ideal instance, from memories agreeing on the arguments, both programs end with the embedding of the
    arguments in their result buffers. -/
theorem algebraic : Cert.algebraic_KernelIdeal_ReferenceIdeal := by
  intro m ρ m' ρ' hpre hagree
  have hX : Cert.KI.PreOK m := preOK_ideal m hpre
  refine ⟨fun c => Cert.KI.RESm m c, Cert.KI.run_main (F := Ideal) m ρ hX, ?_⟩
  refine (θ_run Cert.ReferenceIdeal.defs _ _).mono (fun _ h c => ⟨(h c).1.trans ?_, (h c).2⟩)
    (Cert.ReferenceIdeal.RefValue.run_embed m' ρ' (fun c j => by rw [(hagree c).1]; exact hX c j))
  rw [(hagree c).1, (hagree c).2.1, (hagree c).2.2]
  exact (Cert.KI.res_eq_embed m c).symm

theorem claim : Cert.Claim :=
  ⟨Cert.Kernel.Gen.facts, Cert.KernelIdeal.Gen.facts, Cert.ReferenceIdeal.Gen.facts, Cert.Pre_input_domain.Gen.facts,
    frame_kernel, frame_ideal, frame_reference, trivial, algebraic⟩

end Cert.Proof

end
